-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S1024x3072 .f32) (main_arg2 : FVec F S3072 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S4096x1024 : Shape := ⟨2, ![4096, 1024]⟩
abbrev S1x3072 : Shape := ⟨2, ![1, 3072]⟩
abbrev S1x1024 : Shape := ⟨2, ![1, 1024]⟩
abbrev S4096x3072 : Shape := ⟨2, ![4096, 3072]⟩
abbrev S512x1024 : Shape := ⟨2, ![512, 1024]⟩
abbrev S512x3072 : Shape := ⟨2, ![512, 3072]⟩
abbrev S512x256 : Shape := ⟨2, ![512, 256]⟩
abbrev S2048x256 : Shape := ⟨2, ![2048, 256]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S1x3072, .f32⟩
  | .hbm, ⟨7, _⟩ => ⟨S1x1024, .f32⟩
  | .hbm, ⟨8, _⟩ => ⟨S4096x3072, .bf16⟩
  | .hbm, ⟨9, _⟩ => ⟨S4096x1024, .bf16⟩
  | .hbm, ⟨10, _⟩ => ⟨S4096x1024, .f32⟩
  | .hbm, ⟨11, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .f32⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S512x256, .bf16⟩
  | .local _ .vmem, ⟨7, _⟩ => ⟨S512x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S512x256, .bf16⟩
  | .local _ .vmem, ⟨13, _⟩ => ⟨S512x256, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![2, 4, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨2, ![1, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S2x2048x1024_S4096x1024 : S2x2048x1024.ShapeCasts S4096x1024
  shapeCasts_S3072_S1x3072 : S3072.ShapeCasts S1x3072
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x3072_S1024x3072_0_0 : ∀ a, (![0, 0] : Fin 2 → Nat) a + S1024x3072.size a ≤ S1024x3072.size a
  h_S1024x3072 : 0 < S1024x3072.numel
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  inb_S512x256_S512x64_0_0 : ∀ a, (![0, 0] : Fin 2 → Nat) a + S512x64.size a ≤ S512x256.size a
  h_S512x64 : 0 < S512x64.numel
  shapeCasts_S512x64_S512x64 : S512x64.ShapeCasts S512x64
  inb_S2048x256_S2048x64_0_0 : ∀ a, (![0, 0] : Fin 2 → Nat) a + S2048x64.size a ≤ S2048x256.size a
  h_S2048x64 : 0 < S2048x64.numel
  shapeCasts_S2048x64_S2048x64 : S2048x64.ShapeCasts S2048x64
  reduces_S512x2048_S512 : S512x2048.Reduces [1] S512
  shapeCasts_S512_S512x1 : S512.ShapeCasts S512x1
  broadcasts_S512x1_S512x2048 : S512x1.Broadcasts S512x2048
  inb_S512x256_S512x64_0_64 : ∀ a, (![0, 64] : Fin 2 → Nat) a + S512x64.size a ≤ S512x256.size a
  inb_S2048x256_S2048x64_0_64 : ∀ a, (![0, 64] : Fin 2 → Nat) a + S2048x64.size a ≤ S2048x256.size a
  inb_S512x256_S512x64_0_128 : ∀ a, (![0, 128] : Fin 2 → Nat) a + S512x64.size a ≤ S512x256.size a
  inb_S2048x256_S2048x64_0_128 : ∀ a, (![0, 128] : Fin 2 → Nat) a + S2048x64.size a ≤ S2048x256.size a
  inb_S512x256_S512x64_0_192 : ∀ a, (![0, 192] : Fin 2 → Nat) a + S512x64.size a ≤ S512x256.size a
  inb_S2048x256_S2048x64_0_192 : ∀ a, (![0, 192] : Fin 2 → Nat) a + S2048x64.size a ≤ S2048x256.size a
  concatenates_S512x64_S512x64_S512x64_S512x64_S512x256_d1 : Shape.Concatenates [S512x64, S512x64, S512x64, S512x64] S512x256 1
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S2x2048x1024 : S4096x1024.ShapeCasts S2x2048x1024
  dot_S512x1024_S1024x3072_S512x3072_1_0_0_1_n_n_wf : DotDims.WF S512x1024 S1024x3072 S512x3072 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .f32 = 32 ∨ (Rect.block (s := S1024x3072) S1024x3072.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S4096x3072.size a
  hwx0_3 : ∀ i : grid0.Coords, EltTy.bits .bf16 = 32 ∨ (Rect.block (s := S4096x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S4096x3072.size a
  hwx1_0 : ∀ i : grid1.Coords, EltTy.bits .bf16 = 32 ∨ (Rect.block (s := S4096x3072) S512x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S4096x3072.size a
  hwx1_1 : ∀ i : grid1.Coords, EltTy.bits .bf16 = 32 ∨ (Rect.block (s := S4096x3072) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S4096x3072.size a
  hwx1_2 : ∀ i : grid1.Coords, EltTy.bits .bf16 = 32 ∨ (Rect.block (s := S4096x3072) S2048x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S4096x1024.size a
  hwx1_3 : ∀ i : grid1.Coords, EltTy.bits .bf16 = 32 ∨ (Rect.block (s := S4096x1024) S512x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2048x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S2x2048x16x64, .f32⟩
  | .hbm, ⟨13, _⟩ => ⟨S2x16x2048x64, .f32⟩
  | .hbm, ⟨14, _⟩ => ⟨S2x2048x16x64, .f32⟩
  | .hbm, ⟨15, _⟩ => ⟨S2x16x2048x64, .f32⟩
  | .hbm, ⟨16, _⟩ => ⟨S2x2048x16x64, .f32⟩
  | .hbm, ⟨17, _⟩ => ⟨S2x16x2048x64, .f32⟩
  | .hbm, ⟨18, _⟩ => ⟨S2x16x2048x2048, .f32⟩
  | .hbm, ⟨19, _⟩ => ⟨S_, .f32⟩
  | .hbm, ⟨20, _⟩ => ⟨S_, .f32⟩
  | .hbm, ⟨21, _⟩ => ⟨S2x16x2048x2048, .f32⟩
  | .hbm, ⟨22, _⟩ => ⟨S2x16x2048x2048, .f32⟩
  | .hbm, ⟨23, _⟩ => ⟨S_, .f32⟩
  | .hbm, ⟨24, _⟩ => ⟨S2x16x2048, .f32⟩
  | .hbm, ⟨25, _⟩ => ⟨S_, .f32⟩
  | .hbm, ⟨26, _⟩ => ⟨S2x16x2048, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x2048, .f32⟩
  | .hbm, ⟨32, _⟩ => ⟨S_, .f32⟩
  | .hbm, ⟨33, _⟩ => ⟨S2x16x2048, .f32⟩
  | .hbm, ⟨34, _⟩ => ⟨S2x16x2048x1, .f32⟩
  | .hbm, ⟨35, _⟩ => ⟨S2x16x2048x2048, .f32⟩
  | .hbm, ⟨36, _⟩ => ⟨S2x16x2048x2048, .f32⟩
  | .hbm, ⟨37, _⟩ => ⟨S2x16x2048x64, .f32⟩
  | .hbm, ⟨38, _⟩ => ⟨S2x2048x16x64, .f32⟩
  | .hbm, ⟨39, _⟩ => ⟨S2x2048x1024, .f32⟩
  | .hbm, ⟨40, _⟩ => ⟨S2x2048x1024, .f32⟩
  | .hbm, ⟨41, _⟩ => ⟨S1x1x1024, .f32⟩
  | .hbm, ⟨42, _⟩ => ⟨S2x2048x1024, .f32⟩
  | .hbm, ⟨43, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S1024x3072_S2x2048x3072_2_0_01_1_n_n_wf : DotDims.WF S2x2048x1024 S1024x3072 S2x2048x3072 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_0_01_1_n_n_wf : DotDims.WF S2x2048x1024 S1024x1024 S2x2048x1024 [2] [0] [0, 1] [1] [] []

variable [Facts₀]

def dot_S2x2048x1024_S1024x3072_S2x2048x3072_2_0_01_1_n_n : DotDims S2x2048x1024 S1024x3072 S2x2048x3072 where
  lhsContracting := [2]
  rhsContracting := [0]
  lhsNonContracting := [0, 1]
  rhsNonContracting := [1]
  lhsBatch := []
  rhsBatch := []
  wf := dot_S2x2048x1024_S1024x3072_S2x2048x3072_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf

class Facts : Prop extends Facts₀ where

variable [Facts]
-- ==== Proof.InProj.lean ====
/-
  The input projection, region 0 of the idealized kernel's @main: every grid point takes a block of 512 rows of
  the flattened activations (4096 × 1024), the whole weight matrix (1024 × 3072) and the whole bias row (1 × 3072),
  and leaves the 512 × 3072 block  rows · W + bias  in the output window's buffer.  This module states what one call
  of the body does to the four staging buffers (a Hoare triple, run symbolically), packages it as the pipeline's
  proof data at ANY contents `V` of the TensorCore's buffers at region entry, and discharges the pipeline's body
  obligation at every grid point.  Nothing here depends on the float instance.
-/
import proofs.«125612_j15891378995335_2_alg».proof.Proof.Gen.KernelIdeal.Launch
import proofs.«125612_j15891378995335_2_alg».proof.Proof.Gen.KernelIdeal.Skeleton
import proofs.«125612_j15891378995335_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.InProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds that window's block whenever the body is called: fetched at this point, or
    fetched earlier with the block index unmoved since (the weights and the bias are fetched once). -/
theorem found_rows {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found_weights {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found_bias {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## One call of the body -/

/-- The body reads each input buffer whole and writes the output buffer whole. -/
abbrev rowsRect : Rect S512x1024 := Rect.unit (s := S512x1024) ![0, 0] S512x1024.size inb_S512x1024_S512x1024_0_0
abbrev weightsRect : Rect S1024x3072 := Rect.unit (s := S1024x3072) ![0, 0] S1024x3072.size inb_S1024x3072_S1024x3072_0_0
abbrev biasRect : Rect S1x3072 := Rect.unit (s := S1x3072) ![0, 0] S1x3072.size inb_S1x3072_S1x3072_0_0
abbrev outRect : Rect S512x3072 := Rect.unit (s := S512x3072) ![0, 0] S512x3072.size inb_S512x3072_S512x3072_0_0

/-- What the body leaves in the output window's buffer, from the three input buffers: its one store. -/
def projected (x : Vec F S512x1024 .f32) (w : Vec F S1024x3072 .f32) (b : Vec F S1x3072 .f32) : Vec F S512x3072 .bf16 :=
  View.canon [⟨outRect, k0_pay1 (View.ld x rowsRect) (View.ld w weightsRect) (View.ld b biasRect)⟩]

/-- The one store covers the buffer. -/
theorem projected_cover (p : Vec F S512x3072 .bf16) (y : S512x3072.Idx) :
    ∃ pc ∈ ([⟨outRect, p⟩] : List (View.Piece (Elt F) S512x3072 .bf16)), y ∈ pc.1.set :=
  View.cover_of_tiled [⟨outRect, p⟩] S512x3072.size (by rfl) y

set_option maxHeartbeats 1000000 in
/-- The body on whole staging memrefs — the inputs' at contents `x`, `w`, `b`, the output's at anything — runs to a
    continuation that holds the inputs' unchanged and the output's at `projected x w b`. -/
theorem body_triple (c : Dev nD) (E : Set ℕ) (i : grid0.Coords)
    (arg2 : Memref sig .tc .vmem S512x1024 .f32) (harg2 : arg2.IsWhole) (arg3 : Memref sig .tc .vmem S1024x3072 .f32) (harg3 : arg3.IsWhole)
    (arg4 : Memref sig .tc .vmem S1x3072 .f32) (harg4 : arg4.IsWhole) (arg5 : Memref sig .tc .vmem S512x3072 .bf16) (harg5 : arg5.IsWhole)
    (x : Vec F S512x1024 .f32) (w : Vec F S1024x3072 .f32) (b : Vec F S1x3072 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d)
        ∗ (iprop(owns (c : Thread nD τ) arg2 fullShare x ∗ owns (c : Thread nD τ) arg3 fullShare w ∗ owns (c : Thread nD τ) arg4 fullShare b
            ∗ owns (c : Thread nD τ) arg5 fullShare (projected x w b)) -∗ K ⟨⟩))
      ⊢ wp frame (wpE (defs₀ (F := F)) Variants.none c none) E (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projected_cover _)

/-! ## The pipeline's proof data -/

/-- Region 0's proof data on core `c`: the arrays as found; after the body at point `t` every input buffer still at its
    block and the output buffer at `projected` of the three input blocks; the invariant carries only what the body never
    touches; nothing owed; full shares (the four arrays are distinct buffers). -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => projected (blockAt V c 0 t) (blockAt V c 1 t) (blockAt V c 2 t)
  Φ _ := Pipeline.ΦA spec0 c
  q _ := fullShare
  owed _ := 0

theorem dat_A (c : Dev nD) (w : Fin cfg0.W) : (dat V c).A w = V c (Pipeline.arrRef spec0 w) := by
  dsimp only [dat]
theorem after_rows (c : Dev nD) (t : Fin cfg0.N) : (dat V c).after 0 t = blockAt V c 0 t := by dsimp only [dat]
theorem after_weights (c : Dev nD) (t : Fin cfg0.N) : (dat V c).after 1 t = blockAt V c 1 t := by dsimp only [dat]
theorem after_bias (c : Dev nD) (t : Fin cfg0.N) : (dat V c).after 2 t = blockAt V c 2 t := by dsimp only [dat]
theorem after_out (c : Dev nD) (t : Fin cfg0.N) :
    (dat V c).after 3 t = projected (blockAt V c 0 t) (blockAt V c 1 t) (blockAt V c 2 t) := by dsimp only [dat]

theorem before_rows (c : Dev nD) (t : Fin cfg0.N) (d) : (dat V c).before 0 t d = blockAt V c 0 t :=
  found_rows V (dat V c) (dat_A V c 0) (after_rows V c) t d
theorem before_weights (c : Dev nD) (t : Fin cfg0.N) (d) : (dat V c).before 1 t d = blockAt V c 1 t :=
  found_weights V (dat V c) (dat_A V c 1) (after_weights V c) t d
theorem before_bias (c : Dev nD) (t : Fin cfg0.N) (d) : (dat V c).before 2 t d = blockAt V c 2 t :=
  found_bias V (dat V c) (dat_A V c 2) (after_bias V c) t d

/-! ## The body obligation -/

/-- What the pipeline hands the body at point `t`, -/
def handed (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it takes back. -/
def returned (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem body_at (c : Dev nD) (t : Fin cfg0.N) :
    handed V c t ⊢ wp frame (wpE (defs₀ (F := F)) Variants.none c none) Set.univ (bodyAt0 t) (fun _ => returned V c t) := by
  unfold handed returned bodyAt0
  simp only [before_rows, before_weights, before_bias]
  rw [show (dat V c).Φ t.succ = (dat V c).Φ t.castSucc from rfl,
    show (dat V c).owesAt () t.succ = (dat V c).owesAt () t.castSucc from rfl,
    after_rows, after_weights, after_bias, after_out]
  iintro ⟨HΦ, Ho, ⟨%d0, H0⟩, ⟨%d1, H1⟩, ⟨%d2, H2⟩, ⟨%d3, H3⟩⟩
  iapply (body_triple c Set.univ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem obligation (c : Dev nD) : BodyObligation (dat (F := F) V c) (defs₀ (F := F)) Variants.none () Set.univ := fun t => by
  rw [bigSep_W0, bigSep_W0]
  exact body_at V c t

end Cert.KernelIdeal.InProj

end
-- ==== Proof.Heads.lean ====
/-
  The attention heads, region 1 of the idealized kernel's @main.  A grid point (batch, head group, query tile) takes
  three blocks of the SAME array — the packed projections, 4096 × 3072 —: 512 query rows × 256 columns of the group's
  four heads, and the batch's 2048 key rows and 2048 value rows × the group's 256 columns each.  For each of the four
  heads it forms the 512 × 2048 scores (queries · keysᵀ, scaled), their row-wise softmax, and softmax · values
  (512 × 64); the four results side by side are the 512 × 256 output block.  This module states what one call of the
  body does to the four staging buffers, packages it as the pipeline's proof data at ANY contents `V` of the
  TensorCore's buffers at region entry — the three input windows holding their common array at three disjoint parts
  of its share —, and discharges the pipeline's body obligation.  Nothing here depends on the float instance.
-/
import proofs.«125612_j15891378995335_2_alg».proof.Proof.Gen.KernelIdeal.Launch
import proofs.«125612_j15891378995335_2_alg».proof.Proof.Gen.KernelIdeal.Skeleton
import proofs.«125612_j15891378995335_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds that window's block whenever the body is called: the query tile is
    fetched at every point; the key and value blocks when the batch or the head group changes, every fourth point,
    their block index standing still in between. -/
theorem found_queries {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found_keys {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found_values {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## One call of the body -/

/-- Head `h` of the group sits in columns 64·h … 64·h + 63 of each input buffer. -/
abbrev qHead0 : Rect S512x256 := Rect.unit (s := S512x256) ![0, 0] S512x64.size inb_S512x256_S512x64_0_0
abbrev qHead1 : Rect S512x256 := Rect.unit (s := S512x256) ![0, 64] S512x64.size inb_S512x256_S512x64_0_64
abbrev qHead2 : Rect S512x256 := Rect.unit (s := S512x256) ![0, 128] S512x64.size inb_S512x256_S512x64_0_128
abbrev qHead3 : Rect S512x256 := Rect.unit (s := S512x256) ![0, 192] S512x64.size inb_S512x256_S512x64_0_192
abbrev kvHead0 : Rect S2048x256 := Rect.unit (s := S2048x256) ![0, 0] S2048x64.size inb_S2048x256_S2048x64_0_0
abbrev kvHead1 : Rect S2048x256 := Rect.unit (s := S2048x256) ![0, 64] S2048x64.size inb_S2048x256_S2048x64_0_64
abbrev kvHead2 : Rect S2048x256 := Rect.unit (s := S2048x256) ![0, 128] S2048x64.size inb_S2048x256_S2048x64_0_128
abbrev kvHead3 : Rect S2048x256 := Rect.unit (s := S2048x256) ![0, 192] S2048x64.size inb_S2048x256_S2048x64_0_192
/-- The output buffer is written whole. -/
abbrev outRect : Rect S512x256 := Rect.unit (s := S512x256) ![0, 0] S512x256.size inb_S512x256_S512x256_0_0

/-- What the body leaves in the output window's buffer, from the query, key and value buffers: its one store, the four
    heads' results side by side (head 0 … head 2 computed in the body's two parts, head 3 in its tail). -/
def attended (q : Vec F S512x256 .bf16) (k v : Vec F S2048x256 .bf16) : Vec F S512x256 .bf16 :=
  View.canon [⟨outRect, k1_pay1
    (k1_pay2 (View.ld q qHead0) (View.ld k kvHead0) (View.ld v kvHead0))
    (k1_pay6 (k1_pay3 (View.ld v kvHead1)) (k1_pay4 (View.ld q qHead1) (View.ld k kvHead1)) (k1_pay5 (View.ld q qHead1) (View.ld k kvHead1)))
    (k1_pay7 (View.ld q qHead2) (View.ld k kvHead2) (View.ld v kvHead2))
    (k1_pay8 (View.ld v kvHead3))
    (k1_pay9 (View.ld q qHead3) (View.ld k kvHead3))
    (Scalar.ofBits .f32 0x3E000000#32)⟩]

/-- The one store covers the buffer. -/
theorem attended_cover (p : Vec F S512x256 .bf16) (y : S512x256.Idx) :
    ∃ pc ∈ ([⟨outRect, p⟩] : List (View.Piece (Elt F) S512x256 .bf16)), y ∈ pc.1.set :=
  View.cover_of_tiled [⟨outRect, p⟩] S512x256.size (by rfl) y

set_option maxHeartbeats 4000000 in
/-- The body on whole staging memrefs — the inputs' at contents `q`, `k`, `v`, the output's at anything — runs to a
    continuation that holds the inputs' unchanged and the output's at `attended q k v`. -/
theorem body_triple (c : Dev nD) (E : Set ℕ) (i : grid1.Coords)
    (arg3 : Memref sig .tc .vmem S512x256 .bf16) (harg3 : arg3.IsWhole) (arg4 : Memref sig .tc .vmem S2048x256 .bf16) (harg4 : arg4.IsWhole)
    (arg5 : Memref sig .tc .vmem S2048x256 .bf16) (harg5 : arg5.IsWhole) (arg6 : Memref sig .tc .vmem S512x256 .bf16) (harg6 : arg6.IsWhole)
    (q : Vec F S512x256 .bf16) (k v : Vec F S2048x256 .bf16) (K : PUnit → sProp 𝕄) :
    iprop(owns (c : Thread nD τ) arg3 fullShare q ∗ owns (c : Thread nD τ) arg4 fullShare k ∗ owns (c : Thread nD τ) arg5 fullShare v
        ∗ (∃ d, owns (c : Thread nD τ) arg6 fullShare d)
        ∗ (iprop(owns (c : Thread nD τ) arg3 fullShare q ∗ owns (c : Thread nD τ) arg4 fullShare k ∗ owns (c : Thread nD τ) arg5 fullShare v
            ∗ owns (c : Thread nD τ) arg6 fullShare (attended q k v)) -∗ K ⟨⟩))
      ⊢ wp frame (wpE (defs₀ (F := F)) Variants.none c none) E (cc1_kernel i arg3 harg3 arg4 harg4 arg5 harg5 arg6 harg6) K := by
  simp only [cc1_kernel_eq_skeleton]; unfold cc1_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (attended_cover _)

/-! ## The pipeline's proof data -/

/-- The three input windows read ONE array, so each holds it at a part of its share: the queries' window at the left
    half, the keys' at the left half of the right half, the values' at what remains.  (The output's array is held
    whole; its entry here is not read.) -/
def shareOf : Fin cfg1.W → PosShare TreeShare
  | ⟨0, _⟩ => fullShare.left
  | ⟨1, _⟩ => fullShare.right.left
  | ⟨2, _⟩ => fullShare.right.right
  | ⟨3, _⟩ => fullShare

/-- Region 1's proof data on core `c`: the arrays as found; after the body at point `t` every input buffer still at its
    block and the output buffer at `attended` of the three input blocks; the invariant carries only what the body never
    touches; nothing owed; the shares as dealt above. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => attended (blockAt V c 0 t) (blockAt V c 1 t) (blockAt V c 2 t)
  Φ _ := Pipeline.ΦA spec1 c
  q := shareOf
  owed _ := 0

theorem dat_A (c : Dev nD) (w : Fin cfg1.W) : (dat V c).A w = V c (Pipeline.arrRef spec1 w) := by
  dsimp only [dat]
theorem after_queries (c : Dev nD) (t : Fin cfg1.N) : (dat V c).after 0 t = blockAt V c 0 t := by dsimp only [dat]
theorem after_keys (c : Dev nD) (t : Fin cfg1.N) : (dat V c).after 1 t = blockAt V c 1 t := by dsimp only [dat]
theorem after_values (c : Dev nD) (t : Fin cfg1.N) : (dat V c).after 2 t = blockAt V c 2 t := by dsimp only [dat]
theorem after_out (c : Dev nD) (t : Fin cfg1.N) :
    (dat V c).after 3 t = attended (blockAt V c 0 t) (blockAt V c 1 t) (blockAt V c 2 t) := by dsimp only [dat]

theorem before_queries (c : Dev nD) (t : Fin cfg1.N) (d) : (dat V c).before 0 t d = blockAt V c 0 t :=
  found_queries V (dat V c) (dat_A V c 0) (after_queries V c) t d
theorem before_keys (c : Dev nD) (t : Fin cfg1.N) (d) : (dat V c).before 1 t d = blockAt V c 1 t :=
  found_keys V (dat V c) (dat_A V c 1) (after_keys V c) t d
theorem before_values (c : Dev nD) (t : Fin cfg1.N) (d) : (dat V c).before 2 t d = blockAt V c 2 t :=
  found_values V (dat V c) (dat_A V c 2) (after_values V c) t d

/-! ## The body obligation -/

/-- What the pipeline hands the body at point `t`, -/
def handed (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it takes back. -/
def returned (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

theorem body_at (c : Dev nD) (t : Fin cfg1.N) :
    handed V c t ⊢ wp frame (wpE (defs₀ (F := F)) Variants.none c none) Set.univ (bodyAt1 t) (fun _ => returned V c t) := by
  unfold handed returned bodyAt1
  simp only [before_queries, before_keys, before_values]
  rw [show (dat V c).Φ t.succ = (dat V c).Φ t.castSucc from rfl,
    show (dat V c).owesAt () t.succ = (dat V c).owesAt () t.castSucc from rfl,
    after_queries, after_keys, after_values, after_out]
  iintro ⟨HΦ, Ho, ⟨%d0, H0⟩, ⟨%d1, H1⟩, ⟨%d2, H2⟩, ⟨%d3, H3⟩⟩
  iapply (body_triple c Set.univ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem obligation (c : Dev nD) : BodyObligation (dat (F := F) V c) (defs₀ (F := F)) Variants.none () Set.univ := fun t => by
  rw [bigSep_W1, bigSep_W1]
  exact body_at V c t

end Cert.KernelIdeal.Heads

end
-- ==== Proof.OutProj.lean ====
/-
  The output projection, region 2 of the idealized kernel's @main: every grid point takes a block of 512 rows of
  the merged attention output (4096 × 1024), the whole weight matrix (1024 × 1024) and the whole bias row (1 × 1024),
  and leaves the 512 × 1024 block  rows · W + bias  in the output window's buffer.  As for the input projection, this
  module states what one call of the body does to the four staging buffers, packages it as the pipeline's proof data
  at ANY contents `V` of the TensorCore's buffers at region entry, and discharges the pipeline's body obligation at
  every grid point.  Nothing here depends on the float instance.
-/
import proofs.«125612_j15891378995335_2_alg».proof.Proof.Gen.KernelIdeal.Launch
import proofs.«125612_j15891378995335_2_alg».proof.Proof.Gen.KernelIdeal.Skeleton
import proofs.«125612_j15891378995335_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the region finds it. -/
def blockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds that window's block whenever the body is called: the attention rows are
    fetched at every point; the weights and the bias once, their block index never moving afterwards. -/
theorem found_rows {c : Dev nD} (dat : Dat τ (Elt F) Unit ℕ (UR sig nD τ) ℕ cfg2 c) (hA : dat.A 0 = V c (Pipeline.arrRef spec2 0))
    (hafter : ∀ t, dat.after 0 t = blockAt V c 0 t) (t : Fin cfg2.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found_weights {c : Dev nD} (dat : Dat τ (Elt F) Unit ℕ (UR sig nD τ) ℕ cfg2 c) (hA : dat.A 1 = V c (Pipeline.arrRef spec2 1))
    (hafter : ∀ t, dat.after 1 t = blockAt V c 1 t) (t : Fin cfg2.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found_bias {c : Dev nD} (dat : Dat τ (Elt F) Unit ℕ (UR sig nD τ) ℕ cfg2 c) (hA : dat.A 2 = V c (Pipeline.arrRef spec2 2))
    (hafter : ∀ t, dat.after 2 t = blockAt V c 2 t) (t : Fin cfg2.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## One call of the body -/

/-- The body reads each input buffer whole and writes the output buffer whole (rows and output have one shape). -/
abbrev rowsRect : Rect S512x1024 := Rect.unit (s := S512x1024) ![0, 0] S512x1024.size inb_S512x1024_S512x1024_0_0
abbrev weightsRect : Rect S1024x1024 := Rect.unit (s := S1024x1024) ![0, 0] S1024x1024.size inb_S1024x1024_S1024x1024_0_0
abbrev biasRect : Rect S1x1024 := Rect.unit (s := S1x1024) ![0, 0] S1x1024.size inb_S1x1024_S1x1024_0_0

/-- What the body leaves in the output window's buffer, from the three input buffers: its one store. -/
def projected (x : Vec F S512x1024 .bf16) (w : Vec F S1024x1024 .f32) (b : Vec F S1x1024 .f32) : Vec F S512x1024 .f32 :=
  View.canon [⟨rowsRect, k2_pay1 (View.ld x rowsRect) (View.ld w weightsRect) (View.ld b biasRect)⟩]

/-- The one store covers the buffer. -/
theorem projected_cover (p : Vec F S512x1024 .f32) (y : S512x1024.Idx) :
    ∃ pc ∈ ([⟨rowsRect, p⟩] : List (View.Piece (Elt F) S512x1024 .f32)), y ∈ pc.1.set :=
  View.cover_of_tiled [⟨rowsRect, p⟩] S512x1024.size (by rfl) y

set_option maxHeartbeats 1000000 in
/-- The body on whole staging memrefs — the inputs' at contents `x`, `w`, `b`, the output's at anything — runs to a
    continuation that holds the inputs' unchanged and the output's at `projected x w b`. -/
theorem body_triple (c : Dev nD) (E : Set ℕ) (i : grid2.Coords)
    (arg2 : Memref sig .tc .vmem S512x1024 .bf16) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S512x1024 .f32) (harg5 : arg5.IsWhole)
    (x : Vec F S512x1024 .bf16) (w : Vec F S1024x1024 .f32) (b : Vec F S1x1024 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d)
        ∗ (iprop(owns (c : Thread nD τ) arg2 fullShare x ∗ owns (c : Thread nD τ) arg3 fullShare w ∗ owns (c : Thread nD τ) arg4 fullShare b
            ∗ owns (c : Thread nD τ) arg5 fullShare (projected x w b)) -∗ K ⟨⟩))
      ⊢ wp frame (wpE (defs₀ (F := F)) Variants.none c none) E (cc2__matmul_bias_kernel i arg2 harg2 arg3 harg3 arg4 harg4 arg5 harg5) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projected_cover _)

/-! ## The pipeline's proof data -/

/-- Region 2's proof data on core `c`: the arrays as found; after the body at point `t` every input buffer still at its
    block and the output buffer at `projected` of the three input blocks; the invariant carries only what the body never
    touches; nothing owed; full shares (the four arrays are distinct buffers). -/
def dat (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => blockAt V c 2 t
    | ⟨3, _⟩ => projected (blockAt V c 0 t) (blockAt V c 1 t) (blockAt V c 2 t)
  Φ _ := Pipeline.ΦA spec2 c
  q _ := fullShare
  owed _ := 0

theorem dat_A (c : Dev nD) (w : Fin cfg2.W) : (dat V c).A w = V c (Pipeline.arrRef spec2 w) := by
  dsimp only [dat]
theorem after_rows (c : Dev nD) (t : Fin cfg2.N) : (dat V c).after 0 t = blockAt V c 0 t := by dsimp only [dat]
theorem after_weights (c : Dev nD) (t : Fin cfg2.N) : (dat V c).after 1 t = blockAt V c 1 t := by dsimp only [dat]
theorem after_bias (c : Dev nD) (t : Fin cfg2.N) : (dat V c).after 2 t = blockAt V c 2 t := by dsimp only [dat]
theorem after_out (c : Dev nD) (t : Fin cfg2.N) :
    (dat V c).after 3 t = projected (blockAt V c 0 t) (blockAt V c 1 t) (blockAt V c 2 t) := by dsimp only [dat]

theorem before_rows (c : Dev nD) (t : Fin cfg2.N) (d) : (dat V c).before 0 t d = blockAt V c 0 t :=
  found_rows V (dat V c) (dat_A V c 0) (after_rows V c) t d
theorem before_weights (c : Dev nD) (t : Fin cfg2.N) (d) : (dat V c).before 1 t d = blockAt V c 1 t :=
  found_weights V (dat V c) (dat_A V c 1) (after_weights V c) t d
theorem before_bias (c : Dev nD) (t : Fin cfg2.N) (d) : (dat V c).before 2 t d = blockAt V c 2 t :=
  found_bias V (dat V c) (dat_A V c 2) (after_bias V c) t d

/-! ## The body obligation -/

/-- What the pipeline hands the body at point `t`, -/
def handed (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it takes back. -/
def returned (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

theorem body_at (c : Dev nD) (t : Fin cfg2.N) :
    handed V c t ⊢ wp frame (wpE (defs₀ (F := F)) Variants.none c none) Set.univ (bodyAt2 t) (fun _ => returned V c t) := by
  unfold handed returned bodyAt2
  simp only [before_rows, before_weights, before_bias]
  rw [show (dat V c).Φ t.succ = (dat V c).Φ t.castSucc from rfl,
    show (dat V c).owesAt () t.succ = (dat V c).owesAt () t.castSucc from rfl,
    after_rows, after_weights, after_bias, after_out]
  iintro ⟨HΦ, Ho, ⟨%d0, H0⟩, ⟨%d1, H1⟩, ⟨%d2, H2⟩, ⟨%d3, H3⟩⟩
  iapply (body_triple c Set.univ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem obligation (c : Dev nD) : BodyObligation (dat (F := F) V c) (defs₀ (F := F)) Variants.none () Set.univ := fun t => by
  rw [bigSep_W2, bigSep_W2]
  exact body_at V c t

end Cert.KernelIdeal.OutProj

end
-- ==== Proof.Whole.lean ====
/-
  The whole run of the idealized kernel's @main: three reshapes on the host, the input projection, the attention
  heads, the output projection, one reshape.  The contents of the TensorCore's unscoped buffers are followed from the
  launch through every item (`memAt0` … `memAt5`): a host stretch applies its operations, a region replaces its output
  array by what its grid points' write-backs leave and keeps every other buffer.  Each region enters the pipeline with
  its windows' arrays split off those buffers and leaves with them put back; the attention region, whose three input
  windows read one array, splits that array's share three ways at entry and gathers it at exit.  The result: every
  weakly fair execution terminates, and at the end every unscoped buffer holds `memAt5`.
-/
import proofs.«125612_j15891378995335_2_alg».proof.Proof.InProj
import proofs.«125612_j15891378995335_2_alg».proof.Proof.Heads
import proofs.«125612_j15891378995335_2_alg».proof.Proof.OutProj

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- At launch. -/
abbrev memAt0 : Dev nD → Valuation τ sig (Elt F) := fun c b => m (c, b)
/-- After the three reshapes (activations flattened, the two biases as rows). -/
abbrev memAt1 : Dev nD → Valuation τ sig (Elt F) := fun c => StableHlo.after hostOps0 (memAt0 m c)
abbrev tcAt1 : (c : Dev nD) → (b : Ref sig .tc) → Buf (Elt F) ((c : Thread nD τ).loc b) := fun c b => memAt1 m c b
/-- After the input projection: its arrays at what the pipeline leaves, the rest as entered. -/
def memAt2 (c : Dev nD) : Valuation τ sig (Elt F) :=
  Pipeline.withArrays spec0 c (memAt1 m c) fun w => (InProj.dat (tcAt1 m) c).arrAt w cfg0.N
theorem memAt2_arr (c : Dev nD) (w : Fin cfg0.W) :
    memAt2 m c (Proc.devRef .tc (Pipeline.arrRef spec0 w)) = (InProj.dat (tcAt1 m) c).arrAt w cfg0.N := by
  unfold memAt2; exact Pipeline.withArrays_arr spec0 launch0.win.arr_inj c _ _ w
theorem memAt2_off (c : Dev nD) (b : Ref sig .tc) (hb : ∀ w, Pipeline.arrRef spec0 w ≠ b) :
    memAt2 m c (Proc.devRef .tc b) = memAt1 m c (Proc.devRef .tc b) := by
  unfold memAt2; exact Pipeline.withArrays_of_ne spec0 c _ _ b hb
abbrev tcAt2 : (c : Dev nD) → (b : Ref sig .tc) → Buf (Elt F) ((c : Thread nD τ).loc b) := fun c b => memAt2 m c b
theorem exit0_arr (c : Dev nD) (w : Fin cfg0.W) : (InProj.dat (tcAt1 m) c).arrAt w cfg0.N = tcAt2 m c (Pipeline.arrRef spec0 w) :=
  (memAt2_arr m c w).symm
theorem exit0_off (c : Dev nD) : ∀ b, b ∉ Finset.univ.image (Pipeline.arrRef spec0) → tcAt2 m c b = tcAt1 m c b :=
  fun b hb => memAt2_off m c b fun w e => hb (Finset.mem_image.mpr ⟨w, Finset.mem_univ _, e⟩)

/-- After the attention heads: the merged output array at what the pipeline leaves; every other buffer — the packed
    projections it read through three windows among them — as entered. -/
def memAt3 (c : Dev nD) : Valuation τ sig (Elt F) :=
  Function.update (memAt2 m c) (Proc.devRef .tc main_v4) ((Heads.dat (tcAt2 m) c).arrAt 3 cfg1.N)
theorem memAt3_out (c : Dev nD) : memAt3 m c (Proc.devRef .tc main_v4) = (Heads.dat (tcAt2 m) c).arrAt 3 cfg1.N := by
  unfold memAt3; exact Function.update_self ..
theorem memAt3_off (c : Dev nD) (b : Ref sig .tc) (hb : b ≠ main_v4) :
    memAt3 m c (Proc.devRef .tc b) = memAt2 m c (Proc.devRef .tc b) := by
  unfold memAt3; exact Function.update_of_ne (StableHlo.devRef_ne_of_ne hb) ..
abbrev tcAt3 : (c : Dev nD) → (b : Ref sig .tc) → Buf (Elt F) ((c : Thread nD τ).loc b) := fun c b => memAt3 m c b

/-- After the output projection. -/
def memAt4 (c : Dev nD) : Valuation τ sig (Elt F) :=
  Pipeline.withArrays spec2 c (memAt3 m c) fun w => (OutProj.dat (tcAt3 m) c).arrAt w cfg2.N
theorem memAt4_arr (c : Dev nD) (w : Fin cfg2.W) :
    memAt4 m c (Proc.devRef .tc (Pipeline.arrRef spec2 w)) = (OutProj.dat (tcAt3 m) c).arrAt w cfg2.N := by
  unfold memAt4; exact Pipeline.withArrays_arr spec2 launch2.win.arr_inj c _ _ w
theorem memAt4_off (c : Dev nD) (b : Ref sig .tc) (hb : ∀ w, Pipeline.arrRef spec2 w ≠ b) :
    memAt4 m c (Proc.devRef .tc b) = memAt3 m c (Proc.devRef .tc b) := by
  unfold memAt4; exact Pipeline.withArrays_of_ne spec2 c _ _ b hb
abbrev tcAt4 : (c : Dev nD) → (b : Ref sig .tc) → Buf (Elt F) ((c : Thread nD τ).loc b) := fun c b => memAt4 m c b
theorem exit2_arr (c : Dev nD) (w : Fin cfg2.W) : (OutProj.dat (tcAt3 m) c).arrAt w cfg2.N = tcAt4 m c (Pipeline.arrRef spec2 w) :=
  (memAt4_arr m c w).symm
theorem exit2_off (c : Dev nD) : ∀ b, b ∉ Finset.univ.image (Pipeline.arrRef spec2) → tcAt4 m c b = tcAt3 m c b :=
  fun b hb => memAt4_off m c b fun w e => hb (Finset.mem_image.mpr ⟨w, Finset.mem_univ _, e⟩)

/-- After the last reshape: the end. -/
abbrev memAt5 : Dev nD → Valuation τ sig (Elt F) := fun c => StableHlo.after hostOps3 (memAt4 m c)

/-! ## The proof data family and what rides beside the buffers -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => InProj.dat (tcAt1 m) c
  | ⟨1, _⟩ => fun c => Heads.dat (tcAt2 m) c
  | ⟨2, _⟩ => fun c => OutProj.dat (tcAt3 m) c
abbrev noVariants : Variants := Variants.none
abbrev noLevels : GSem nD τ sig → Finset Unit := fun _ => ∅
abbrev lvl0 : GSem nD τ sig → Unit → ℕ := fun _ _ => 0
/-- Beside the buffers, through every item: the generator register at some state, and the core owing nothing. -/
abbrev beside (c : Dev nD) : sProp 𝕄 := iprop((∃ r, prngReg c r) ∗ ∃ W, owes (c : Thread nD τ) (0 : CellTallies nD τ sig Unit) W)

theorem pre_fresh : (hostOps0 : List (HloOp τ sig (Elt F))).Forall fun op => op.fresh = ∅ := by
  simp only [List.Forall]; repeat' constructor
theorem post_fresh : (hostOps3 : List (HloOp τ sig (Elt F))).Forall fun op => op.fresh = ∅ := by
  simp only [List.Forall]; repeat' constructor

/-- A host stretch as a segment over the unscoped buffers from contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

/-! ## One buffer at three parts of its share -/

theorem deal_three {ℓ : Loc nD τ sig} (f : Buf (Elt F) ℓ) :
    (ℓ ↦{fullShare} f : sProp 𝕄) ⊢ iprop((ℓ ↦{fullShare.left} f) ∗ (ℓ ↦{fullShare.right.left} f) ∗ (ℓ ↦{fullShare.right.right} f)) :=
  (pointsTo_share (PosShare.mem_left_op_right fullShare)).1.trans
    (sep_mono .rfl (pointsTo_share (PosShare.mem_left_op_right fullShare.right)).1)
theorem gather_three {ℓ : Loc nD τ sig} (f : Buf (Elt F) ℓ) :
    iprop((ℓ ↦{fullShare.left} f) ∗ (ℓ ↦{fullShare.right.left} f) ∗ (ℓ ↦{fullShare.right.right} f)) ⊢ (ℓ ↦{fullShare} f : sProp 𝕄) :=
  (sep_mono .rfl (pointsTo_share (PosShare.mem_left_op_right fullShare.right)).2).trans
    (pointsTo_share (PosShare.mem_left_op_right fullShare)).2

/-! ## The regions as segments -/

set_option backward.isDefEq.respectTransparency.types false in
/-- The input projection: entered from the unscoped buffers at `memAt1`, left at `memAt2`.  Its four arrays are distinct
    buffers, split off whole and put back whole. -/
def regIn : Pipeline.RegionSeg (pcfgs (F := F)) adm (pdats m) () defs₀ noVariants noLevels lvl0 0 where
  win := launch0.win.to₀
  block_pos := launch0.block_pos
  stage_whole := launch0.stage_whole
  K := PEmpty
  osem k := k.elim
  ho := Pipeline.OwnSemFacts.none _
  hbody c := (InProj.obligation (tcAt1 m) c).loose
  hwaits := Pipeline.hwaits_of_owed_zero _ _ _ _ noLevels lvl0 0 fun _ _ => rfl
  pre c := iprop(StableHlo.held (c : Thread nD τ) (Pipeline.ucRefs τ sig) (memAt1 m c) ∗ beside c)
  post c := iprop(StableHlo.held (c : Thread nD τ) (Pipeline.ucRefs τ sig) (memAt2 m c) ∗ beside c)
  X c := iprop(∃ r, prngReg c r)
  Y c := iprop(∃ r, prngReg c r)
  Z c := Pipeline.unscopedRest (Ix := Unit) (Name := ℕ) (U := UR sig nD τ) (Lvl := ℕ) spec0 c (tcAt1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (tcAt1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (tcAt1 m c) (tcAt2 m c) ((pdats m 0 c).arrAt · cfg0.N) (exit0_arr m c) (exit0_off m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output projection: entered from the unscoped buffers at `memAt3`, left at `memAt4`; distinct arrays again. -/
def regOut : Pipeline.RegionSeg (pcfgs (F := F)) adm (pdats m) () defs₀ noVariants noLevels lvl0 2 where
  win := launch2.win.to₀
  block_pos := launch2.block_pos
  stage_whole := launch2.stage_whole
  K := PEmpty
  osem k := k.elim
  ho := Pipeline.OwnSemFacts.none _
  hbody c := (OutProj.obligation (tcAt3 m) c).loose
  hwaits := Pipeline.hwaits_of_owed_zero _ _ _ _ noLevels lvl0 2 fun _ _ => rfl
  pre c := iprop(StableHlo.held (c : Thread nD τ) (Pipeline.ucRefs τ sig) (memAt3 m c) ∗ beside c)
  post c := iprop(StableHlo.held (c : Thread nD τ) (Pipeline.ucRefs τ sig) (memAt4 m c) ∗ beside c)
  X c := iprop(∃ r, prngReg c r)
  Y c := iprop(∃ r, prngReg c r)
  Z c := Pipeline.unscopedRest (Ix := Unit) (Name := ℕ) (U := UR sig nD τ) (Lvl := ℕ) spec2 c (tcAt3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (tcAt3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (tcAt3 m c) (tcAt4 m c) ((pdats m 2 c).arrAt · cfg2.N) (exit2_arr m c) (exit2_off m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention region: one array behind three windows -/

/-- The arrays of pipeline 1 as points-tos of the buffers behind them, each at its window's share. -/
theorem heads_arrays (c : Dev nD)
    (G : (w : Fin (Pipeline.pin (pcfgs (F := F)) adm 1).W) → Buf (Elt F) (((Pipeline.pin (pcfgs (F := F)) adm 1).spec w).arr.view.loc (c : Thread nD τ))) :
    (pdats m 1 c).arrays G
      = iprop((((c : Thread nD τ).loc (Pipeline.arrRef spec1 0)) ↦{fullShare.left} G 0 : sProp 𝕄)
        ∗ (((c : Thread nD τ).loc (Pipeline.arrRef spec1 1)) ↦{fullShare.right.left} G 1)
        ∗ (((c : Thread nD τ).loc (Pipeline.arrRef spec1 2)) ↦{fullShare.right.right} G 2)
        ∗ (((c : Thread nD τ).loc (Pipeline.arrRef spec1 3)) ↦{fullShare} G 3)) := by
  have harr : ∀ w, ((Pipeline.pin (pcfgs (F := F)) adm 1).spec w).arr.IsWhole := arr_whole1
  have e : (pdats m 1 c).arrays G
      = bigSep Finset.univ fun w => (((c : Thread nD τ).loc (Pipeline.arrRef spec1 w)) ↦{(pdats m 1 c).share w} G w : sProp 𝕄) := by
    unfold Pipeline.Dat.arrays
    exact bigSep_congr fun w _ => by rw [(harr w).set_eq_univ]; rfl
  rw [e, bigSep_W1]
  rfl

/-- Two buffers stand behind pipeline 1's four windows. -/
theorem heads_buffers (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v3) ↦{fullShare} W main_v3) ∗ (((c : Thread nD τ).loc main_v4) ↦{fullShare} W main_v4)) := by
  unfold Pipeline.arrBufs
  exact bigSep_eq_bigSepL_of_eq [main_v3, main_v4]
    (by decide : Finset.univ.image (Pipeline.arrRef spec1) = [main_v3, main_v4].toFinset) (by decide) _

/-- ENTRY: the unscoped buffers at `memAt2` are pipeline 1's arrays at their entry contents — the packed projections
    dealt to the three input windows — and the rest. -/
theorem heads_entry (c : Dev nD) :
    (unscopedBufs (Ix := Unit) (Name := ℕ) (U := UR sig nD τ) (Lvl := ℕ) c (tcAt2 m c) : sProp 𝕄)
      ⊢ iprop((pdats m 1 c).arrays ((pdats m 1 c).arrAt · 0)
          ∗ Pipeline.unscopedRest (Ix := Unit) (Name := ℕ) (U := UR sig nD τ) (Lvl := ℕ) spec1 c (tcAt2 m c)) := by
  have hs : (unscopedBufs (Ix := Unit) (Name := ℕ) (U := UR sig nD τ) (Lvl := ℕ) c (tcAt2 m c) : sProp 𝕄)
      = iprop(Pipeline.arrBufs spec1 c (tcAt2 m c) ∗ Pipeline.unscopedRest spec1 c (tcAt2 m c)) :=
    Pipeline.unscopedBufs_split₀ (Pipeline.pin (pcfgs (F := F)) adm) 1 winFacts₀1.arr_unscoped c (tcAt2 m c)
  rw [hs, heads_buffers, heads_arrays]
  refine sep_mono ?_ .rfl
  iintro ⟨H3, H4⟩
  ihave H := (deal_three (tcAt2 m c main_v3)) $$ H3
  icases H with ⟨Ha, Hb, Hc⟩
  isplitl [Ha]; · iexact Ha
  isplitl [Hb]; · iexact Hb
  isplitl [Hc]; · iexact Hc
  iexact H4

/-- EXIT: pipeline 1's arrays after the last point — the three input windows' common array unchanged, the output array
    at what the write-backs leave — and the rest are the unscoped buffers at `memAt3`. -/
theorem heads_exit (c : Dev nD) :
    iprop((pdats m 1 c).arrays ((pdats m 1 c).arrAt · cfg1.N)
        ∗ Pipeline.unscopedRest (Ix := Unit) (Name := ℕ) (U := UR sig nD τ) (Lvl := ℕ) spec1 c (tcAt2 m c))
      ⊢ (unscopedBufs (Ix := Unit) (Name := ℕ) (U := UR sig nD τ) (Lvl := ℕ) c (tcAt3 m c) : sProp 𝕄) := by
  have hs : (unscopedBufs (Ix := Unit) (Name := ℕ) (U := UR sig nD τ) (Lvl := ℕ) c (tcAt3 m c) : sProp 𝕄)
      = iprop(Pipeline.arrBufs spec1 c (tcAt3 m c) ∗ Pipeline.unscopedRest spec1 c (tcAt3 m c)) :=
    Pipeline.unscopedBufs_split₀ (Pipeline.pin (pcfgs (F := F)) adm) 1 winFacts₀1.arr_unscoped c (tcAt3 m c)
  rw [hs, heads_buffers, heads_arrays]
  refine sep_mono ?_ (Entails.of_eq ?_)
  · have hq : (pdats m 1 c).arrAt 0 cfg1.N = tcAt3 m c main_v3 :=
      ((pdats m 1 c).arrAt_in 0 rfl cfg1.N).trans (memAt3_off m c main_v3 (by decide)).symm
    have hk : (pdats m 1 c).arrAt 1 cfg1.N = tcAt3 m c main_v3 :=
      ((pdats m 1 c).arrAt_in 1 rfl cfg1.N).trans (memAt3_off m c main_v3 (by decide)).symm
    have hv : (pdats m 1 c).arrAt 2 cfg1.N = tcAt3 m c main_v3 :=
      ((pdats m 1 c).arrAt_in 2 rfl cfg1.N).trans (memAt3_off m c main_v3 (by decide)).symm
    have ho : (pdats m 1 c).arrAt 3 cfg1.N = tcAt3 m c main_v4 := (memAt3_out m c).symm
    rw [hq, hk, hv, ho]
    iintro ⟨Ha, Hb, Hc, H4⟩
    isplitl [Ha Hb Hc]
    · iapply (gather_three (tcAt3 m c main_v3))
      isplitl [Ha]; · iexact Ha
      isplitl [Hb]; · iexact Hb
      iexact Hc
    iexact H4
  · unfold Pipeline.unscopedRest
    refine bigSep_congr fun b hb => ?_
    have hne : b ≠ main_v4 := fun e => (Finset.mem_sdiff.mp hb).2 (Finset.mem_image.mpr ⟨3, Finset.mem_univ _, e.symm⟩)
    rw [show tcAt3 m c b = tcAt2 m c b from memAt3_off m c b hne]

set_option backward.isDefEq.respectTransparency.types false in
/-- The attention heads: entered from the unscoped buffers at `memAt2`, left at `memAt3`. -/
def regHeads : Pipeline.RegionSeg (pcfgs (F := F)) adm (pdats m) () defs₀ noVariants noLevels lvl0 1 where
  win := winFacts₀1
  block_pos := block_pos1
  stage_whole := stage_whole1
  K := PEmpty
  osem k := k.elim
  ho := Pipeline.OwnSemFacts.none _
  hbody c := (Heads.obligation (tcAt2 m) c).loose
  hwaits := Pipeline.hwaits_of_owed_zero _ _ _ _ noLevels lvl0 1 fun _ _ => rfl
  pre c := iprop(StableHlo.held (c : Thread nD τ) (Pipeline.ucRefs τ sig) (memAt2 m c) ∗ beside c)
  post c := iprop(StableHlo.held (c : Thread nD τ) (Pipeline.ucRefs τ sig) (memAt3 m c) ∗ beside c)
  X c := iprop(∃ r, prngReg c r)
  Y c := iprop(∃ r, prngReg c r)
  Z c := Pipeline.unscopedRest (Ix := Unit) (Name := ℕ) (U := UR sig nD τ) (Lvl := ℕ) spec1 c (tcAt2 m c)
  hentry c := by
    rw [Pipeline.ownSems0_none]
    have hsplit := heads_entry m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := heads_exit m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's five items in order. -/
abbrev segs : List (Pipeline.Seg (pcfgs (F := F)) adm (pdats m) () defs₀ noVariants noLevels lvl0) :=
  [ .host (hostSeg hostOps0 hostOps0_sub pre_fresh (memAt0 m)),
    .region (regIn m),
    .region (regHeads m),
    .region (regOut m),
    .host (hostSeg hostOps3 hostOps3_sub post_fresh (memAt4 m)) ]

theorem main_run (c : Dev nD) : main (F := F) c = Pipeline.Seg.run (segs m) := (main_chain c).trans (by chain_rfl)

/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, the `owes` apart: every unscoped buffer at `memAt5`, the generator register at some state. -/
abbrev atEnd (c : Dev nD) : sProp 𝕄 := iprop(StableHlo.held (c : Thread nD τ) (Pipeline.ucRefs τ sig) (memAt5 m c) ∗ ∃ r, prngReg c r)

set_option backward.isDefEq.respectTransparency.types false in
/-- THE RUN, at any float instance: from any memory `m` with zero counters, every weakly fair execution of @main
    terminates without a fault, and in every final state each unscoped buffer of each core holds `memAt5`. -/
theorem run (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = memAt5 m c b) :=
  Pipeline.θ_run_regions_kit (pcfgs (F := F)) adm (pdats m) () cellOf_inj emb₁ defs₀ noVariants noLevels lvl0 m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (memAt0 m c) ∗ beside c)) (Tₙ := atEnd m)
    (hch := ⟨fun _ => .rfl, fun _ => .rfl, fun _ => .rfl, fun _ => .rfl, fun _ => .rfl, fun c => by
      show iprop(StableHlo.held (c : Thread nD τ) (Pipeline.ucRefs τ sig) (memAt5 m c) ∗ beside c)
        ⊢ iprop(atEnd m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach noLevels lvl0 fun c => ?_
      rw [show unscopedBufs c (fun b => m ((c : Thread nD τ).loc b)) = StableHlo.held (c : Thread nD τ) (Pipeline.ucRefs τ sig) (memAt0 m c)
        from Pipeline.unscopedBufs_held c (memAt0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = memAt5 m c b)
    (hfin := fun c s' => by
      iintro ⟨⟨Hh, -⟩, HSI⟩
      unfold StableHlo.held
      imodintro
      iapply (pointsTo_read_all (Pipeline.ucRefs τ sig) (fun b => (((c : Thread nD τ)).1, b)) (memAt5 m c) s')
      isplitl [Hh] <;> iassumption)
    (hQ := fun s h c => h c)

/-- info: 'Cert.KernelIdeal.Whole.run' depends on axioms: [propext, Classical.choice, Quot.sound] -/
#guard_msgs in #print axioms run

/-! ## The arguments end as launched

No host operation writes an argument; a region reads one through an input window (the weights of the two projections)
or never touches it.  So `memAt5` at an argument's buffer walks back, item by item, to the launch memory. -/

theorem tail_keeps (c : Dev nD) (b : Ref sig .tc) (hb : b ≠ main_v6) :
    memAt5 m c (Proc.devRef .tc b) = memAt4 m c (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne hb))
theorem head_keeps (c : Dev nD) (b : Ref sig .tc) (h0 : b ≠ main_v0) (h1 : b ≠ main_v1) (h2 : b ≠ main_v2) :
    memAt1 m c (Proc.devRef .tc b) = memAt0 m c (Proc.devRef .tc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2⟩))

theorem kept_arg0 (c : Dev nD) : memAt5 m c (Proc.devRef .tc main_arg0) = m ((c : Thread nD τ).loc main_arg0) :=
  calc memAt5 m c (Proc.devRef .tc main_arg0)
    _ = memAt4 m c (Proc.devRef .tc main_arg0) := tail_keeps m c main_arg0 (by decide)
    _ = memAt3 m c (Proc.devRef .tc main_arg0) := memAt4_off m c main_arg0 (by decide)
    _ = memAt2 m c (Proc.devRef .tc main_arg0) := memAt3_off m c main_arg0 (by decide)
    _ = memAt1 m c (Proc.devRef .tc main_arg0) := memAt2_off m c main_arg0 (by decide)
    _ = memAt0 m c (Proc.devRef .tc main_arg0) := head_keeps m c main_arg0 (by decide) (by decide) (by decide)
    _ = m ((c : Thread nD τ).loc main_arg0) := rfl
theorem kept_arg1 (c : Dev nD) : memAt5 m c (Proc.devRef .tc main_arg1) = m ((c : Thread nD τ).loc main_arg1) :=
  calc memAt5 m c (Proc.devRef .tc main_arg1)
    _ = memAt4 m c (Proc.devRef .tc main_arg1) := tail_keeps m c main_arg1 (by decide)
    _ = memAt3 m c (Proc.devRef .tc main_arg1) := memAt4_off m c main_arg1 (by decide)
    _ = memAt2 m c (Proc.devRef .tc main_arg1) := memAt3_off m c main_arg1 (by decide)
    _ = memAt1 m c (Proc.devRef .tc main_arg1) :=
        (memAt2_arr m c 1).trans (((InProj.dat (tcAt1 m) c).arrAt_in 1 rfl _).trans (InProj.dat_A (tcAt1 m) c 1))
    _ = memAt0 m c (Proc.devRef .tc main_arg1) := head_keeps m c main_arg1 (by decide) (by decide) (by decide)
    _ = m ((c : Thread nD τ).loc main_arg1) := rfl
theorem kept_arg2 (c : Dev nD) : memAt5 m c (Proc.devRef .tc main_arg2) = m ((c : Thread nD τ).loc main_arg2) :=
  calc memAt5 m c (Proc.devRef .tc main_arg2)
    _ = memAt4 m c (Proc.devRef .tc main_arg2) := tail_keeps m c main_arg2 (by decide)
    _ = memAt3 m c (Proc.devRef .tc main_arg2) := memAt4_off m c main_arg2 (by decide)
    _ = memAt2 m c (Proc.devRef .tc main_arg2) := memAt3_off m c main_arg2 (by decide)
    _ = memAt1 m c (Proc.devRef .tc main_arg2) := memAt2_off m c main_arg2 (by decide)
    _ = memAt0 m c (Proc.devRef .tc main_arg2) := head_keeps m c main_arg2 (by decide) (by decide) (by decide)
    _ = m ((c : Thread nD τ).loc main_arg2) := rfl
theorem kept_arg3 (c : Dev nD) : memAt5 m c (Proc.devRef .tc main_arg3) = m ((c : Thread nD τ).loc main_arg3) :=
  calc memAt5 m c (Proc.devRef .tc main_arg3)
    _ = memAt4 m c (Proc.devRef .tc main_arg3) := tail_keeps m c main_arg3 (by decide)
    _ = memAt3 m c (Proc.devRef .tc main_arg3) :=
        (memAt4_arr m c 1).trans (((OutProj.dat (tcAt3 m) c).arrAt_in 1 rfl _).trans (OutProj.dat_A (tcAt3 m) c 1))
    _ = memAt2 m c (Proc.devRef .tc main_arg3) := memAt3_off m c main_arg3 (by decide)
    _ = memAt1 m c (Proc.devRef .tc main_arg3) := memAt2_off m c main_arg3 (by decide)
    _ = memAt0 m c (Proc.devRef .tc main_arg3) := head_keeps m c main_arg3 (by decide) (by decide) (by decide)
    _ = m ((c : Thread nD τ).loc main_arg3) := rfl
theorem kept_arg4 (c : Dev nD) : memAt5 m c (Proc.devRef .tc main_arg4) = m ((c : Thread nD τ).loc main_arg4) :=
  calc memAt5 m c (Proc.devRef .tc main_arg4)
    _ = memAt4 m c (Proc.devRef .tc main_arg4) := tail_keeps m c main_arg4 (by decide)
    _ = memAt3 m c (Proc.devRef .tc main_arg4) := memAt4_off m c main_arg4 (by decide)
    _ = memAt2 m c (Proc.devRef .tc main_arg4) := memAt3_off m c main_arg4 (by decide)
    _ = memAt1 m c (Proc.devRef .tc main_arg4) := memAt2_off m c main_arg4 (by decide)
    _ = memAt0 m c (Proc.devRef .tc main_arg4) := head_keeps m c main_arg4 (by decide) (by decide) (by decide)
    _ = m ((c : Thread nD τ).loc main_arg4) := rfl

/-- THE FRAME, at any float instance: @main terminates on every weakly fair execution, faults nowhere, and leaves
    the five argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_unscoped main_arg0 (by decide))).trans (kept_arg0 m c),
     (h c _ (mem_unscoped main_arg1 (by decide))).trans (kept_arg1 m c),
     (h c _ (mem_unscoped main_arg2 (by decide))).trans (kept_arg2 m c),
     (h c _ (mem_unscoped main_arg3 (by decide))).trans (kept_arg3 m c),
     (h c _ (mem_unscoped main_arg4 (by decide))).trans (kept_arg4 m c)⟩) (run m ρ)

end Cert.KernelIdeal.Whole

end
-- ==== Proof.Words.InProj.lean ====
/-
  The input projection, region 0 of the kernel's @main read at the word-level instance (the argument never looks at a float's value, so it is the idealized program's argument over this program's own text): every grid point takes a block of 512 rows of
  the flattened activations (4096 × 1024), the whole weight matrix (1024 × 3072) and the whole bias row (1 × 3072),
  and leaves the 512 × 3072 block  rows · W + bias  in the output window's buffer.  This module states what one call
  of the body does to the four staging buffers (a Hoare triple, run symbolically), packages it as the pipeline's
  proof data at ANY contents `V` of the TensorCore's buffers at region entry, and discharges the pipeline's body
  obligation at every grid point.  Nothing here depends on the float instance.
-/
import proofs.«125612_j15891378995335_2_alg».proof.Proof.Gen.Kernel.Launch
import proofs.«125612_j15891378995335_2_alg».proof.Proof.Gen.Kernel.Skeleton
import proofs.«125612_j15891378995335_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.InProj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds that window's block whenever the body is called: fetched at this point, or
    fetched earlier with the block index unmoved since (the weights and the bias are fetched once). -/
theorem found_rows {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found_weights {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found_bias {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## One call of the body -/

/-- The body reads each input buffer whole and writes the output buffer whole. -/
abbrev rowsRect : Rect S512x1024 := Rect.unit (s := S512x1024) ![0, 0] S512x1024.size inb_S512x1024_S512x1024_0_0
abbrev weightsRect : Rect S1024x3072 := Rect.unit (s := S1024x3072) ![0, 0] S1024x3072.size inb_S1024x3072_S1024x3072_0_0
abbrev biasRect : Rect S1x3072 := Rect.unit (s := S1x3072) ![0, 0] S1x3072.size inb_S1x3072_S1x3072_0_0
abbrev outRect : Rect S512x3072 := Rect.unit (s := S512x3072) ![0, 0] S512x3072.size inb_S512x3072_S512x3072_0_0

/-- What the body leaves in the output window's buffer, from the three input buffers: its one store. -/
def projected (x : Vec F S512x1024 .f32) (w : Vec F S1024x3072 .f32) (b : Vec F S1x3072 .f32) : Vec F S512x3072 .bf16 :=
  View.canon [⟨outRect, k0_pay1 (View.ld x rowsRect) (View.ld w weightsRect) (View.ld b biasRect)⟩]

/-- The one store covers the buffer. -/
theorem projected_cover (p : Vec F S512x3072 .bf16) (y : S512x3072.Idx) :
    ∃ pc ∈ ([⟨outRect, p⟩] : List (View.Piece (Elt F) S512x3072 .bf16)), y ∈ pc.1.set :=
  View.cover_of_tiled [⟨outRect, p⟩] S512x3072.size (by rfl) y

set_option maxHeartbeats 1000000 in
/-- The body on whole staging memrefs — the inputs' at contents `x`, `w`, `b`, the output's at anything — runs to a
    continuation that holds the inputs' unchanged and the output's at `projected x w b`. -/
theorem body_triple (c : Dev nD) (E : Set ℕ) (i : grid0.Coords)
    (arg2 : Memref sig .tc .vmem S512x1024 .f32) (harg2 : arg2.IsWhole) (arg3 : Memref sig .tc .vmem S1024x3072 .f32) (harg3 : arg3.IsWhole)
    (arg4 : Memref sig .tc .vmem S1x3072 .f32) (harg4 : arg4.IsWhole) (arg5 : Memref sig .tc .vmem S512x3072 .bf16) (harg5 : arg5.IsWhole)
    (x : Vec F S512x1024 .f32) (w : Vec F S1024x3072 .f32) (b : Vec F S1x3072 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d)
        ∗ (iprop(owns (c : Thread nD τ) arg2 fullShare x ∗ owns (c : Thread nD τ) arg3 fullShare w ∗ owns (c : Thread nD τ) arg4 fullShare b
            ∗ owns (c : Thread nD τ) arg5 fullShare (projected x w b)) -∗ K ⟨⟩))
      ⊢ wp frame (wpE (defs₀ (F := F)) Variants.none c none) E (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projected_cover _)

/-! ## The pipeline's proof data -/

/-- Region 0's proof data on core `c`: the arrays as found; after the body at point `t` every input buffer still at its
    block and the output buffer at `projected` of the three input blocks; the invariant carries only what the body never
    touches; nothing owed; full shares (the four arrays are distinct buffers). -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => projected (blockAt V c 0 t) (blockAt V c 1 t) (blockAt V c 2 t)
  Φ _ := Pipeline.ΦA spec0 c
  q _ := fullShare
  owed _ := 0

theorem dat_A (c : Dev nD) (w : Fin cfg0.W) : (dat V c).A w = V c (Pipeline.arrRef spec0 w) := by
  dsimp only [dat]
theorem after_rows (c : Dev nD) (t : Fin cfg0.N) : (dat V c).after 0 t = blockAt V c 0 t := by dsimp only [dat]
theorem after_weights (c : Dev nD) (t : Fin cfg0.N) : (dat V c).after 1 t = blockAt V c 1 t := by dsimp only [dat]
theorem after_bias (c : Dev nD) (t : Fin cfg0.N) : (dat V c).after 2 t = blockAt V c 2 t := by dsimp only [dat]
theorem after_out (c : Dev nD) (t : Fin cfg0.N) :
    (dat V c).after 3 t = projected (blockAt V c 0 t) (blockAt V c 1 t) (blockAt V c 2 t) := by dsimp only [dat]

theorem before_rows (c : Dev nD) (t : Fin cfg0.N) (d) : (dat V c).before 0 t d = blockAt V c 0 t :=
  found_rows V (dat V c) (dat_A V c 0) (after_rows V c) t d
theorem before_weights (c : Dev nD) (t : Fin cfg0.N) (d) : (dat V c).before 1 t d = blockAt V c 1 t :=
  found_weights V (dat V c) (dat_A V c 1) (after_weights V c) t d
theorem before_bias (c : Dev nD) (t : Fin cfg0.N) (d) : (dat V c).before 2 t d = blockAt V c 2 t :=
  found_bias V (dat V c) (dat_A V c 2) (after_bias V c) t d

/-! ## The body obligation -/

/-- What the pipeline hands the body at point `t`, -/
def handed (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it takes back. -/
def returned (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem body_at (c : Dev nD) (t : Fin cfg0.N) :
    handed V c t ⊢ wp frame (wpE (defs₀ (F := F)) Variants.none c none) Set.univ (bodyAt0 t) (fun _ => returned V c t) := by
  unfold handed returned bodyAt0
  simp only [before_rows, before_weights, before_bias]
  rw [show (dat V c).Φ t.succ = (dat V c).Φ t.castSucc from rfl,
    show (dat V c).owesAt () t.succ = (dat V c).owesAt () t.castSucc from rfl,
    after_rows, after_weights, after_bias, after_out]
  iintro ⟨HΦ, Ho, ⟨%d0, H0⟩, ⟨%d1, H1⟩, ⟨%d2, H2⟩, ⟨%d3, H3⟩⟩
  iapply (body_triple c Set.univ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem obligation (c : Dev nD) : BodyObligation (dat (F := F) V c) (defs₀ (F := F)) Variants.none () Set.univ := fun t => by
  rw [bigSep_W0, bigSep_W0]
  exact body_at V c t

end Cert.Kernel.InProj

end
-- ==== Proof.Words.Heads.lean ====
/-
  The attention heads, region 1 of the kernel's @main read at the word-level instance (the argument never looks at a float's value, so it is the idealized program's argument over this program's own text).  A grid point (batch, head group, query tile) takes
  three blocks of the SAME array — the packed projections, 4096 × 3072 —: 512 query rows × 256 columns of the group's
  four heads, and the batch's 2048 key rows and 2048 value rows × the group's 256 columns each.  For each of the four
  heads it forms the 512 × 2048 scores (queries · keysᵀ, scaled), their row-wise softmax, and softmax · values
  (512 × 64); the four results side by side are the 512 × 256 output block.  This module states what one call of the
  body does to the four staging buffers, packages it as the pipeline's proof data at ANY contents `V` of the
  TensorCore's buffers at region entry — the three input windows holding their common array at three disjoint parts
  of its share —, and discharges the pipeline's body obligation.  Nothing here depends on the float instance.
-/
import proofs.«125612_j15891378995335_2_alg».proof.Proof.Gen.Kernel.Launch
import proofs.«125612_j15891378995335_2_alg».proof.Proof.Gen.Kernel.Skeleton
import proofs.«125612_j15891378995335_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds that window's block whenever the body is called: the query tile is
    fetched at every point; the key and value blocks when the batch or the head group changes, every fourth point,
    their block index standing still in between. -/
theorem found_queries {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found_keys {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found_values {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## One call of the body -/

/-- Head `h` of the group sits in columns 64·h … 64·h + 63 of each input buffer. -/
abbrev qHead0 : Rect S512x256 := Rect.unit (s := S512x256) ![0, 0] S512x64.size inb_S512x256_S512x64_0_0
abbrev qHead1 : Rect S512x256 := Rect.unit (s := S512x256) ![0, 64] S512x64.size inb_S512x256_S512x64_0_64
abbrev qHead2 : Rect S512x256 := Rect.unit (s := S512x256) ![0, 128] S512x64.size inb_S512x256_S512x64_0_128
abbrev qHead3 : Rect S512x256 := Rect.unit (s := S512x256) ![0, 192] S512x64.size inb_S512x256_S512x64_0_192
abbrev kvHead0 : Rect S2048x256 := Rect.unit (s := S2048x256) ![0, 0] S2048x64.size inb_S2048x256_S2048x64_0_0
abbrev kvHead1 : Rect S2048x256 := Rect.unit (s := S2048x256) ![0, 64] S2048x64.size inb_S2048x256_S2048x64_0_64
abbrev kvHead2 : Rect S2048x256 := Rect.unit (s := S2048x256) ![0, 128] S2048x64.size inb_S2048x256_S2048x64_0_128
abbrev kvHead3 : Rect S2048x256 := Rect.unit (s := S2048x256) ![0, 192] S2048x64.size inb_S2048x256_S2048x64_0_192
/-- The output buffer is written whole. -/
abbrev outRect : Rect S512x256 := Rect.unit (s := S512x256) ![0, 0] S512x256.size inb_S512x256_S512x256_0_0

/-- What the body leaves in the output window's buffer, from the query, key and value buffers: its one store, the four
    heads' results side by side (head 0 … head 2 computed in the body's two parts, head 3 in its tail). -/
def attended (q : Vec F S512x256 .bf16) (k v : Vec F S2048x256 .bf16) : Vec F S512x256 .bf16 :=
  View.canon [⟨outRect, k1_pay1
    (k1_pay2 (View.ld q qHead0) (View.ld k kvHead0) (View.ld v kvHead0))
    (k1_pay6 (k1_pay3 (View.ld v kvHead1)) (k1_pay4 (View.ld q qHead1) (View.ld k kvHead1)) (k1_pay5 (View.ld q qHead1) (View.ld k kvHead1)))
    (k1_pay7 (View.ld q qHead2) (View.ld k kvHead2) (View.ld v kvHead2))
    (k1_pay8 (View.ld v kvHead3))
    (k1_pay9 (View.ld q qHead3) (View.ld k kvHead3))
    (Scalar.ofBits .f32 0x3E000000#32)⟩]

/-- The one store covers the buffer. -/
theorem attended_cover (p : Vec F S512x256 .bf16) (y : S512x256.Idx) :
    ∃ pc ∈ ([⟨outRect, p⟩] : List (View.Piece (Elt F) S512x256 .bf16)), y ∈ pc.1.set :=
  View.cover_of_tiled [⟨outRect, p⟩] S512x256.size (by rfl) y

set_option maxHeartbeats 4000000 in
/-- The body on whole staging memrefs — the inputs' at contents `q`, `k`, `v`, the output's at anything — runs to a
    continuation that holds the inputs' unchanged and the output's at `attended q k v`. -/
theorem body_triple (c : Dev nD) (E : Set ℕ) (i : grid1.Coords)
    (arg3 : Memref sig .tc .vmem S512x256 .bf16) (harg3 : arg3.IsWhole) (arg4 : Memref sig .tc .vmem S2048x256 .bf16) (harg4 : arg4.IsWhole)
    (arg5 : Memref sig .tc .vmem S2048x256 .bf16) (harg5 : arg5.IsWhole) (arg6 : Memref sig .tc .vmem S512x256 .bf16) (harg6 : arg6.IsWhole)
    (q : Vec F S512x256 .bf16) (k v : Vec F S2048x256 .bf16) (K : PUnit → sProp 𝕄) :
    iprop(owns (c : Thread nD τ) arg3 fullShare q ∗ owns (c : Thread nD τ) arg4 fullShare k ∗ owns (c : Thread nD τ) arg5 fullShare v
        ∗ (∃ d, owns (c : Thread nD τ) arg6 fullShare d)
        ∗ (iprop(owns (c : Thread nD τ) arg3 fullShare q ∗ owns (c : Thread nD τ) arg4 fullShare k ∗ owns (c : Thread nD τ) arg5 fullShare v
            ∗ owns (c : Thread nD τ) arg6 fullShare (attended q k v)) -∗ K ⟨⟩))
      ⊢ wp frame (wpE (defs₀ (F := F)) Variants.none c none) E (cc1_kernel i arg3 harg3 arg4 harg4 arg5 harg5 arg6 harg6) K := by
  simp only [cc1_kernel_eq_skeleton]; unfold cc1_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (attended_cover _)

/-! ## The pipeline's proof data -/

/-- The three input windows read ONE array, so each holds it at a part of its share: the queries' window at the left
    half, the keys' at the left half of the right half, the values' at what remains.  (The output's array is held
    whole; its entry here is not read.) -/
def shareOf : Fin cfg1.W → PosShare TreeShare
  | ⟨0, _⟩ => fullShare.left
  | ⟨1, _⟩ => fullShare.right.left
  | ⟨2, _⟩ => fullShare.right.right
  | ⟨3, _⟩ => fullShare

/-- Region 1's proof data on core `c`: the arrays as found; after the body at point `t` every input buffer still at its
    block and the output buffer at `attended` of the three input blocks; the invariant carries only what the body never
    touches; nothing owed; the shares as dealt above. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => attended (blockAt V c 0 t) (blockAt V c 1 t) (blockAt V c 2 t)
  Φ _ := Pipeline.ΦA spec1 c
  q := shareOf
  owed _ := 0

theorem dat_A (c : Dev nD) (w : Fin cfg1.W) : (dat V c).A w = V c (Pipeline.arrRef spec1 w) := by
  dsimp only [dat]
theorem after_queries (c : Dev nD) (t : Fin cfg1.N) : (dat V c).after 0 t = blockAt V c 0 t := by dsimp only [dat]
theorem after_keys (c : Dev nD) (t : Fin cfg1.N) : (dat V c).after 1 t = blockAt V c 1 t := by dsimp only [dat]
theorem after_values (c : Dev nD) (t : Fin cfg1.N) : (dat V c).after 2 t = blockAt V c 2 t := by dsimp only [dat]
theorem after_out (c : Dev nD) (t : Fin cfg1.N) :
    (dat V c).after 3 t = attended (blockAt V c 0 t) (blockAt V c 1 t) (blockAt V c 2 t) := by dsimp only [dat]

theorem before_queries (c : Dev nD) (t : Fin cfg1.N) (d) : (dat V c).before 0 t d = blockAt V c 0 t :=
  found_queries V (dat V c) (dat_A V c 0) (after_queries V c) t d
theorem before_keys (c : Dev nD) (t : Fin cfg1.N) (d) : (dat V c).before 1 t d = blockAt V c 1 t :=
  found_keys V (dat V c) (dat_A V c 1) (after_keys V c) t d
theorem before_values (c : Dev nD) (t : Fin cfg1.N) (d) : (dat V c).before 2 t d = blockAt V c 2 t :=
  found_values V (dat V c) (dat_A V c 2) (after_values V c) t d

/-! ## The body obligation -/

/-- What the pipeline hands the body at point `t`, -/
def handed (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it takes back. -/
def returned (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

theorem body_at (c : Dev nD) (t : Fin cfg1.N) :
    handed V c t ⊢ wp frame (wpE (defs₀ (F := F)) Variants.none c none) Set.univ (bodyAt1 t) (fun _ => returned V c t) := by
  unfold handed returned bodyAt1
  simp only [before_queries, before_keys, before_values]
  rw [show (dat V c).Φ t.succ = (dat V c).Φ t.castSucc from rfl,
    show (dat V c).owesAt () t.succ = (dat V c).owesAt () t.castSucc from rfl,
    after_queries, after_keys, after_values, after_out]
  iintro ⟨HΦ, Ho, ⟨%d0, H0⟩, ⟨%d1, H1⟩, ⟨%d2, H2⟩, ⟨%d3, H3⟩⟩
  iapply (body_triple c Set.univ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem obligation (c : Dev nD) : BodyObligation (dat (F := F) V c) (defs₀ (F := F)) Variants.none () Set.univ := fun t => by
  rw [bigSep_W1, bigSep_W1]
  exact body_at V c t

end Cert.Kernel.Heads

end
-- ==== Proof.Words.OutProj.lean ====
/-
  The output projection, region 2 of the kernel's @main read at the word-level instance (the argument never looks at a float's value, so it is the idealized program's argument over this program's own text): every grid point takes a block of 512 rows of
  the merged attention output (4096 × 1024), the whole weight matrix (1024 × 1024) and the whole bias row (1 × 1024),
  and leaves the 512 × 1024 block  rows · W + bias  in the output window's buffer.  As for the input projection, this
  module states what one call of the body does to the four staging buffers, packages it as the pipeline's proof data
  at ANY contents `V` of the TensorCore's buffers at region entry, and discharges the pipeline's body obligation at
  every grid point.  Nothing here depends on the float instance.
-/
import proofs.«125612_j15891378995335_2_alg».proof.Proof.Gen.Kernel.Launch
import proofs.«125612_j15891378995335_2_alg».proof.Proof.Gen.Kernel.Skeleton
import proofs.«125612_j15891378995335_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.OutProj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the region finds it. -/
def blockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds that window's block whenever the body is called: the attention rows are
    fetched at every point; the weights and the bias once, their block index never moving afterwards. -/
theorem found_rows {c : Dev nD} (dat : Dat τ (Elt F) Unit ℕ (UR sig nD τ) ℕ cfg2 c) (hA : dat.A 0 = V c (Pipeline.arrRef spec2 0))
    (hafter : ∀ t, dat.after 0 t = blockAt V c 0 t) (t : Fin cfg2.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found_weights {c : Dev nD} (dat : Dat τ (Elt F) Unit ℕ (UR sig nD τ) ℕ cfg2 c) (hA : dat.A 1 = V c (Pipeline.arrRef spec2 1))
    (hafter : ∀ t, dat.after 1 t = blockAt V c 1 t) (t : Fin cfg2.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found_bias {c : Dev nD} (dat : Dat τ (Elt F) Unit ℕ (UR sig nD τ) ℕ cfg2 c) (hA : dat.A 2 = V c (Pipeline.arrRef spec2 2))
    (hafter : ∀ t, dat.after 2 t = blockAt V c 2 t) (t : Fin cfg2.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## One call of the body -/

/-- The body reads each input buffer whole and writes the output buffer whole (rows and output have one shape). -/
abbrev rowsRect : Rect S512x1024 := Rect.unit (s := S512x1024) ![0, 0] S512x1024.size inb_S512x1024_S512x1024_0_0
abbrev weightsRect : Rect S1024x1024 := Rect.unit (s := S1024x1024) ![0, 0] S1024x1024.size inb_S1024x1024_S1024x1024_0_0
abbrev biasRect : Rect S1x1024 := Rect.unit (s := S1x1024) ![0, 0] S1x1024.size inb_S1x1024_S1x1024_0_0

/-- What the body leaves in the output window's buffer, from the three input buffers: its one store. -/
def projected (x : Vec F S512x1024 .bf16) (w : Vec F S1024x1024 .f32) (b : Vec F S1x1024 .f32) : Vec F S512x1024 .f32 :=
  View.canon [⟨rowsRect, k2_pay1 (View.ld x rowsRect) (View.ld w weightsRect) (View.ld b biasRect)⟩]

/-- The one store covers the buffer. -/
theorem projected_cover (p : Vec F S512x1024 .f32) (y : S512x1024.Idx) :
    ∃ pc ∈ ([⟨rowsRect, p⟩] : List (View.Piece (Elt F) S512x1024 .f32)), y ∈ pc.1.set :=
  View.cover_of_tiled [⟨rowsRect, p⟩] S512x1024.size (by rfl) y

set_option maxHeartbeats 1000000 in
/-- The body on whole staging memrefs — the inputs' at contents `x`, `w`, `b`, the output's at anything — runs to a
    continuation that holds the inputs' unchanged and the output's at `projected x w b`. -/
theorem body_triple (c : Dev nD) (E : Set ℕ) (i : grid2.Coords)
    (arg2 : Memref sig .tc .vmem S512x1024 .bf16) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S512x1024 .f32) (harg5 : arg5.IsWhole)
    (x : Vec F S512x1024 .bf16) (w : Vec F S1024x1024 .f32) (b : Vec F S1x1024 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d)
        ∗ (iprop(owns (c : Thread nD τ) arg2 fullShare x ∗ owns (c : Thread nD τ) arg3 fullShare w ∗ owns (c : Thread nD τ) arg4 fullShare b
            ∗ owns (c : Thread nD τ) arg5 fullShare (projected x w b)) -∗ K ⟨⟩))
      ⊢ wp frame (wpE (defs₀ (F := F)) Variants.none c none) E (cc2__matmul_bias_kernel i arg2 harg2 arg3 harg3 arg4 harg4 arg5 harg5) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projected_cover _)

/-! ## The pipeline's proof data -/

/-- Region 2's proof data on core `c`: the arrays as found; after the body at point `t` every input buffer still at its
    block and the output buffer at `projected` of the three input blocks; the invariant carries only what the body never
    touches; nothing owed; full shares (the four arrays are distinct buffers). -/
def dat (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => blockAt V c 2 t
    | ⟨3, _⟩ => projected (blockAt V c 0 t) (blockAt V c 1 t) (blockAt V c 2 t)
  Φ _ := Pipeline.ΦA spec2 c
  q _ := fullShare
  owed _ := 0

theorem dat_A (c : Dev nD) (w : Fin cfg2.W) : (dat V c).A w = V c (Pipeline.arrRef spec2 w) := by
  dsimp only [dat]
theorem after_rows (c : Dev nD) (t : Fin cfg2.N) : (dat V c).after 0 t = blockAt V c 0 t := by dsimp only [dat]
theorem after_weights (c : Dev nD) (t : Fin cfg2.N) : (dat V c).after 1 t = blockAt V c 1 t := by dsimp only [dat]
theorem after_bias (c : Dev nD) (t : Fin cfg2.N) : (dat V c).after 2 t = blockAt V c 2 t := by dsimp only [dat]
theorem after_out (c : Dev nD) (t : Fin cfg2.N) :
    (dat V c).after 3 t = projected (blockAt V c 0 t) (blockAt V c 1 t) (blockAt V c 2 t) := by dsimp only [dat]

theorem before_rows (c : Dev nD) (t : Fin cfg2.N) (d) : (dat V c).before 0 t d = blockAt V c 0 t :=
  found_rows V (dat V c) (dat_A V c 0) (after_rows V c) t d
theorem before_weights (c : Dev nD) (t : Fin cfg2.N) (d) : (dat V c).before 1 t d = blockAt V c 1 t :=
  found_weights V (dat V c) (dat_A V c 1) (after_weights V c) t d
theorem before_bias (c : Dev nD) (t : Fin cfg2.N) (d) : (dat V c).before 2 t d = blockAt V c 2 t :=
  found_bias V (dat V c) (dat_A V c 2) (after_bias V c) t d

/-! ## The body obligation -/

/-- What the pipeline hands the body at point `t`, -/
def handed (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it takes back. -/
def returned (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

theorem body_at (c : Dev nD) (t : Fin cfg2.N) :
    handed V c t ⊢ wp frame (wpE (defs₀ (F := F)) Variants.none c none) Set.univ (bodyAt2 t) (fun _ => returned V c t) := by
  unfold handed returned bodyAt2
  simp only [before_rows, before_weights, before_bias]
  rw [show (dat V c).Φ t.succ = (dat V c).Φ t.castSucc from rfl,
    show (dat V c).owesAt () t.succ = (dat V c).owesAt () t.castSucc from rfl,
    after_rows, after_weights, after_bias, after_out]
  iintro ⟨HΦ, Ho, ⟨%d0, H0⟩, ⟨%d1, H1⟩, ⟨%d2, H2⟩, ⟨%d3, H3⟩⟩
  iapply (body_triple c Set.univ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem obligation (c : Dev nD) : BodyObligation (dat (F := F) V c) (defs₀ (F := F)) Variants.none () Set.univ := fun t => by
  rw [bigSep_W2, bigSep_W2]
  exact body_at V c t

end Cert.Kernel.OutProj

end
-- ==== Proof.Words.Whole.lean ====
/-
  The whole run of the kernel's @main read at the word-level instance (the argument never looks at a float's value, so it is the idealized program's argument over this program's own text): three reshapes on the host, the input projection, the attention
  heads, the output projection, one reshape.  The contents of the TensorCore's unscoped buffers are followed from the
  launch through every item (`memAt0` … `memAt5`): a host stretch applies its operations, a region replaces its output
  array by what its grid points' write-backs leave and keeps every other buffer.  Each region enters the pipeline with
  its windows' arrays split off those buffers and leaves with them put back; the attention region, whose three input
  windows read one array, splits that array's share three ways at entry and gathers it at exit.  The result: every
  weakly fair execution terminates, and at the end every unscoped buffer holds `memAt5`.
-/
import proofs.«125612_j15891378995335_2_alg».proof.Proof.Words.InProj
import proofs.«125612_j15891378995335_2_alg».proof.Proof.Words.Heads
import proofs.«125612_j15891378995335_2_alg».proof.Proof.Words.OutProj

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- At launch. -/
abbrev memAt0 : Dev nD → Valuation τ sig (Elt F) := fun c b => m (c, b)
/-- After the three reshapes (activations flattened, the two biases as rows). -/
abbrev memAt1 : Dev nD → Valuation τ sig (Elt F) := fun c => StableHlo.after hostOps0 (memAt0 m c)
abbrev tcAt1 : (c : Dev nD) → (b : Ref sig .tc) → Buf (Elt F) ((c : Thread nD τ).loc b) := fun c b => memAt1 m c b
/-- After the input projection: its arrays at what the pipeline leaves, the rest as entered. -/
def memAt2 (c : Dev nD) : Valuation τ sig (Elt F) :=
  Pipeline.withArrays spec0 c (memAt1 m c) fun w => (InProj.dat (tcAt1 m) c).arrAt w cfg0.N
theorem memAt2_arr (c : Dev nD) (w : Fin cfg0.W) :
    memAt2 m c (Proc.devRef .tc (Pipeline.arrRef spec0 w)) = (InProj.dat (tcAt1 m) c).arrAt w cfg0.N := by
  unfold memAt2; exact Pipeline.withArrays_arr spec0 launch0.win.arr_inj c _ _ w
theorem memAt2_off (c : Dev nD) (b : Ref sig .tc) (hb : ∀ w, Pipeline.arrRef spec0 w ≠ b) :
    memAt2 m c (Proc.devRef .tc b) = memAt1 m c (Proc.devRef .tc b) := by
  unfold memAt2; exact Pipeline.withArrays_of_ne spec0 c _ _ b hb
abbrev tcAt2 : (c : Dev nD) → (b : Ref sig .tc) → Buf (Elt F) ((c : Thread nD τ).loc b) := fun c b => memAt2 m c b
theorem exit0_arr (c : Dev nD) (w : Fin cfg0.W) : (InProj.dat (tcAt1 m) c).arrAt w cfg0.N = tcAt2 m c (Pipeline.arrRef spec0 w) :=
  (memAt2_arr m c w).symm
theorem exit0_off (c : Dev nD) : ∀ b, b ∉ Finset.univ.image (Pipeline.arrRef spec0) → tcAt2 m c b = tcAt1 m c b :=
  fun b hb => memAt2_off m c b fun w e => hb (Finset.mem_image.mpr ⟨w, Finset.mem_univ _, e⟩)

/-- After the attention heads: the merged output array at what the pipeline leaves; every other buffer — the packed
    projections it read through three windows among them — as entered. -/
def memAt3 (c : Dev nD) : Valuation τ sig (Elt F) :=
  Function.update (memAt2 m c) (Proc.devRef .tc main_v4) ((Heads.dat (tcAt2 m) c).arrAt 3 cfg1.N)
theorem memAt3_out (c : Dev nD) : memAt3 m c (Proc.devRef .tc main_v4) = (Heads.dat (tcAt2 m) c).arrAt 3 cfg1.N := by
  unfold memAt3; exact Function.update_self ..
theorem memAt3_off (c : Dev nD) (b : Ref sig .tc) (hb : b ≠ main_v4) :
    memAt3 m c (Proc.devRef .tc b) = memAt2 m c (Proc.devRef .tc b) := by
  unfold memAt3; exact Function.update_of_ne (StableHlo.devRef_ne_of_ne hb) ..
abbrev tcAt3 : (c : Dev nD) → (b : Ref sig .tc) → Buf (Elt F) ((c : Thread nD τ).loc b) := fun c b => memAt3 m c b

/-- After the output projection. -/
def memAt4 (c : Dev nD) : Valuation τ sig (Elt F) :=
  Pipeline.withArrays spec2 c (memAt3 m c) fun w => (OutProj.dat (tcAt3 m) c).arrAt w cfg2.N
theorem memAt4_arr (c : Dev nD) (w : Fin cfg2.W) :
    memAt4 m c (Proc.devRef .tc (Pipeline.arrRef spec2 w)) = (OutProj.dat (tcAt3 m) c).arrAt w cfg2.N := by
  unfold memAt4; exact Pipeline.withArrays_arr spec2 launch2.win.arr_inj c _ _ w
theorem memAt4_off (c : Dev nD) (b : Ref sig .tc) (hb : ∀ w, Pipeline.arrRef spec2 w ≠ b) :
    memAt4 m c (Proc.devRef .tc b) = memAt3 m c (Proc.devRef .tc b) := by
  unfold memAt4; exact Pipeline.withArrays_of_ne spec2 c _ _ b hb
abbrev tcAt4 : (c : Dev nD) → (b : Ref sig .tc) → Buf (Elt F) ((c : Thread nD τ).loc b) := fun c b => memAt4 m c b
theorem exit2_arr (c : Dev nD) (w : Fin cfg2.W) : (OutProj.dat (tcAt3 m) c).arrAt w cfg2.N = tcAt4 m c (Pipeline.arrRef spec2 w) :=
  (memAt4_arr m c w).symm
theorem exit2_off (c : Dev nD) : ∀ b, b ∉ Finset.univ.image (Pipeline.arrRef spec2) → tcAt4 m c b = tcAt3 m c b :=
  fun b hb => memAt4_off m c b fun w e => hb (Finset.mem_image.mpr ⟨w, Finset.mem_univ _, e⟩)

/-- After the last reshape: the end. -/
abbrev memAt5 : Dev nD → Valuation τ sig (Elt F) := fun c => StableHlo.after hostOps3 (memAt4 m c)

/-! ## The proof data family and what rides beside the buffers -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => InProj.dat (tcAt1 m) c
  | ⟨1, _⟩ => fun c => Heads.dat (tcAt2 m) c
  | ⟨2, _⟩ => fun c => OutProj.dat (tcAt3 m) c
abbrev noVariants : Variants := Variants.none
abbrev noLevels : GSem nD τ sig → Finset Unit := fun _ => ∅
abbrev lvl0 : GSem nD τ sig → Unit → ℕ := fun _ _ => 0
/-- Beside the buffers, through every item: the generator register at some state, and the core owing nothing. -/
abbrev beside (c : Dev nD) : sProp 𝕄 := iprop((∃ r, prngReg c r) ∗ ∃ W, owes (c : Thread nD τ) (0 : CellTallies nD τ sig Unit) W)

theorem pre_fresh : (hostOps0 : List (HloOp τ sig (Elt F))).Forall fun op => op.fresh = ∅ := by
  simp only [List.Forall]; repeat' constructor
theorem post_fresh : (hostOps3 : List (HloOp τ sig (Elt F))).Forall fun op => op.fresh = ∅ := by
  simp only [List.Forall]; repeat' constructor

/-- A host stretch as a segment over the unscoped buffers from contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

/-! ## One buffer at three parts of its share -/

theorem deal_three {ℓ : Loc nD τ sig} (f : Buf (Elt F) ℓ) :
    (ℓ ↦{fullShare} f : sProp 𝕄) ⊢ iprop((ℓ ↦{fullShare.left} f) ∗ (ℓ ↦{fullShare.right.left} f) ∗ (ℓ ↦{fullShare.right.right} f)) :=
  (pointsTo_share (PosShare.mem_left_op_right fullShare)).1.trans
    (sep_mono .rfl (pointsTo_share (PosShare.mem_left_op_right fullShare.right)).1)
theorem gather_three {ℓ : Loc nD τ sig} (f : Buf (Elt F) ℓ) :
    iprop((ℓ ↦{fullShare.left} f) ∗ (ℓ ↦{fullShare.right.left} f) ∗ (ℓ ↦{fullShare.right.right} f)) ⊢ (ℓ ↦{fullShare} f : sProp 𝕄) :=
  (sep_mono .rfl (pointsTo_share (PosShare.mem_left_op_right fullShare.right)).2).trans
    (pointsTo_share (PosShare.mem_left_op_right fullShare)).2

/-! ## The regions as segments -/

set_option backward.isDefEq.respectTransparency.types false in
/-- The input projection: entered from the unscoped buffers at `memAt1`, left at `memAt2`.  Its four arrays are distinct
    buffers, split off whole and put back whole. -/
def regIn : Pipeline.RegionSeg (pcfgs (F := F)) adm (pdats m) () defs₀ noVariants noLevels lvl0 0 where
  win := launch0.win.to₀
  block_pos := launch0.block_pos
  stage_whole := launch0.stage_whole
  K := PEmpty
  osem k := k.elim
  ho := Pipeline.OwnSemFacts.none _
  hbody c := (InProj.obligation (tcAt1 m) c).loose
  hwaits := Pipeline.hwaits_of_owed_zero _ _ _ _ noLevels lvl0 0 fun _ _ => rfl
  pre c := iprop(StableHlo.held (c : Thread nD τ) (Pipeline.ucRefs τ sig) (memAt1 m c) ∗ beside c)
  post c := iprop(StableHlo.held (c : Thread nD τ) (Pipeline.ucRefs τ sig) (memAt2 m c) ∗ beside c)
  X c := iprop(∃ r, prngReg c r)
  Y c := iprop(∃ r, prngReg c r)
  Z c := Pipeline.unscopedRest (Ix := Unit) (Name := ℕ) (U := UR sig nD τ) (Lvl := ℕ) spec0 c (tcAt1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (tcAt1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (tcAt1 m c) (tcAt2 m c) ((pdats m 0 c).arrAt · cfg0.N) (exit0_arr m c) (exit0_off m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output projection: entered from the unscoped buffers at `memAt3`, left at `memAt4`; distinct arrays again. -/
def regOut : Pipeline.RegionSeg (pcfgs (F := F)) adm (pdats m) () defs₀ noVariants noLevels lvl0 2 where
  win := launch2.win.to₀
  block_pos := launch2.block_pos
  stage_whole := launch2.stage_whole
  K := PEmpty
  osem k := k.elim
  ho := Pipeline.OwnSemFacts.none _
  hbody c := (OutProj.obligation (tcAt3 m) c).loose
  hwaits := Pipeline.hwaits_of_owed_zero _ _ _ _ noLevels lvl0 2 fun _ _ => rfl
  pre c := iprop(StableHlo.held (c : Thread nD τ) (Pipeline.ucRefs τ sig) (memAt3 m c) ∗ beside c)
  post c := iprop(StableHlo.held (c : Thread nD τ) (Pipeline.ucRefs τ sig) (memAt4 m c) ∗ beside c)
  X c := iprop(∃ r, prngReg c r)
  Y c := iprop(∃ r, prngReg c r)
  Z c := Pipeline.unscopedRest (Ix := Unit) (Name := ℕ) (U := UR sig nD τ) (Lvl := ℕ) spec2 c (tcAt3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (tcAt3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (tcAt3 m c) (tcAt4 m c) ((pdats m 2 c).arrAt · cfg2.N) (exit2_arr m c) (exit2_off m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention region: one array behind three windows -/

/-- The arrays of pipeline 1 as points-tos of the buffers behind them, each at its window's share. -/
theorem heads_arrays (c : Dev nD)
    (G : (w : Fin (Pipeline.pin (pcfgs (F := F)) adm 1).W) → Buf (Elt F) (((Pipeline.pin (pcfgs (F := F)) adm 1).spec w).arr.view.loc (c : Thread nD τ))) :
    (pdats m 1 c).arrays G
      = iprop((((c : Thread nD τ).loc (Pipeline.arrRef spec1 0)) ↦{fullShare.left} G 0 : sProp 𝕄)
        ∗ (((c : Thread nD τ).loc (Pipeline.arrRef spec1 1)) ↦{fullShare.right.left} G 1)
        ∗ (((c : Thread nD τ).loc (Pipeline.arrRef spec1 2)) ↦{fullShare.right.right} G 2)
        ∗ (((c : Thread nD τ).loc (Pipeline.arrRef spec1 3)) ↦{fullShare} G 3)) := by
  have harr : ∀ w, ((Pipeline.pin (pcfgs (F := F)) adm 1).spec w).arr.IsWhole := arr_whole1
  have e : (pdats m 1 c).arrays G
      = bigSep Finset.univ fun w => (((c : Thread nD τ).loc (Pipeline.arrRef spec1 w)) ↦{(pdats m 1 c).share w} G w : sProp 𝕄) := by
    unfold Pipeline.Dat.arrays
    exact bigSep_congr fun w _ => by rw [(harr w).set_eq_univ]; rfl
  rw [e, bigSep_W1]
  rfl

/-- Two buffers stand behind pipeline 1's four windows. -/
theorem heads_buffers (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v3) ↦{fullShare} W main_v3) ∗ (((c : Thread nD τ).loc main_v4) ↦{fullShare} W main_v4)) := by
  unfold Pipeline.arrBufs
  exact bigSep_eq_bigSepL_of_eq [main_v3, main_v4]
    (by decide : Finset.univ.image (Pipeline.arrRef spec1) = [main_v3, main_v4].toFinset) (by decide) _

/-- ENTRY: the unscoped buffers at `memAt2` are pipeline 1's arrays at their entry contents — the packed projections
    dealt to the three input windows — and the rest. -/
theorem heads_entry (c : Dev nD) :
    (unscopedBufs (Ix := Unit) (Name := ℕ) (U := UR sig nD τ) (Lvl := ℕ) c (tcAt2 m c) : sProp 𝕄)
      ⊢ iprop((pdats m 1 c).arrays ((pdats m 1 c).arrAt · 0)
          ∗ Pipeline.unscopedRest (Ix := Unit) (Name := ℕ) (U := UR sig nD τ) (Lvl := ℕ) spec1 c (tcAt2 m c)) := by
  have hs : (unscopedBufs (Ix := Unit) (Name := ℕ) (U := UR sig nD τ) (Lvl := ℕ) c (tcAt2 m c) : sProp 𝕄)
      = iprop(Pipeline.arrBufs spec1 c (tcAt2 m c) ∗ Pipeline.unscopedRest spec1 c (tcAt2 m c)) :=
    Pipeline.unscopedBufs_split₀ (Pipeline.pin (pcfgs (F := F)) adm) 1 winFacts₀1.arr_unscoped c (tcAt2 m c)
  rw [hs, heads_buffers, heads_arrays]
  refine sep_mono ?_ .rfl
  iintro ⟨H3, H4⟩
  ihave H := (deal_three (tcAt2 m c main_v3)) $$ H3
  icases H with ⟨Ha, Hb, Hc⟩
  isplitl [Ha]; · iexact Ha
  isplitl [Hb]; · iexact Hb
  isplitl [Hc]; · iexact Hc
  iexact H4

/-- EXIT: pipeline 1's arrays after the last point — the three input windows' common array unchanged, the output array
    at what the write-backs leave — and the rest are the unscoped buffers at `memAt3`. -/
theorem heads_exit (c : Dev nD) :
    iprop((pdats m 1 c).arrays ((pdats m 1 c).arrAt · cfg1.N)
        ∗ Pipeline.unscopedRest (Ix := Unit) (Name := ℕ) (U := UR sig nD τ) (Lvl := ℕ) spec1 c (tcAt2 m c))
      ⊢ (unscopedBufs (Ix := Unit) (Name := ℕ) (U := UR sig nD τ) (Lvl := ℕ) c (tcAt3 m c) : sProp 𝕄) := by
  have hs : (unscopedBufs (Ix := Unit) (Name := ℕ) (U := UR sig nD τ) (Lvl := ℕ) c (tcAt3 m c) : sProp 𝕄)
      = iprop(Pipeline.arrBufs spec1 c (tcAt3 m c) ∗ Pipeline.unscopedRest spec1 c (tcAt3 m c)) :=
    Pipeline.unscopedBufs_split₀ (Pipeline.pin (pcfgs (F := F)) adm) 1 winFacts₀1.arr_unscoped c (tcAt3 m c)
  rw [hs, heads_buffers, heads_arrays]
  refine sep_mono ?_ (Entails.of_eq ?_)
  · have hq : (pdats m 1 c).arrAt 0 cfg1.N = tcAt3 m c main_v3 :=
      ((pdats m 1 c).arrAt_in 0 rfl cfg1.N).trans (memAt3_off m c main_v3 (by decide)).symm
    have hk : (pdats m 1 c).arrAt 1 cfg1.N = tcAt3 m c main_v3 :=
      ((pdats m 1 c).arrAt_in 1 rfl cfg1.N).trans (memAt3_off m c main_v3 (by decide)).symm
    have hv : (pdats m 1 c).arrAt 2 cfg1.N = tcAt3 m c main_v3 :=
      ((pdats m 1 c).arrAt_in 2 rfl cfg1.N).trans (memAt3_off m c main_v3 (by decide)).symm
    have ho : (pdats m 1 c).arrAt 3 cfg1.N = tcAt3 m c main_v4 := (memAt3_out m c).symm
    rw [hq, hk, hv, ho]
    iintro ⟨Ha, Hb, Hc, H4⟩
    isplitl [Ha Hb Hc]
    · iapply (gather_three (tcAt3 m c main_v3))
      isplitl [Ha]; · iexact Ha
      isplitl [Hb]; · iexact Hb
      iexact Hc
    iexact H4
  · unfold Pipeline.unscopedRest
    refine bigSep_congr fun b hb => ?_
    have hne : b ≠ main_v4 := fun e => (Finset.mem_sdiff.mp hb).2 (Finset.mem_image.mpr ⟨3, Finset.mem_univ _, e.symm⟩)
    rw [show tcAt3 m c b = tcAt2 m c b from memAt3_off m c b hne]

set_option backward.isDefEq.respectTransparency.types false in
/-- The attention heads: entered from the unscoped buffers at `memAt2`, left at `memAt3`. -/
def regHeads : Pipeline.RegionSeg (pcfgs (F := F)) adm (pdats m) () defs₀ noVariants noLevels lvl0 1 where
  win := winFacts₀1
  block_pos := block_pos1
  stage_whole := stage_whole1
  K := PEmpty
  osem k := k.elim
  ho := Pipeline.OwnSemFacts.none _
  hbody c := (Heads.obligation (tcAt2 m) c).loose
  hwaits := Pipeline.hwaits_of_owed_zero _ _ _ _ noLevels lvl0 1 fun _ _ => rfl
  pre c := iprop(StableHlo.held (c : Thread nD τ) (Pipeline.ucRefs τ sig) (memAt2 m c) ∗ beside c)
  post c := iprop(StableHlo.held (c : Thread nD τ) (Pipeline.ucRefs τ sig) (memAt3 m c) ∗ beside c)
  X c := iprop(∃ r, prngReg c r)
  Y c := iprop(∃ r, prngReg c r)
  Z c := Pipeline.unscopedRest (Ix := Unit) (Name := ℕ) (U := UR sig nD τ) (Lvl := ℕ) spec1 c (tcAt2 m c)
  hentry c := by
    rw [Pipeline.ownSems0_none]
    have hsplit := heads_entry m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := heads_exit m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's five items in order. -/
abbrev segs : List (Pipeline.Seg (pcfgs (F := F)) adm (pdats m) () defs₀ noVariants noLevels lvl0) :=
  [ .host (hostSeg hostOps0 hostOps0_sub pre_fresh (memAt0 m)),
    .region (regIn m),
    .region (regHeads m),
    .region (regOut m),
    .host (hostSeg hostOps3 hostOps3_sub post_fresh (memAt4 m)) ]

theorem main_run (c : Dev nD) : main (F := F) c = Pipeline.Seg.run (segs m) := (main_chain c).trans (by chain_rfl)

/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, the `owes` apart: every unscoped buffer at `memAt5`, the generator register at some state. -/
abbrev atEnd (c : Dev nD) : sProp 𝕄 := iprop(StableHlo.held (c : Thread nD τ) (Pipeline.ucRefs τ sig) (memAt5 m c) ∗ ∃ r, prngReg c r)

set_option backward.isDefEq.respectTransparency.types false in
/-- THE RUN, at any float instance: from any memory `m` with zero counters, every weakly fair execution of @main
    terminates without a fault, and in every final state each unscoped buffer of each core holds `memAt5`. -/
theorem run (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = memAt5 m c b) :=
  Pipeline.θ_run_regions_kit (pcfgs (F := F)) adm (pdats m) () cellOf_inj emb₁ defs₀ noVariants noLevels lvl0 m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (memAt0 m c) ∗ beside c)) (Tₙ := atEnd m)
    (hch := ⟨fun _ => .rfl, fun _ => .rfl, fun _ => .rfl, fun _ => .rfl, fun _ => .rfl, fun c => by
      show iprop(StableHlo.held (c : Thread nD τ) (Pipeline.ucRefs τ sig) (memAt5 m c) ∗ beside c)
        ⊢ iprop(atEnd m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach noLevels lvl0 fun c => ?_
      rw [show unscopedBufs c (fun b => m ((c : Thread nD τ).loc b)) = StableHlo.held (c : Thread nD τ) (Pipeline.ucRefs τ sig) (memAt0 m c)
        from Pipeline.unscopedBufs_held c (memAt0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = memAt5 m c b)
    (hfin := fun c s' => by
      iintro ⟨⟨Hh, -⟩, HSI⟩
      unfold StableHlo.held
      imodintro
      iapply (pointsTo_read_all (Pipeline.ucRefs τ sig) (fun b => (((c : Thread nD τ)).1, b)) (memAt5 m c) s')
      isplitl [Hh] <;> iassumption)
    (hQ := fun s h c => h c)

/-- info: 'Cert.Kernel.Whole.run' depends on axioms: [propext, Classical.choice, Quot.sound] -/
#guard_msgs in #print axioms run

/-! ## The arguments end as launched

No host operation writes an argument; a region reads one through an input window (the weights of the two projections)
or never touches it.  So `memAt5` at an argument's buffer walks back, item by item, to the launch memory. -/

theorem tail_keeps (c : Dev nD) (b : Ref sig .tc) (hb : b ≠ main_v6) :
    memAt5 m c (Proc.devRef .tc b) = memAt4 m c (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne hb))
theorem head_keeps (c : Dev nD) (b : Ref sig .tc) (h0 : b ≠ main_v0) (h1 : b ≠ main_v1) (h2 : b ≠ main_v2) :
    memAt1 m c (Proc.devRef .tc b) = memAt0 m c (Proc.devRef .tc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2⟩))

theorem kept_arg0 (c : Dev nD) : memAt5 m c (Proc.devRef .tc main_arg0) = m ((c : Thread nD τ).loc main_arg0) :=
  calc memAt5 m c (Proc.devRef .tc main_arg0)
    _ = memAt4 m c (Proc.devRef .tc main_arg0) := tail_keeps m c main_arg0 (by decide)
    _ = memAt3 m c (Proc.devRef .tc main_arg0) := memAt4_off m c main_arg0 (by decide)
    _ = memAt2 m c (Proc.devRef .tc main_arg0) := memAt3_off m c main_arg0 (by decide)
    _ = memAt1 m c (Proc.devRef .tc main_arg0) := memAt2_off m c main_arg0 (by decide)
    _ = memAt0 m c (Proc.devRef .tc main_arg0) := head_keeps m c main_arg0 (by decide) (by decide) (by decide)
    _ = m ((c : Thread nD τ).loc main_arg0) := rfl
theorem kept_arg1 (c : Dev nD) : memAt5 m c (Proc.devRef .tc main_arg1) = m ((c : Thread nD τ).loc main_arg1) :=
  calc memAt5 m c (Proc.devRef .tc main_arg1)
    _ = memAt4 m c (Proc.devRef .tc main_arg1) := tail_keeps m c main_arg1 (by decide)
    _ = memAt3 m c (Proc.devRef .tc main_arg1) := memAt4_off m c main_arg1 (by decide)
    _ = memAt2 m c (Proc.devRef .tc main_arg1) := memAt3_off m c main_arg1 (by decide)
    _ = memAt1 m c (Proc.devRef .tc main_arg1) :=
        (memAt2_arr m c 1).trans (((InProj.dat (tcAt1 m) c).arrAt_in 1 rfl _).trans (InProj.dat_A (tcAt1 m) c 1))
    _ = memAt0 m c (Proc.devRef .tc main_arg1) := head_keeps m c main_arg1 (by decide) (by decide) (by decide)
    _ = m ((c : Thread nD τ).loc main_arg1) := rfl
theorem kept_arg2 (c : Dev nD) : memAt5 m c (Proc.devRef .tc main_arg2) = m ((c : Thread nD τ).loc main_arg2) :=
  calc memAt5 m c (Proc.devRef .tc main_arg2)
    _ = memAt4 m c (Proc.devRef .tc main_arg2) := tail_keeps m c main_arg2 (by decide)
    _ = memAt3 m c (Proc.devRef .tc main_arg2) := memAt4_off m c main_arg2 (by decide)
    _ = memAt2 m c (Proc.devRef .tc main_arg2) := memAt3_off m c main_arg2 (by decide)
    _ = memAt1 m c (Proc.devRef .tc main_arg2) := memAt2_off m c main_arg2 (by decide)
    _ = memAt0 m c (Proc.devRef .tc main_arg2) := head_keeps m c main_arg2 (by decide) (by decide) (by decide)
    _ = m ((c : Thread nD τ).loc main_arg2) := rfl
theorem kept_arg3 (c : Dev nD) : memAt5 m c (Proc.devRef .tc main_arg3) = m ((c : Thread nD τ).loc main_arg3) :=
  calc memAt5 m c (Proc.devRef .tc main_arg3)
    _ = memAt4 m c (Proc.devRef .tc main_arg3) := tail_keeps m c main_arg3 (by decide)
    _ = memAt3 m c (Proc.devRef .tc main_arg3) :=
        (memAt4_arr m c 1).trans (((OutProj.dat (tcAt3 m) c).arrAt_in 1 rfl _).trans (OutProj.dat_A (tcAt3 m) c 1))
    _ = memAt2 m c (Proc.devRef .tc main_arg3) := memAt3_off m c main_arg3 (by decide)
    _ = memAt1 m c (Proc.devRef .tc main_arg3) := memAt2_off m c main_arg3 (by decide)
    _ = memAt0 m c (Proc.devRef .tc main_arg3) := head_keeps m c main_arg3 (by decide) (by decide) (by decide)
    _ = m ((c : Thread nD τ).loc main_arg3) := rfl
theorem kept_arg4 (c : Dev nD) : memAt5 m c (Proc.devRef .tc main_arg4) = m ((c : Thread nD τ).loc main_arg4) :=
  calc memAt5 m c (Proc.devRef .tc main_arg4)
    _ = memAt4 m c (Proc.devRef .tc main_arg4) := tail_keeps m c main_arg4 (by decide)
    _ = memAt3 m c (Proc.devRef .tc main_arg4) := memAt4_off m c main_arg4 (by decide)
    _ = memAt2 m c (Proc.devRef .tc main_arg4) := memAt3_off m c main_arg4 (by decide)
    _ = memAt1 m c (Proc.devRef .tc main_arg4) := memAt2_off m c main_arg4 (by decide)
    _ = memAt0 m c (Proc.devRef .tc main_arg4) := head_keeps m c main_arg4 (by decide) (by decide) (by decide)
    _ = m ((c : Thread nD τ).loc main_arg4) := rfl

/-- THE FRAME, at any float instance: @main terminates on every weakly fair execution, faults nowhere, and leaves
    the five argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_unscoped main_arg0 (by decide))).trans (kept_arg0 m c),
     (h c _ (mem_unscoped main_arg1 (by decide))).trans (kept_arg1 m c),
     (h c _ (mem_unscoped main_arg2 (by decide))).trans (kept_arg2 m c),
     (h c _ (mem_unscoped main_arg3 (by decide))).trans (kept_arg3 m c),
     (h c _ (mem_unscoped main_arg4 (by decide))).trans (kept_arg4 m c)⟩) (run m ρ)

end Cert.Kernel.Whole

end
-- ==== Proof.InProjValue.lean ====
/-
  The value of the input projection at the ideal instance.  One call of the body leaves, at row p and column q of the
  512 × 3072 output block,  Σ_k rows[p, k] · W[k, q] + bias[0, q]  (the matrix unit's product into a zero
  accumulator, read at an index, plus the broadcast bias row; the changes of float format are identities).  Grid
  point t writes that block back at rows 512·t … 512·t + 511 of the 4096 × 3072 array, and its row block of the
  activations is the same rows of the 4096 × 1024 array, so what it writes is the block of ONE function of the three
  arrays, `affine`; the eight blocks cover the array, so the array ends holding `affine` of the arrays it found.
-/
import proofs.«125612_j15891378995335_2_alg».proof.Proof.InProj
import Idealize.ShloMosaic.Lib.Pipeline.Value
import Idealize.ShloMosaic.Lib.ValueIdx
import Idealize.ShloMosaic.PureOps.Ideal.Laws

set_option maxRecDepth 16384

noncomputable section

namespace Cert.KernelIdeal.InProjValue

open Cert.KernelIdeal Cert.KernelIdeal.Gen Idealize.ShloMosaic Idealize.ShloMosaic.TcCoe Idealize.SL.Sem
open Idealize.ShloMosaic.Pipeline (Dat)

/-- The block product's dimension record: 512 × 1024 times 1024 × 3072. -/
abbrev D : DotDims S512x1024 S1024x3072 S512x3072 := dot_S512x1024_S1024x3072_S512x3072_1_0_0_1_n_n

/-! ## The matrix product of a block, read at an index -/

theorem lhs_row (i : S512x3072.Idx) (q : D.contr.Idx) : (D.lhsIdx i q 0).val = (i 0).val := by
  unfold DotDims.lhsIdx
  rw [dif_neg (show ¬(0 : Fin S512x1024.rank) ∈ D.lhsBatch by decide), dif_pos (show (0 : Fin S512x1024.rank) ∈ D.lhsNonContracting by decide)]
  rfl
theorem lhs_inner (i : S512x3072.Idx) (q : D.contr.Idx) : (D.lhsIdx i q 1).val = (q ⟨0, by decide⟩).val :=
  D.lhsIdx_val_of_single rfl i q
theorem rhs_inner (i : S512x3072.Idx) (q : D.contr.Idx) : (D.rhsIdx i q 0).val = (q ⟨0, by decide⟩).val :=
  D.rhsIdx_val_of_single rfl i q
theorem rhs_col (i : S512x3072.Idx) (q : D.contr.Idx) : (D.rhsIdx i q 1).val = (i 1).val := by
  unfold DotDims.rhsIdx
  rw [dif_neg (show ¬(1 : Fin S1024x3072.rank) ∈ D.rhsBatch by decide), dif_pos (show (1 : Fin S1024x3072.rank) ∈ D.rhsNonContracting by decide)]
  rfl

/-- Row `i 0`, inner index `k` of the rows' block; inner index `k`, column `i 1` of the weights; row 0, column `i 1` of the bias. -/
abbrev atRow (i : S512x3072.Idx) (k : Fin 1024) : S512x1024.Idx := fun a => match a with
  | ⟨0, _⟩ => ⟨(i 0).val, (i 0).isLt⟩
  | ⟨1, _⟩ => ⟨k.val, k.isLt⟩
abbrev atCol (i : S512x3072.Idx) (k : Fin 1024) : S1024x3072.Idx := fun a => match a with
  | ⟨0, _⟩ => ⟨k.val, k.isLt⟩
  | ⟨1, _⟩ => ⟨(i 1).val, (i 1).isLt⟩
abbrev atBias (i : S512x3072.Idx) : S1x3072.Idx := fun a => match a with
  | ⟨0, _⟩ => ⟨0, Nat.one_pos⟩
  | ⟨1, _⟩ => ⟨(i 1).val, (i 1).isLt⟩

theorem product_at {φ₁ φ₂ : FTy} (l : FVec Ideal S512x1024 φ₁) (r : FVec Ideal S1024x3072 φ₂) (i : S512x3072.Idx) :
    matmul (F := Ideal) D none l r (constant (F := Ideal) S512x3072 .f32 0x00000000#32) i = ∑ k : Fin 1024, l (atRow i k) * r (atCol i k) := by
  simp only [matmul]
  rw [Ideal.matmul_constant_zero_apply, ← Equiv.sum_comp (ValueIdx.contrEquiv1 D 1024 rfl rfl).symm]
  refine Finset.sum_congr rfl fun k _ => ?_
  have hk := ValueIdx.contrEquiv1_symm_val D 1024 rfl rfl k
  have el : D.lhsIdx i ((ValueIdx.contrEquiv1 D 1024 rfl rfl).symm k) = atRow i k := funext fun a => Fin.ext (by
    match a with
    | ⟨0, _⟩ => exact lhs_row _ _
    | ⟨1, _⟩ => exact (lhs_inner _ _).trans hk)
  have er : D.rhsIdx i ((ValueIdx.contrEquiv1 D 1024 rfl rfl).symm k) = atCol i k := funext fun a => Fin.ext (by
    match a with
    | ⟨0, _⟩ => exact (rhs_inner _ _).trans hk
    | ⟨1, _⟩ => exact rhs_col _ _)
  rw [el, er]

/-- The body's stored value at an index of the block. -/
theorem stored_at (x : FVec Ideal S512x1024 .f32) (w : FVec Ideal S1024x3072 .f32) (b : FVec Ideal S1x3072 .f32) (i : S512x3072.Idx) :
    k0_pay1 (F := Ideal) x w b i = (∑ k : Fin 1024, x (atRow i k) * w (atCol i k)) + b (atBias i) := by
  unfold k0_pay1
  simp only [shapeCast_self]
  show matmul (F := Ideal) D none (truncf .bf16 x bitsLt_bf16_f32) (truncf .bf16 w bitsLt_bf16_f32) (constant (F := Ideal) S512x3072 .f32 0x00000000#32) i
      + broadcastTo S512x3072 b broadcasts_S1x3072_S512x3072 i = _
  rw [product_at, broadcastTo_apply b broadcasts_S1x3072_S512x3072 i (atBias i) (fun a => match a with
    | ⟨0, _⟩ => by show 0 = if (1 : Nat) = 1 then 0 else (i 0).val; rw [if_pos rfl]
    | ⟨1, _⟩ => by show (i 1).val = if (3072 : Nat) = 1 then 0 else (i 1).val; rw [if_neg (by decide)])]
  rfl

/-! ## The whole array -/

abbrev rowOf (i : S4096x3072.Idx) (k : Fin 1024) : S4096x1024.Idx := fun a => match a with
  | ⟨0, _⟩ => ⟨(i 0).val, (i 0).isLt⟩
  | ⟨1, _⟩ => ⟨k.val, k.isLt⟩
abbrev colOf (i : S4096x3072.Idx) (k : Fin 1024) : S1024x3072.Idx := fun a => match a with
  | ⟨0, _⟩ => ⟨k.val, k.isLt⟩
  | ⟨1, _⟩ => ⟨(i 1).val, (i 1).isLt⟩
abbrev biasOf (i : S4096x3072.Idx) : S1x3072.Idx := fun a => match a with
  | ⟨0, _⟩ => ⟨0, Nat.one_pos⟩
  | ⟨1, _⟩ => ⟨(i 1).val, (i 1).isLt⟩

/-- rows · W + bias over the whole arrays, index by index. -/
def affine (X : S4096x1024.Idx → EReal) (W : S1024x3072.Idx → EReal) (B : S1x3072.Idx → EReal) : S4096x3072.Idx → EReal :=
  fun i => (∑ k : Fin 1024, X (rowOf i k) * W (colOf i k)) + B (biasOf i)

theorem zeros : (![0, 0] : Fin 2 → Nat) = fun _ => 0 := funext fun a => by fin_cases a <;> rfl

/-- The printed index maps over the eight grid points: the rows' block moves with the output's row block; the weights,
    the bias and the output's column block stand at zero. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 7 :=
  (by decide +kernel : ∀ t : Fin grid0.N, _)
/-- Every row block is some point's. -/
theorem index_onto : ∀ q : Fin 8, ∃ t : Fin cfg0.N, win0_3.index t = ![q.val, 0] :=
  (by decide +kernel : ∀ q : Fin 8, ∃ t : Fin grid0.N, win0_3.index t = ![q.val, 0])

variable (V : (c : Dev nD) → (b : Ref sig .tc) → Buf (Elt Ideal) ((c : Thread nD τ).loc b))

/-- WHAT POINT `t` WRITES BACK is block `t` of `affine` of the arrays as the region finds them. -/
theorem written (c : Dev nD) (t : Fin cfg0.N) :
    (InProj.dat (F := Ideal) V c).flushed 3 t
      = ((cfg0.win 3).blk t).view.read (Elt Ideal) (affine (V c main_v0) (V c main_arg1) (V c main_v1)) := by
  show (cfg0.win 3).cut (grid0.coords t) ((InProj.dat V c).after 3 t) = _
  rw [InProj.after_out]
  unfold InProj.projected
  rw [View.canon_unit_zero zeros]
  simp only [View.ld_unit_zero (S := S512x1024) zeros, View.ld_unit_zero (S := S1024x3072) zeros, View.ld_unit_zero (S := S1x3072) zeros]
  obtain ⟨e0, e1, e2, e3, e4, e5, e6, e7⟩ := index_facts t
  funext j
  show k0_pay1 (F := Ideal) (InProj.blockAt V c 0 t) (InProj.blockAt V c 1 t) (InProj.blockAt V c 2 t) j
    = affine (V c main_v0) (V c main_arg1) (V c main_v1) (((cfg0.win 3).blk t).view.emb j)
  refine (stored_at (InProj.blockAt V c 0 t) (InProj.blockAt V c 1 t) (InProj.blockAt V c 2 t) j).trans ?_
  unfold affine
  congr 1
  · refine Finset.sum_congr rfl fun k _ => ?_
    congr 1
    · show V c main_v0 (((cfg0.win 0).blk t).view.emb (atRow j k)) = V c main_v0 (rowOf (((cfg0.win 3).blk t).view.emb j) k)
      congr 1; funext a; apply Fin.ext
      match a with
      | ⟨0, _⟩ => show win0_0.index t (0 : Fin 2) * 512 + 1 * (j 0).val = win0_3.index t (0 : Fin 2) * 512 + 1 * (j 0).val; omega
      | ⟨1, _⟩ => show win0_0.index t (1 : Fin 2) * 1024 + 1 * k.val = k.val; omega
    · show V c main_arg1 (((cfg0.win 1).blk t).view.emb (atCol j k)) = V c main_arg1 (colOf (((cfg0.win 3).blk t).view.emb j) k)
      congr 1; funext a; apply Fin.ext
      match a with
      | ⟨0, _⟩ => show win0_1.index t (0 : Fin 2) * 1024 + 1 * k.val = k.val; omega
      | ⟨1, _⟩ => show win0_1.index t (1 : Fin 2) * 3072 + 1 * (j 1).val = win0_3.index t (1 : Fin 2) * 3072 + 1 * (j 1).val; omega
  · show V c main_v1 (((cfg0.win 2).blk t).view.emb (atBias j)) = V c main_v1 (biasOf (((cfg0.win 3).blk t).view.emb j))
    congr 1; funext a; apply Fin.ext
    match a with
    | ⟨0, _⟩ => show win0_2.index t (0 : Fin 2) * 1 + 1 * 0 = 0; omega
    | ⟨1, _⟩ => show win0_2.index t (1 : Fin 2) * 3072 + 1 * (j 1).val = win0_3.index t (1 : Fin 2) * 3072 + 1 * (j 1).val; omega

/-- An index of the array is in point `t`'s block iff each coordinate is in the block's range on its axis. -/
theorem mem_block (t : Fin cfg0.N) (i : S4096x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v3).slice (win0_3.rect t)).set ↔ _
  rw [View.set_slice_whole, Rect.mem_set_unit]
  exact Iff.rfl

/-- The eight row blocks cover the array. -/
theorem covered (i : S4096x3072.Idx) :
    ∃ t : Fin cfg0.N, (cfg0.win 3).flush t = true ∧ i ∈ ((cfg0.win 3).blk t).view.set := by
  have hi0 : (i 0).val < 4096 := (i 0).isLt
  have hi1 : (i 1).val < 3072 := (i 1).isLt
  obtain ⟨t, ht⟩ := index_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 3072 ≤ (i 1).val ∧ (i 1).val < win0_3.index t (1 : Fin 2) * 3072 + 3072; omega

/-- THE ARRAY after the region: `affine` of the three arrays it found. -/
theorem final (c : Dev nD) :
    (InProj.dat (F := Ideal) V c).arrAt 3 cfg0.N = affine (V c main_v0) (V c main_arg1) (V c main_v1) :=
  (InProj.dat (F := Ideal) V c).arrAt_eq_of_cover 3 _ (fun t _ => written V c t) covered

end Cert.KernelIdeal.InProjValue

end
-- ==== Proof.Softmax.lean ====
/-
  The mathematics both programs share on one row of attention scores, as pure functions over the extended reals, and
  the one law that joins their two spellings of the scale.

  For a row of scores s : Fin 2048 → EReal both programs form  top = max(-∞, max_n s n)  (a fold of max from -∞, then
  one more max with -∞),  e n = exp(s n - top),  the weights  e n / Σ e,  and the weighted sum of a column of values.
  The kernel scales the raw scores by the literal 0.125; the reference divides them by sqrt(64).  On every extended
  real x,  x · 0.125 = x / sqrt(64):  sqrt(64) is the real 8, 0.125 the real 1/8, and dividing by a nonzero real is
  multiplying by its inverse, infinities included.
-/
import Idealize.ShloMosaic.PureOps.Ideal
import Idealize.ShloMosaic.PureOps.Ideal.Laws

noncomputable section

namespace Cert.Attn

open Idealize.ShloMosaic

/-- -∞ as both programs print it. -/
abbrev negInf : EReal := Ideal.ofBits .f32 0xFF800000#32

/-- The row's top: the fold of max from -∞ over the row, and one more max with -∞. -/
def rowTop (s : Fin 2048 → EReal) : EReal := max negInf ((Finset.univ : Finset (Fin 2048)).fold max negInf s)
/-- The shifted exponentials. -/
def rowExp (s : Fin 2048 → EReal) (n : Fin 2048) : EReal := Ideal.exp (s n - rowTop s)
/-- The softmax weights. -/
def rowWeight (s : Fin 2048 → EReal) (n : Fin 2048) : EReal := Ideal.div (rowExp s n) (∑ n' : Fin 2048, rowExp s n')
/-- The row's weighted sum of a column of values. -/
def attendRow (s v : Fin 2048 → EReal) : EReal := ∑ n : Fin 2048, rowWeight s n * v n

/-- The kernel's scale is the real 1/8. -/
theorem eighth : Ideal.ofBits .f32 0x3E000000#32 = ((1 / 8 : ℝ) : EReal) := by
  simp [Ideal.ofBits, Ideal.ieee, -EReal.coe_mul]; norm_num
/-- The reference's divisor is the real 8. -/
theorem sqrt_sixtyfour : Ideal.sqrt (Ideal.ofBits .f32 0x42800000#32) = ((8 : ℝ) : EReal) := by
  have h : Ideal.ofBits .f32 0x42800000#32 = ((64 : ℝ) : EReal) := by
    simp [Ideal.ofBits, Ideal.ieee, -EReal.coe_mul]; norm_num
  rw [h, Ideal.sqrt_coe, if_neg (by norm_num)]
  have h8 : Real.sqrt 64 = 8 := by
    rw [show (64 : ℝ) = 8 ^ 2 by norm_num]
    exact Real.sqrt_sq (by norm_num)
  rw [h8]

/-- THE LAW: scaling by the kernel's literal is dividing by the reference's square root, on every extended real. -/
theorem scale_eq (x : EReal) : x * Ideal.ofBits .f32 0x3E000000#32 = Ideal.div x (Ideal.sqrt (Ideal.ofBits .f32 0x42800000#32)) := by
  rw [eighth, sqrt_sixtyfour, Ideal.div_coe (by norm_num : (8 : ℝ) ≠ 0)]

end Cert.Attn

end
-- ==== Proof.HeadsValue.lean ====
/-
  The value of the attention region at the ideal instance.

  One head.  From 512 query rows, 2048 key rows and 2048 value rows of 64 features each, the body forms the 512 × 2048
  scores (queries · keysᵀ, times the scale), takes each row's top (the fold of max from -∞, and one more max with -∞),
  the shifted exponentials, their row sums, the quotients, and the product of those weights with the values: `headOf`.
  The body spells this four times — once per head of the group, cut across its two parts and its tail —; each spelling
  is `headOf` of that head's three slices.  Read at row p and feature d it is the row-softmax of the row's scores applied
  to column d of the values (`Cert.Attn.attendRow`).
-/
import proofs.«125612_j15891378995335_2_alg».proof.Proof.Heads
import proofs.«125612_j15891378995335_2_alg».proof.Proof.Softmax
import Idealize.ShloMosaic.Lib.Pipeline.Value
import Idealize.ShloMosaic.Lib.ValueIdx
import Idealize.ShloMosaic.PureOps.Ideal.Laws

set_option maxRecDepth 16384

noncomputable section

namespace Cert.KernelIdeal.HeadsValue

open Cert.KernelIdeal Cert.KernelIdeal.Gen Idealize.ShloMosaic Idealize.ShloMosaic.TcCoe Idealize.SL.Sem
open Idealize.ShloMosaic.Pipeline (Dat)
open Idealize.ShloMosaic.ValueIdx (ix1 ix2)

/-- Scores: 512 × 64 times (2048 × 64)ᵀ.  Weighted values: 512 × 2048 times 2048 × 64. -/
abbrev Dqk : DotDims S512x64 S2048x64 S512x2048 := dot_S512x64_S2048x64_S512x2048_1_1_0_0_n_n
abbrev Dpv : DotDims S512x2048 S2048x64 S512x64 := dot_S512x2048_S2048x64_S512x64_1_0_0_1_n_n

section AnyFloat
variable {F : FTy → Type} [FloatOps F]

/-- The raw scores. -/
def rawScores (q : FVec F S512x64 .bf16) (k : FVec F S2048x64 .bf16) : FVec F S512x2048 .f32 :=
  matmul Dqk none q k (constant S512x2048 .f32 0x00000000#32)
/-- The scaled scores. -/
def scaled (c : F .f32) (raw : FVec F S512x2048 .f32) : FVec F S512x2048 .f32 := mulf raw (broadcast S512x2048 c)
/-- Each row's top. -/
def tops (s : FVec F S512x2048 .f32) : FVec F S512 .f32 :=
  maximumf (broadcast S512 (Scalar.ofBits .f32 0xFF800000#32)) (multiReduction .maximumf [1] S512 s 0xFF800000#32 reduces_S512x2048_S512 (.inl rfl) rfl)
/-- The shifted exponentials. -/
def exps (s : FVec F S512x2048 .f32) : FVec F S512x2048 .f32 :=
  exp (subf s (broadcastTo S512x2048 (shapeCast S512x1 (tops s) shapeCasts_S512_S512x1) broadcasts_S512x1_S512x2048))
/-- Their row sums. -/
def dens (e : FVec F S512x2048 .f32) : FVec F S512 .f32 :=
  multiReduction .add [1] S512 e 0x00000000#32 reduces_S512x2048_S512 (.inl rfl) rfl
/-- The softmax weights. -/
def probs (e : FVec F S512x2048 .f32) : FVec F S512x2048 .f32 :=
  divf e (broadcastTo S512x2048 (shapeCast S512x1 (dens e) shapeCasts_S512_S512x1) broadcasts_S512x1_S512x2048)
/-- From raw scores to the head's result. -/
def finish (c : F .f32) (raw : FVec F S512x2048 .f32) (v : FVec F S2048x64 .bf16) : FVec F S512x64 .f32 :=
  matmul Dpv none (truncf .bf16 (probs (exps (scaled c raw))) bitsLt_bf16_f32) v (constant S512x64 .f32 0x00000000#32)
/-- One head's result. -/
def headOf (c : F .f32) (q : FVec F S512x64 .bf16) (k v : FVec F S2048x64 .bf16) : FVec F S512x64 .f32 :=
  finish c (rawScores q k) v

/-- The scale as the body prints it. -/
abbrev scale : F .f32 := Scalar.ofBits .f32 0x3E000000#32

/-- Head 0 of the group: the first part's first result. -/
theorem head0_eq (q : Vec F S512x64 .bf16) (k v : Vec F S2048x64 .bf16) : k1_pay2 q k v = headOf scale q k v := by
  unfold k1_pay2 headOf finish probs dens exps tops scaled rawScores
  simp only [shapeCast_self]
/-- Head 1: begun in the first part (scores and top), finished in the second. -/
theorem head1_eq (q : Vec F S512x64 .bf16) (k v : Vec F S2048x64 .bf16) :
    k1_pay6 (k1_pay3 v) (k1_pay4 q k) (k1_pay5 q k) = headOf scale q k v := by
  unfold k1_pay6 k1_pay5 k1_pay4 k1_pay3 headOf finish probs dens exps tops scaled rawScores
  simp only [shapeCast_self]
/-- Head 2: the second part's second result. -/
theorem head2_eq (q : Vec F S512x64 .bf16) (k v : Vec F S2048x64 .bf16) : k1_pay7 q k v = headOf scale q k v := by
  unfold k1_pay7 headOf finish probs dens exps tops scaled rawScores
  simp only [shapeCast_self]
/-- Head 3's slices as the second part hands them to the tail: the values as they are, the raw scores. -/
theorem values3_eq (v : Vec F S2048x64 .bf16) : k1_pay8 v = v := by
  unfold k1_pay8; exact shapeCast_self _ _
theorem scores3_eq (q : Vec F S512x64 .bf16) (k : Vec F S2048x64 .bf16) : k1_pay9 q k = rawScores q k := by
  unfold k1_pay9 rawScores
  simp only [shapeCast_self]
/-- The stored block: the four heads side by side, head 3 finished in the body's tail. -/
theorem stored_eq (o0 o1 o2 : FVec F S512x64 .f32) (v : FVec F S2048x64 .bf16) (raw : FVec F S512x2048 .f32) (c : F .f32) :
    k1_pay1 o0 o1 o2 v raw c
      = truncf .bf16 (concatenate S512x256 1 [⟨S512x64, o0⟩, ⟨S512x64, o1⟩, ⟨S512x64, o2⟩, ⟨S512x64, finish c raw v⟩]
          concatenates_S512x64_S512x64_S512x64_S512x64_S512x256_d1) bitsLt_bf16_f32 := by
  unfold k1_pay1 finish probs dens exps tops scaled
  rfl

end AnyFloat

/-! ## Read at an index, at the ideal instance -/

section AtIdeal

theorem qk_l0 (i : S512x2048.Idx) (q : Dqk.contr.Idx) : (Dqk.lhsIdx i q 0).val = (i 0).val := by
  unfold DotDims.lhsIdx
  rw [dif_neg (show ¬(0 : Fin S512x64.rank) ∈ Dqk.lhsBatch by decide), dif_pos (show (0 : Fin S512x64.rank) ∈ Dqk.lhsNonContracting by decide)]
  rfl
theorem qk_l1 (i : S512x2048.Idx) (q : Dqk.contr.Idx) : (Dqk.lhsIdx i q 1).val = (q ⟨0, by decide⟩).val :=
  Dqk.lhsIdx_val_of_single rfl i q
theorem qk_r0 (i : S512x2048.Idx) (q : Dqk.contr.Idx) : (Dqk.rhsIdx i q 0).val = (i 1).val := by
  unfold DotDims.rhsIdx
  rw [dif_neg (show ¬(0 : Fin S2048x64.rank) ∈ Dqk.rhsBatch by decide), dif_pos (show (0 : Fin S2048x64.rank) ∈ Dqk.rhsNonContracting by decide)]
  rfl
theorem qk_r1 (i : S512x2048.Idx) (q : Dqk.contr.Idx) : (Dqk.rhsIdx i q 1).val = (q ⟨0, by decide⟩).val :=
  Dqk.rhsIdx_val_of_single rfl i q

/-- A score: row p of the queries against row n of the keys. -/
theorem qk_at {φ₁ φ₂ : FTy} (l : FVec Ideal S512x64 φ₁) (r : FVec Ideal S2048x64 φ₂) (p : Fin 512) (n : Fin 2048) :
    matmul (F := Ideal) Dqk none l r (constant (F := Ideal) S512x2048 .f32 0x00000000#32) (ix2 p n)
      = ∑ d : Fin 64, l (ix2 p d) * r (ix2 n d) := by
  simp only [matmul]
  rw [Ideal.matmul_constant_zero_apply, ← Equiv.sum_comp (ValueIdx.contrEquiv1 Dqk 64 rfl rfl).symm]
  refine Finset.sum_congr rfl fun d _ => ?_
  have hd := ValueIdx.contrEquiv1_symm_val Dqk 64 rfl rfl d
  have el : Dqk.lhsIdx (ix2 p n) ((ValueIdx.contrEquiv1 Dqk 64 rfl rfl).symm d) = ix2 p d := funext fun a => Fin.ext (by
    match a with
    | ⟨0, _⟩ => exact qk_l0 _ _
    | ⟨1, _⟩ => exact (qk_l1 _ _).trans hd)
  have er : Dqk.rhsIdx (ix2 p n) ((ValueIdx.contrEquiv1 Dqk 64 rfl rfl).symm d) = ix2 n d := funext fun a => Fin.ext (by
    match a with
    | ⟨0, _⟩ => exact qk_r0 _ _
    | ⟨1, _⟩ => exact (qk_r1 _ _).trans hd)
  rw [el, er]

theorem pv_l0 (i : S512x64.Idx) (q : Dpv.contr.Idx) : (Dpv.lhsIdx i q 0).val = (i 0).val := by
  unfold DotDims.lhsIdx
  rw [dif_neg (show ¬(0 : Fin S512x2048.rank) ∈ Dpv.lhsBatch by decide), dif_pos (show (0 : Fin S512x2048.rank) ∈ Dpv.lhsNonContracting by decide)]
  rfl
theorem pv_l1 (i : S512x64.Idx) (q : Dpv.contr.Idx) : (Dpv.lhsIdx i q 1).val = (q ⟨0, by decide⟩).val :=
  Dpv.lhsIdx_val_of_single rfl i q
theorem pv_r0 (i : S512x64.Idx) (q : Dpv.contr.Idx) : (Dpv.rhsIdx i q 0).val = (q ⟨0, by decide⟩).val :=
  Dpv.rhsIdx_val_of_single rfl i q
theorem pv_r1 (i : S512x64.Idx) (q : Dpv.contr.Idx) : (Dpv.rhsIdx i q 1).val = (i 1).val := by
  unfold DotDims.rhsIdx
  rw [dif_neg (show ¬(1 : Fin S2048x64.rank) ∈ Dpv.rhsBatch by decide), dif_pos (show (1 : Fin S2048x64.rank) ∈ Dpv.rhsNonContracting by decide)]
  rfl

/-- A weighted value: row p of the weights against column d of the values. -/
theorem pv_at {φ₁ φ₂ : FTy} (l : FVec Ideal S512x2048 φ₁) (r : FVec Ideal S2048x64 φ₂) (p : Fin 512) (d : Fin 64) :
    matmul (F := Ideal) Dpv none l r (constant (F := Ideal) S512x64 .f32 0x00000000#32) (ix2 p d)
      = ∑ n : Fin 2048, l (ix2 p n) * r (ix2 n d) := by
  simp only [matmul]
  rw [Ideal.matmul_constant_zero_apply, ← Equiv.sum_comp (ValueIdx.contrEquiv1 Dpv 2048 rfl rfl).symm]
  refine Finset.sum_congr rfl fun n _ => ?_
  have hn := ValueIdx.contrEquiv1_symm_val Dpv 2048 rfl rfl n
  have el : Dpv.lhsIdx (ix2 p d) ((ValueIdx.contrEquiv1 Dpv 2048 rfl rfl).symm n) = ix2 p n := funext fun a => Fin.ext (by
    match a with
    | ⟨0, _⟩ => exact pv_l0 _ _
    | ⟨1, _⟩ => exact (pv_l1 _ _).trans hn)
  have er : Dpv.rhsIdx (ix2 p d) ((ValueIdx.contrEquiv1 Dpv 2048 rfl rfl).symm n) = ix2 n d := funext fun a => Fin.ext (by
    match a with
    | ⟨0, _⟩ => exact (pv_r0 _ _).trans hn
    | ⟨1, _⟩ => exact pv_r1 _ _)
  rw [el, er]

/-- A vector of 512 row values stood up as a column and spread along the rows, read at (p, n): the row's value. -/
theorem column_at (x : FVec Ideal S512 .f32) (p : Fin 512) (n : Fin 2048) :
    broadcastTo S512x2048 (shapeCast S512x1 x shapeCasts_S512_S512x1) broadcasts_S512x1_S512x2048 (ix2 p n) = x (ix1 p) := by
  rw [broadcastTo_apply _ broadcasts_S512x1_S512x2048 (ix2 p n) (ix2 p (0 : Fin 1)) (fun a => match a with
    | ⟨0, _⟩ => by show p.val = if (512 : Nat) = 1 then 0 else p.val; rw [if_neg (by decide)]
    | ⟨1, _⟩ => by show 0 = if (1 : Nat) = 1 then 0 else n.val; rw [if_pos rfl])]
  exact shapeCast_apply x shapeCasts_S512_S512x1 (ix2 p (0 : Fin 1)) (ix1 p) (by
    rewrite [Shape.rowMajor_val_one, Shape.rowMajor_val_two]; show p.val = p.val * 1 + 0; omega)

/-- Index (p, n) of a 512 × 2048 vector is what the row reduction's lift of row p reaches at n. -/
theorem lift_row (p : Fin 512) (n : Fin 2048) : reduces_S512x2048_S512.lift (ix1 p) n = ix2 p n :=
  funext fun a => Fin.ext (by match a with | ⟨0, _⟩ => rfl | ⟨1, _⟩ => rfl)

theorem scores_at (c : Ideal .f32) (q : FVec Ideal S512x64 .bf16) (k : FVec Ideal S2048x64 .bf16) (p : Fin 512) (n : Fin 2048) :
    scaled (F := Ideal) c (rawScores (F := Ideal) q k) (ix2 p n) = (∑ d : Fin 64, q (ix2 p d) * k (ix2 n d)) * c := by
  unfold scaled rawScores
  show matmul (F := Ideal) Dqk none q k (constant (F := Ideal) S512x2048 .f32 0x00000000#32) (ix2 p n) * c = _
  rw [qk_at]

theorem tops_at (s : FVec Ideal S512x2048 .f32) (p : Fin 512) :
    tops (F := Ideal) s (ix1 p) = Cert.Attn.rowTop (fun n => s (ix2 p n)) := by
  unfold tops Cert.Attn.rowTop
  refine (ValueIdx.maximumf_apply _ _ (ix1 p)).trans ?_
  refine congrArg (max (Ideal.ofBits .f32 0xFF800000#32)) ?_
  refine (Ideal.multiReduction_maximumf_single s 0xFF800000#32 reduces_S512x2048_S512 (.inl rfl) rfl (ix1 p)).trans ?_
  exact congrArg (fun f : Fin 2048 → EReal => (Finset.univ : Finset (Fin 2048)).fold max (Ideal.ofBits .f32 0xFF800000#32) f)
    (funext fun n => congrArg s (lift_row p n))

theorem dens_at (e : FVec Ideal S512x2048 .f32) (p : Fin 512) :
    dens (F := Ideal) e (ix1 p) = ∑ n : Fin 2048, e (ix2 p n) := by
  unfold dens
  refine (Ideal.multiReduction_add_single e 0x00000000#32 reduces_S512x2048_S512 (.inl rfl) rfl (ix1 p)).trans ?_
  exact Finset.sum_congr rfl fun n _ => congrArg e (lift_row p n)

theorem exps_at (s : FVec Ideal S512x2048 .f32) (p : Fin 512) (n : Fin 2048) :
    exps (F := Ideal) s (ix2 p n) = Cert.Attn.rowExp (fun n => s (ix2 p n)) n := by
  unfold exps Cert.Attn.rowExp
  show Ideal.exp (s (ix2 p n) - broadcastTo S512x2048 (shapeCast S512x1 (tops (F := Ideal) s) shapeCasts_S512_S512x1) broadcasts_S512x1_S512x2048 (ix2 p n)) = _
  rw [column_at, tops_at]

theorem probs_at (e : FVec Ideal S512x2048 .f32) (p : Fin 512) (n : Fin 2048) :
    probs (F := Ideal) e (ix2 p n) = Ideal.div (e (ix2 p n)) (∑ n' : Fin 2048, e (ix2 p n')) := by
  unfold probs
  show Ideal.div (e (ix2 p n)) (broadcastTo S512x2048 (shapeCast S512x1 (dens (F := Ideal) e) shapeCasts_S512_S512x1) broadcasts_S512x1_S512x2048 (ix2 p n)) = _
  rw [column_at, dens_at]

/-- ONE HEAD at row p and feature d: the row-softmax of the row's scaled scores applied to column d of the values. -/
theorem headOf_at (c : Ideal .f32) (q : FVec Ideal S512x64 .bf16) (k v : FVec Ideal S2048x64 .bf16) (p : Fin 512) (d : Fin 64) :
    headOf (F := Ideal) c q k v (ix2 p d)
      = Cert.Attn.attendRow (fun n => (∑ d' : Fin 64, q (ix2 p d') * k (ix2 n d')) * c) (fun n => v (ix2 n d)) := by
  unfold headOf finish
  refine (pv_at _ v p d).trans ?_
  unfold Cert.Attn.attendRow
  have hs : (fun n => scaled (F := Ideal) c (rawScores (F := Ideal) q k) (ix2 p n)) = fun n => (∑ d' : Fin 64, q (ix2 p d') * k (ix2 n d')) * c :=
    funext fun n => scores_at c q k p n
  refine Finset.sum_congr rfl fun n _ => ?_
  refine congrArg (· * v (ix2 n d)) ?_
  show probs (F := Ideal) (exps (F := Ideal) (scaled (F := Ideal) c (rawScores (F := Ideal) q k))) (ix2 p n) = _
  rw [probs_at]
  unfold Cert.Attn.rowWeight
  rw [exps_at, hs]
  refine congrArg (Ideal.div _) ?_
  refine Finset.sum_congr rfl fun n' _ => ?_
  rw [exps_at, hs]

/-! ## The four heads side by side -/

/-- The side-by-side block read at row p and column 64·h + d: head h's result at (p, d). -/
theorem sideBySide_at {α : Type} (x0 x1 x2 x3 : S512x64.Idx → α) (p : Fin 512) (h : Fin 4) (d : Fin 64) (j : S512x256.Idx)
    (hj0 : (j 0).val = p.val) (hj1 : (j 1).val = 64 * h.val + d.val) :
    concatenate S512x256 1 [⟨S512x64, x0⟩, ⟨S512x64, x1⟩, ⟨S512x64, x2⟩, ⟨S512x64, x3⟩]
        concatenates_S512x64_S512x64_S512x64_S512x64_S512x256_d1 j
      = (![x0, x1, x2, x3] : Fin 4 → S512x64.Idx → α) h (ix2 p d) := by
  match h, hj1 with
  | ⟨0, _⟩, hj1 =>
    have hj1' : (j 1).val = 64 * 0 + d.val := hj1
    exact concatenate_apply_piece 1 _ _ j 0 (by show (0 : Nat) < 4; omega) S512x64 x0 rfl rfl 0 rfl (ix2 p d)
      (fun b hb => match b with | ⟨0, _⟩ => hj0.symm | ⟨1, _⟩ => (hb (Fin.ext rfl)).elim) (by show 0 + d.val = (j 1).val; omega)
  | ⟨1, _⟩, hj1 =>
    have hj1' : (j 1).val = 64 * 1 + d.val := hj1
    exact concatenate_apply_piece 1 _ _ j 1 (by show (1 : Nat) < 4; omega) S512x64 x1 rfl rfl 64 rfl (ix2 p d)
      (fun b hb => match b with | ⟨0, _⟩ => hj0.symm | ⟨1, _⟩ => (hb (Fin.ext rfl)).elim) (by show 64 + d.val = (j 1).val; omega)
  | ⟨2, _⟩, hj1 =>
    have hj1' : (j 1).val = 64 * 2 + d.val := hj1
    exact concatenate_apply_piece 1 _ _ j 2 (by show (2 : Nat) < 4; omega) S512x64 x2 rfl rfl 128 rfl (ix2 p d)
      (fun b hb => match b with | ⟨0, _⟩ => hj0.symm | ⟨1, _⟩ => (hb (Fin.ext rfl)).elim) (by show 128 + d.val = (j 1).val; omega)
  | ⟨3, _⟩, hj1 =>
    have hj1' : (j 1).val = 64 * 3 + d.val := hj1
    exact concatenate_apply_piece 1 _ _ j 3 (by show (3 : Nat) < 4; omega) S512x64 x3 rfl rfl 192 rfl (ix2 p d)
      (fun b hb => match b with | ⟨0, _⟩ => hj0.symm | ⟨1, _⟩ => (hb (Fin.ext rfl)).elim) (by show 192 + d.val = (j 1).val; omega)

/-- A 64-column slice at column offset `o`, read at (p, d'): column o + d' of the buffer. -/
theorem qSlice_idx (o : Nat) (inb : ∀ a, (![0, o] : Fin 2 → Nat) a + S512x64.size a ≤ S512x256.size a) (ho : o + 64 ≤ 256) (p : Fin 512) (d' : Fin 64) :
    (Rect.unit (s := S512x256) ![0, o] S512x64.size inb).idx (ix2 p d') = ix2 p ⟨o + d'.val, by have := d'.isLt; omega⟩ :=
  funext fun a => Fin.ext (by
    match a with
    | ⟨0, _⟩ => show 0 + 1 * p.val = p.val; omega
    | ⟨1, _⟩ => show o + 1 * d'.val = o + d'.val; omega)
theorem kvSlice_idx (o : Nat) (inb : ∀ a, (![0, o] : Fin 2 → Nat) a + S2048x64.size a ≤ S2048x256.size a) (ho : o + 64 ≤ 256) (n : Fin 2048) (d' : Fin 64) :
    (Rect.unit (s := S2048x256) ![0, o] S2048x64.size inb).idx (ix2 n d') = ix2 n ⟨o + d'.val, by have := d'.isLt; omega⟩ :=
  funext fun a => Fin.ext (by
    match a with
    | ⟨0, _⟩ => show 0 + 1 * n.val = n.val; omega
    | ⟨1, _⟩ => show o + 1 * d'.val = o + d'.val; omega)

/-- Head h of the group from the three staging buffers, at row p and feature d: the row-softmax of the scores of
    query row p against the 2048 key rows over features 64·h … 64·h + 63, applied to value column 64·h + d. -/
theorem heads_at (c : Ideal .f32) (q : FVec Ideal S512x256 .bf16) (k v : FVec Ideal S2048x256 .bf16) (p : Fin 512) (h : Fin 4) (d : Fin 64) :
    (![headOf (F := Ideal) c (View.ld (Val := Elt Ideal) (e' := .bf16) q Heads.qHead0) (View.ld (Val := Elt Ideal) (e' := .bf16) k Heads.kvHead0) (View.ld (Val := Elt Ideal) (e' := .bf16) v Heads.kvHead0),
        headOf (F := Ideal) c (View.ld (Val := Elt Ideal) (e' := .bf16) q Heads.qHead1) (View.ld (Val := Elt Ideal) (e' := .bf16) k Heads.kvHead1) (View.ld (Val := Elt Ideal) (e' := .bf16) v Heads.kvHead1),
        headOf (F := Ideal) c (View.ld (Val := Elt Ideal) (e' := .bf16) q Heads.qHead2) (View.ld (Val := Elt Ideal) (e' := .bf16) k Heads.kvHead2) (View.ld (Val := Elt Ideal) (e' := .bf16) v Heads.kvHead2),
        headOf (F := Ideal) c (View.ld (Val := Elt Ideal) (e' := .bf16) q Heads.qHead3) (View.ld (Val := Elt Ideal) (e' := .bf16) k Heads.kvHead3) (View.ld (Val := Elt Ideal) (e' := .bf16) v Heads.kvHead3)] : Fin 4 → S512x64.Idx → EReal) h (ix2 p d)
      = Cert.Attn.attendRow
          (fun n => (∑ d' : Fin 64, q (ix2 p ⟨64 * h.val + d'.val, by have := h.isLt; have := d'.isLt; omega⟩)
                                    * k (ix2 n ⟨64 * h.val + d'.val, by have := h.isLt; have := d'.isLt; omega⟩)) * c)
          (fun n => v (ix2 n ⟨64 * h.val + d.val, by have := h.isLt; have := d.isLt; omega⟩)) := by
  match h with
  | ⟨0, _⟩ =>
    refine (headOf_at c _ _ _ p d).trans ?_
    simp only [View.ld, Heads.qHead0, Heads.kvHead0, qSlice_idx 0 _ (by omega), kvSlice_idx 0 _ (by omega)]
  | ⟨1, _⟩ =>
    refine (headOf_at c _ _ _ p d).trans ?_
    simp only [View.ld, Heads.qHead1, Heads.kvHead1, qSlice_idx 64 _ (by omega), kvSlice_idx 64 _ (by omega)]
  | ⟨2, _⟩ =>
    refine (headOf_at c _ _ _ p d).trans ?_
    simp only [View.ld, Heads.qHead2, Heads.kvHead2, qSlice_idx 128 _ (by omega), kvSlice_idx 128 _ (by omega)]
  | ⟨3, _⟩ =>
    refine (headOf_at c _ _ _ p d).trans ?_
    simp only [View.ld, Heads.qHead3, Heads.kvHead3, qSlice_idx 192 _ (by omega), kvSlice_idx 192 _ (by omega)]

/-! ## The whole array -/

/-- From index (r, e) of the merged output: the query entry (r, 64·(e/64) + d'), the key entry of row n of r's batch,
    and the value entry of that row in column e of the values' third of the packed projections. -/
abbrev queryAt (i : S4096x1024.Idx) (d' : Fin 64) : S4096x3072.Idx := fun a => match a with
  | ⟨0, _⟩ => ⟨(i 0).val, (i 0).isLt⟩
  | ⟨1, _⟩ => ⟨64 * ((i 1).val / 64) + d'.val, by
      have h1 : (i 1).val < 1024 := (i 1).isLt; have hd := d'.isLt; show 64 * ((i 1).val / 64) + d'.val < 3072; omega⟩
abbrev keyAt (i : S4096x1024.Idx) (n : Fin 2048) (d' : Fin 64) : S4096x3072.Idx := fun a => match a with
  | ⟨0, _⟩ => ⟨2048 * ((i 0).val / 2048) + n.val, by
      have h0 : (i 0).val < 4096 := (i 0).isLt; have hn := n.isLt; show 2048 * ((i 0).val / 2048) + n.val < 4096; omega⟩
  | ⟨1, _⟩ => ⟨1024 + 64 * ((i 1).val / 64) + d'.val, by
      have h1 : (i 1).val < 1024 := (i 1).isLt; have hd := d'.isLt; show 1024 + 64 * ((i 1).val / 64) + d'.val < 3072; omega⟩
abbrev valueAt (i : S4096x1024.Idx) (n : Fin 2048) : S4096x3072.Idx := fun a => match a with
  | ⟨0, _⟩ => ⟨2048 * ((i 0).val / 2048) + n.val, by
      have h0 : (i 0).val < 4096 := (i 0).isLt; have hn := n.isLt; show 2048 * ((i 0).val / 2048) + n.val < 4096; omega⟩
  | ⟨1, _⟩ => ⟨2048 + (i 1).val, by have h1 : (i 1).val < 1024 := (i 1).isLt; show 2048 + (i 1).val < 3072; omega⟩

/-- The merged attention output as ONE function of the packed projections, index by index. -/
def attnOf (Q : S4096x3072.Idx → EReal) : S4096x1024.Idx → EReal := fun i =>
  Cert.Attn.attendRow (fun n => (∑ d' : Fin 64, Q (queryAt i d') * Q (keyAt i n d')) * Ideal.ofBits .f32 0x3E000000#32)
    (fun n => Q (valueAt i n))

theorem zeros : (![0, 0] : Fin 2 → Nat) = fun _ => 0 := funext fun a => by fin_cases a <;> rfl

/-- The printed index maps over the 32 grid points (batch, head group, query tile): the query block moves with the
    output block; the key and value blocks take the batch's rows (the output's row block over 4) and the head group's
    columns in the second and the third third of the packed projections. -/
theorem index_facts : ∀ t : Fin cfg1.N,
    win1_0.index t (0 : Fin 2) = win1_3.index t (0 : Fin 2) ∧ win1_0.index t (1 : Fin 2) = win1_3.index t (1 : Fin 2)
    ∧ win1_1.index t (0 : Fin 2) = win1_3.index t (0 : Fin 2) / 4 ∧ win1_1.index t (1 : Fin 2) = 4 + win1_3.index t (1 : Fin 2)
    ∧ win1_2.index t (0 : Fin 2) = win1_3.index t (0 : Fin 2) / 4 ∧ win1_2.index t (1 : Fin 2) = 8 + win1_3.index t (1 : Fin 2)
    ∧ win1_3.index t (0 : Fin 2) ≤ 7 ∧ win1_3.index t (1 : Fin 2) ≤ 3 :=
  (by decide +kernel : ∀ t : Fin grid1.N, _)
/-- Every block of the output is some point's. -/
theorem index_onto : ∀ (q0 : Fin 8) (q1 : Fin 4), ∃ t : Fin cfg1.N, win1_3.index t = ![q0.val, q1.val] :=
  (by decide +kernel : ∀ (q0 : Fin 8) (q1 : Fin 4), ∃ t : Fin grid1.N, win1_3.index t = ![q0.val, q1.val])

variable (V : (c : Dev nD) → (b : Ref sig .tc) → Buf (Elt Ideal) ((c : Thread nD τ).loc b))

/-- WHAT POINT `t` WRITES BACK is block `t` of `attnOf` of the packed projections as the region finds them. -/
theorem written (c : Dev nD) (t : Fin cfg1.N) :
    (Heads.dat (F := Ideal) V c).flushed 3 t
      = ((cfg1.win 3).blk t).view.read (Elt Ideal) (attnOf (V c main_v3)) := by
  show (cfg1.win 3).cut (grid1.coords t) ((Heads.dat V c).after 3 t) = _
  rw [Heads.after_out]
  unfold Heads.attended
  rw [View.canon_unit_zero zeros, head0_eq, head1_eq, head2_eq, values3_eq, scores3_eq, stored_eq]
  obtain ⟨e0, e1, e2, e3, e4, e5, e6, e7⟩ := index_facts t
  funext j
  have hj0 : (j 0).val < 512 := (j 0).isLt
  have hj1 : (j 1).val < 256 := (j 1).isLt
  refine (sideBySide_at _ _ _ _ ⟨(j 0).val, hj0⟩ ⟨(j 1).val / 64, by omega⟩ ⟨(j 1).val % 64, by omega⟩ j rfl
    (by show (j 1).val = 64 * ((j 1).val / 64) + (j 1).val % 64; omega)).trans ?_
  refine (heads_at scale (Heads.blockAt V c 0 t) (Heads.blockAt V c 1 t) (Heads.blockAt V c 2 t)
    ⟨(j 0).val, hj0⟩ ⟨(j 1).val / 64, by omega⟩ ⟨(j 1).val % 64, by omega⟩).trans ?_
  show _ = attnOf (V c main_v3) (((cfg1.win 3).blk t).view.emb j)
  unfold attnOf
  refine congrArg₂ Cert.Attn.attendRow (funext fun n => ?_) (funext fun n => ?_)
  · refine congrArg (· * Ideal.ofBits .f32 0x3E000000#32) (Finset.sum_congr rfl fun d' _ => ?_)
    refine congrArg₂ (· * ·) ?_ ?_
    · show V c main_v3 (((cfg1.win 0).blk t).view.emb _) = V c main_v3 (queryAt (((cfg1.win 3).blk t).view.emb j) d')
      refine congrArg (V c main_v3) (funext fun a => Fin.ext ?_)
      match a with
      | ⟨0, _⟩ =>
        show win1_0.index t (0 : Fin 2) * 512 + 1 * (j 0).val = win1_3.index t (0 : Fin 2) * 512 + 1 * (j 0).val
        omega
      | ⟨1, _⟩ =>
        show win1_0.index t (1 : Fin 2) * 256 + 1 * (64 * ((j 1).val / 64) + d'.val)
          = 64 * ((win1_3.index t (1 : Fin 2) * 256 + 1 * (j 1).val) / 64) + d'.val
        omega
    · show V c main_v3 (((cfg1.win 1).blk t).view.emb _) = V c main_v3 (keyAt (((cfg1.win 3).blk t).view.emb j) n d')
      refine congrArg (V c main_v3) (funext fun a => Fin.ext ?_)
      match a with
      | ⟨0, _⟩ =>
        show win1_1.index t (0 : Fin 2) * 2048 + 1 * n.val = 2048 * ((win1_3.index t (0 : Fin 2) * 512 + 1 * (j 0).val) / 2048) + n.val
        omega
      | ⟨1, _⟩ =>
        show win1_1.index t (1 : Fin 2) * 256 + 1 * (64 * ((j 1).val / 64) + d'.val)
          = 1024 + 64 * ((win1_3.index t (1 : Fin 2) * 256 + 1 * (j 1).val) / 64) + d'.val
        omega
  · show V c main_v3 (((cfg1.win 2).blk t).view.emb _) = V c main_v3 (valueAt (((cfg1.win 3).blk t).view.emb j) n)
    refine congrArg (V c main_v3) (funext fun a => Fin.ext ?_)
    match a with
    | ⟨0, _⟩ =>
      show win1_2.index t (0 : Fin 2) * 2048 + 1 * n.val = 2048 * ((win1_3.index t (0 : Fin 2) * 512 + 1 * (j 0).val) / 2048) + n.val
      omega
    | ⟨1, _⟩ =>
      show win1_2.index t (1 : Fin 2) * 256 + 1 * (64 * ((j 1).val / 64) + (j 1).val % 64)
        = 2048 + (win1_3.index t (1 : Fin 2) * 256 + 1 * (j 1).val)
      omega

/-- An index of the array is in point `t`'s block iff each coordinate is in the block's range on its axis. -/
theorem mem_block (t : Fin cfg1.N) (i : S4096x1024.Idx) :
    i ∈ ((cfg1.win 3).blk t).view.set ↔ ∀ a : Fin 2, win1_3.index t a * S512x256.size a ≤ (i a).val ∧ (i a).val < win1_3.index t a * S512x256.size a + S512x256.size a := by
  show i ∈ ((View.whole main_v4).slice (win1_3.rect t)).set ↔ _
  rw [View.set_slice_whole, Rect.mem_set_unit]
  exact Iff.rfl

/-- The 8 × 4 blocks cover the array. -/
theorem covered (i : S4096x1024.Idx) :
    ∃ t : Fin cfg1.N, (cfg1.win 3).flush t = true ∧ i ∈ ((cfg1.win 3).blk t).view.set := by
  have hi0 : (i 0).val < 4096 := (i 0).isLt
  have hi1 : (i 1).val < 1024 := (i 1).isLt
  obtain ⟨t, ht⟩ := index_onto ⟨(i 0).val / 512, by omega⟩ ⟨(i 1).val / 256, by omega⟩
  have q0 : win1_3.index t (0 : Fin 2) = (i 0).val / 512 := congrFun ht 0
  have q1 : win1_3.index t (1 : Fin 2) = (i 1).val / 256 := congrFun ht 1
  refine ⟨t, flush1_3 t, ?_⟩
  rw [mem_block]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 256 ≤ (i 1).val ∧ (i 1).val < win1_3.index t (1 : Fin 2) * 256 + 256; omega

/-- THE ARRAY after the region: `attnOf` of the packed projections it found. -/
theorem final (c : Dev nD) :
    (Heads.dat (F := Ideal) V c).arrAt 3 cfg1.N = attnOf (V c main_v3) :=
  (Heads.dat (F := Ideal) V c).arrAt_eq_of_cover 3 _ (fun t _ => written V c t) covered

end AtIdeal

end Cert.KernelIdeal.HeadsValue

end
-- ==== Proof.OutProjValue.lean ====
/-
  The value of the output projection at the ideal instance.  One call of the body leaves, at row p and column q of
  the 512 × 1024 output block,  Σ_k rows[p, k] · W[k, q] + bias[0, q]: the matrix unit's product into a zero
  accumulator read at an index, plus the broadcast bias row.  Grid point t writes that block back at rows 512·t …
  512·t + 511 of the 4096 × 1024 result, and its row block of the merged attention output is the same rows of that
  4096 × 1024 array, so it writes the block of ONE function of the three arrays, `affine`; the eight blocks cover the
  result, which therefore ends holding `affine` of the arrays the region found.
-/
import proofs.«125612_j15891378995335_2_alg».proof.Proof.OutProj
import Idealize.ShloMosaic.Lib.Pipeline.Value
import Idealize.ShloMosaic.Lib.ValueIdx
import Idealize.ShloMosaic.PureOps.Ideal.Laws

set_option maxRecDepth 16384

noncomputable section

namespace Cert.KernelIdeal.OutProjValue

open Cert.KernelIdeal Cert.KernelIdeal.Gen Idealize.ShloMosaic Idealize.ShloMosaic.TcCoe Idealize.SL.Sem
open Idealize.ShloMosaic.Pipeline (Dat)

/-- The block product's dimension record: 512 × 1024 times 1024 × 1024. -/
abbrev D : DotDims S512x1024 S1024x1024 S512x1024 := dot_S512x1024_S1024x1024_S512x1024_1_0_0_1_n_n

/-! ## The matrix product of a block, read at an index -/

theorem lhs_row (i : S512x1024.Idx) (q : D.contr.Idx) : (D.lhsIdx i q 0).val = (i 0).val := by
  unfold DotDims.lhsIdx
  rw [dif_neg (show ¬(0 : Fin S512x1024.rank) ∈ D.lhsBatch by decide), dif_pos (show (0 : Fin S512x1024.rank) ∈ D.lhsNonContracting by decide)]
  rfl
theorem lhs_inner (i : S512x1024.Idx) (q : D.contr.Idx) : (D.lhsIdx i q 1).val = (q ⟨0, by decide⟩).val :=
  D.lhsIdx_val_of_single rfl i q
theorem rhs_inner (i : S512x1024.Idx) (q : D.contr.Idx) : (D.rhsIdx i q 0).val = (q ⟨0, by decide⟩).val :=
  D.rhsIdx_val_of_single rfl i q
theorem rhs_col (i : S512x1024.Idx) (q : D.contr.Idx) : (D.rhsIdx i q 1).val = (i 1).val := by
  unfold DotDims.rhsIdx
  rw [dif_neg (show ¬(1 : Fin S1024x1024.rank) ∈ D.rhsBatch by decide), dif_pos (show (1 : Fin S1024x1024.rank) ∈ D.rhsNonContracting by decide)]
  rfl

/-- Row `i 0`, inner index `k` of the rows' block; inner index `k`, column `i 1` of the weights; row 0, column `i 1` of the bias. -/
abbrev atRow (i : S512x1024.Idx) (k : Fin 1024) : S512x1024.Idx := fun a => match a with
  | ⟨0, _⟩ => ⟨(i 0).val, (i 0).isLt⟩
  | ⟨1, _⟩ => ⟨k.val, k.isLt⟩
abbrev atCol (i : S512x1024.Idx) (k : Fin 1024) : S1024x1024.Idx := fun a => match a with
  | ⟨0, _⟩ => ⟨k.val, k.isLt⟩
  | ⟨1, _⟩ => ⟨(i 1).val, (i 1).isLt⟩
abbrev atBias (i : S512x1024.Idx) : S1x1024.Idx := fun a => match a with
  | ⟨0, _⟩ => ⟨0, Nat.one_pos⟩
  | ⟨1, _⟩ => ⟨(i 1).val, (i 1).isLt⟩

theorem product_at {φ₁ φ₂ : FTy} (l : FVec Ideal S512x1024 φ₁) (r : FVec Ideal S1024x1024 φ₂) (i : S512x1024.Idx) :
    matmul (F := Ideal) D none l r (constant (F := Ideal) S512x1024 .f32 0x00000000#32) i = ∑ k : Fin 1024, l (atRow i k) * r (atCol i k) := by
  simp only [matmul]
  rw [Ideal.matmul_constant_zero_apply, ← Equiv.sum_comp (ValueIdx.contrEquiv1 D 1024 rfl rfl).symm]
  refine Finset.sum_congr rfl fun k _ => ?_
  have hk := ValueIdx.contrEquiv1_symm_val D 1024 rfl rfl k
  have el : D.lhsIdx i ((ValueIdx.contrEquiv1 D 1024 rfl rfl).symm k) = atRow i k := funext fun a => Fin.ext (by
    match a with
    | ⟨0, _⟩ => exact lhs_row _ _
    | ⟨1, _⟩ => exact (lhs_inner _ _).trans hk)
  have er : D.rhsIdx i ((ValueIdx.contrEquiv1 D 1024 rfl rfl).symm k) = atCol i k := funext fun a => Fin.ext (by
    match a with
    | ⟨0, _⟩ => exact (rhs_inner _ _).trans hk
    | ⟨1, _⟩ => exact rhs_col _ _)
  rw [el, er]

/-- The body's stored value at an index of the block. -/
theorem stored_at (x : FVec Ideal S512x1024 .bf16) (w : FVec Ideal S1024x1024 .f32) (b : FVec Ideal S1x1024 .f32) (i : S512x1024.Idx) :
    k2_pay1 (F := Ideal) x w b i = (∑ k : Fin 1024, x (atRow i k) * w (atCol i k)) + b (atBias i) := by
  unfold k2_pay1
  simp only [shapeCast_self]
  show matmul (F := Ideal) D none x (truncf .bf16 w bitsLt_bf16_f32) (constant (F := Ideal) S512x1024 .f32 0x00000000#32) i
      + broadcastTo S512x1024 b broadcasts_S1x1024_S512x1024 i = _
  rw [product_at, broadcastTo_apply b broadcasts_S1x1024_S512x1024 i (atBias i) (fun a => match a with
    | ⟨0, _⟩ => by show 0 = if (1 : Nat) = 1 then 0 else (i 0).val; rw [if_pos rfl]
    | ⟨1, _⟩ => by show (i 1).val = if (1024 : Nat) = 1 then 0 else (i 1).val; rw [if_neg (by decide)])]
  rfl

/-! ## The whole array -/

abbrev rowOf (i : S4096x1024.Idx) (k : Fin 1024) : S4096x1024.Idx := fun a => match a with
  | ⟨0, _⟩ => ⟨(i 0).val, (i 0).isLt⟩
  | ⟨1, _⟩ => ⟨k.val, k.isLt⟩
abbrev colOf (i : S4096x1024.Idx) (k : Fin 1024) : S1024x1024.Idx := fun a => match a with
  | ⟨0, _⟩ => ⟨k.val, k.isLt⟩
  | ⟨1, _⟩ => ⟨(i 1).val, (i 1).isLt⟩
abbrev biasOf (i : S4096x1024.Idx) : S1x1024.Idx := fun a => match a with
  | ⟨0, _⟩ => ⟨0, Nat.one_pos⟩
  | ⟨1, _⟩ => ⟨(i 1).val, (i 1).isLt⟩

/-- rows · W + bias over the whole arrays, index by index. -/
def affine (X : S4096x1024.Idx → EReal) (W : S1024x1024.Idx → EReal) (B : S1x1024.Idx → EReal) : S4096x1024.Idx → EReal :=
  fun i => (∑ k : Fin 1024, X (rowOf i k) * W (colOf i k)) + B (biasOf i)

theorem zeros : (![0, 0] : Fin 2 → Nat) = fun _ => 0 := funext fun a => by fin_cases a <;> rfl

/-- The printed index maps over the eight grid points: the rows' block moves with the output's row block; the weights,
    the bias and the output's column block stand at zero. -/
theorem index_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 7 :=
  (by decide +kernel : ∀ t : Fin grid2.N, _)
/-- Every row block is some point's. -/
theorem index_onto : ∀ q : Fin 8, ∃ t : Fin cfg2.N, win2_3.index t = ![q.val, 0] :=
  (by decide +kernel : ∀ q : Fin 8, ∃ t : Fin grid2.N, win2_3.index t = ![q.val, 0])

variable (V : (c : Dev nD) → (b : Ref sig .tc) → Buf (Elt Ideal) ((c : Thread nD τ).loc b))

/-- WHAT POINT `t` WRITES BACK is block `t` of `affine` of the arrays as the region finds them. -/
theorem written (c : Dev nD) (t : Fin cfg2.N) :
    (OutProj.dat (F := Ideal) V c).flushed 3 t
      = ((cfg2.win 3).blk t).view.read (Elt Ideal) (affine (V c main_v4) (V c main_arg3) (V c main_v2)) := by
  show (cfg2.win 3).cut (grid2.coords t) ((OutProj.dat V c).after 3 t) = _
  rw [OutProj.after_out]
  unfold OutProj.projected
  rw [View.canon_unit_zero zeros]
  simp only [View.ld_unit_zero (S := S512x1024) zeros, View.ld_unit_zero (S := S1024x1024) zeros, View.ld_unit_zero (S := S1x1024) zeros]
  obtain ⟨e0, e1, e2, e3, e4, e5, e6, e7⟩ := index_facts t
  funext j
  show k2_pay1 (F := Ideal) (OutProj.blockAt V c 0 t) (OutProj.blockAt V c 1 t) (OutProj.blockAt V c 2 t) j
    = affine (V c main_v4) (V c main_arg3) (V c main_v2) (((cfg2.win 3).blk t).view.emb j)
  refine (stored_at (OutProj.blockAt V c 0 t) (OutProj.blockAt V c 1 t) (OutProj.blockAt V c 2 t) j).trans ?_
  unfold affine
  congr 1
  · refine Finset.sum_congr rfl fun k _ => ?_
    congr 1
    · show V c main_v4 (((cfg2.win 0).blk t).view.emb (atRow j k)) = V c main_v4 (rowOf (((cfg2.win 3).blk t).view.emb j) k)
      congr 1; funext a; apply Fin.ext
      match a with
      | ⟨0, _⟩ => show win2_0.index t (0 : Fin 2) * 512 + 1 * (j 0).val = win2_3.index t (0 : Fin 2) * 512 + 1 * (j 0).val; omega
      | ⟨1, _⟩ => show win2_0.index t (1 : Fin 2) * 1024 + 1 * k.val = k.val; omega
    · show V c main_arg3 (((cfg2.win 1).blk t).view.emb (atCol j k)) = V c main_arg3 (colOf (((cfg2.win 3).blk t).view.emb j) k)
      congr 1; funext a; apply Fin.ext
      match a with
      | ⟨0, _⟩ => show win2_1.index t (0 : Fin 2) * 1024 + 1 * k.val = k.val; omega
      | ⟨1, _⟩ => show win2_1.index t (1 : Fin 2) * 1024 + 1 * (j 1).val = win2_3.index t (1 : Fin 2) * 1024 + 1 * (j 1).val; omega
  · show V c main_v2 (((cfg2.win 2).blk t).view.emb (atBias j)) = V c main_v2 (biasOf (((cfg2.win 3).blk t).view.emb j))
    congr 1; funext a; apply Fin.ext
    match a with
    | ⟨0, _⟩ => show win2_2.index t (0 : Fin 2) * 1 + 1 * 0 = 0; omega
    | ⟨1, _⟩ => show win2_2.index t (1 : Fin 2) * 1024 + 1 * (j 1).val = win2_3.index t (1 : Fin 2) * 1024 + 1 * (j 1).val; omega

/-- An index of the array is in point `t`'s block iff each coordinate is in the block's range on its axis. -/
theorem mem_block (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v5).slice (win2_3.rect t)).set ↔ _
  rw [View.set_slice_whole, Rect.mem_set_unit]
  exact Iff.rfl

/-- The eight row blocks cover the array. -/
theorem covered (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := index_onto ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- THE ARRAY after the region: `affine` of the three arrays it found. -/
theorem final (c : Dev nD) :
    (OutProj.dat (F := Ideal) V c).arrAt 3 cfg2.N = affine (V c main_v4) (V c main_arg3) (V c main_v2) :=
  (OutProj.dat (F := Ideal) V c).arrAt_eq_of_cover 3 _ (fun t _ => written V c t) covered

end Cert.KernelIdeal.OutProjValue

end
-- ==== Proof.BridgeProj.lean ====
/-
  The two projections against the reference's stages.

  The kernel works on flat buffers: row r of a 4096-row array is (batch, position) = (r / 2048, r % 2048) of the
  reference's [2, 2048, ·] arrays, and a bias vector b is the row [1, ·] whose column q is b q.  Under that reading
  `rows · W + bias` at (r, q) is the reference's  dot_general + broadcast bias  at (r / 2048, r % 2048, q): the same sum
  over the same 1024 products, and the same bias entry.
-/
import proofs.«125612_j15891378995335_2_alg».proof.Proof.InProjValue
import proofs.«125612_j15891378995335_2_alg».proof.Proof.OutProjValue
import proofs.«125612_j15891378995335_2_alg».proof.Proof.Gen.ReferenceIdeal.Read

set_option maxRecDepth 16384

noncomputable section

namespace Cert.Bridge

open Idealize.ShloMosaic
open Cert.ReferenceIdeal.Read

/-- Row r of a flat 4096-row array as (batch, position), with a last coordinate carried along. -/
abbrev unflat {N : Nat} (r : Nat) (hr : r < 4096) (q : Nat) (hq : q < N) : (⟨3, ![2, 2048, N]⟩ : Shape).Idx := fun a => match a with
  | ⟨0, _⟩ => ⟨r / 2048, by show r / 2048 < 2; omega⟩
  | ⟨1, _⟩ => ⟨r % 2048, by show r % 2048 < 2048; omega⟩
  | ⟨2, _⟩ => ⟨q, hq⟩

/-- The activations flattened, and a bias vector as a row. -/
abbrev flatRows (x : Cert.ReferenceIdeal.S2x2048x1024.Idx → EReal) : Cert.KernelIdeal.S4096x1024.Idx → EReal :=
  fun j => x (unflat (j 0).val (j 0).isLt (j 1).val (j 1).isLt)
abbrev biasRow3072 (b : Cert.ReferenceIdeal.S3072.Idx → EReal) : Cert.KernelIdeal.S1x3072.Idx → EReal :=
  fun j => b (ValueIdx.ix1 ⟨(j 1).val, (j 1).isLt⟩)
abbrev biasRow1024 (b : Cert.ReferenceIdeal.S1024.Idx → EReal) : Cert.KernelIdeal.S1x1024.Idx → EReal :=
  fun j => b (ValueIdx.ix1 ⟨(j 1).val, (j 1).isLt⟩)

/-- THE INPUT PROJECTION is the reference's packed projections (its `%3`), read flat. -/
theorem packed_eq (x0 : (⟨Cert.ReferenceIdeal.S2x2048x1024, .f32⟩ : BufTy).Contents (Elt Ideal))
    (x1 : (⟨Cert.ReferenceIdeal.S1024x3072, .f32⟩ : BufTy).Contents (Elt Ideal))
    (x2 : (⟨Cert.ReferenceIdeal.S3072, .f32⟩ : BufTy).Contents (Elt Ideal)) (i : Cert.KernelIdeal.S4096x3072.Idx) :
    Cert.KernelIdeal.InProjValue.affine (flatRows x0) x1 (biasRow3072 x2) i
      = val_main_v3 (F := Ideal) x0 x1 x2 (unflat (i 0).val (i 0).isLt (i 1).val (i 1).isLt) := by
  unfold Cert.KernelIdeal.InProjValue.affine
  rw [val_main_v3_apply, val_main_v0_apply, val_main_v2_apply, val_main_v1_apply]
  show _ + _ = _ + _
  congr 1
  · refine Finset.sum_congr rfl fun k _ => ?_
    refine congrArg₂ (· * ·) (congrArg x0 (funext fun a => Fin.ext ?_)) (congrArg x1 (funext fun a => Fin.ext ?_))
    · match a with
      | ⟨0, _⟩ => rfl
      | ⟨1, _⟩ => rfl
      | ⟨2, _⟩ => rfl
    · match a with
      | ⟨0, _⟩ => rfl
      | ⟨1, _⟩ => rfl
  · refine congrArg x2 (funext fun a => Fin.ext ?_)
    match a with
    | ⟨0, _⟩ => rfl

/-- THE OUTPUT PROJECTION of the reference's merged attention output (its `%30`), read flat, is the reference's
    result (its `%34`), read flat. -/
theorem result_eq (x0 : (⟨Cert.ReferenceIdeal.S2x2048x1024, .f32⟩ : BufTy).Contents (Elt Ideal))
    (x1 : (⟨Cert.ReferenceIdeal.S1024x3072, .f32⟩ : BufTy).Contents (Elt Ideal))
    (x2 : (⟨Cert.ReferenceIdeal.S3072, .f32⟩ : BufTy).Contents (Elt Ideal))
    (x3 : (⟨Cert.ReferenceIdeal.S1024x1024, .f32⟩ : BufTy).Contents (Elt Ideal))
    (x4 : (⟨Cert.ReferenceIdeal.S1024, .f32⟩ : BufTy).Contents (Elt Ideal)) (i : Cert.KernelIdeal.S4096x1024.Idx) :
    Cert.KernelIdeal.OutProjValue.affine (flatRows (val_main_v30 (F := Ideal) x0 x1 x2)) x3 (biasRow1024 x4) i
      = val_main_v34 (F := Ideal) x0 x1 x2 x3 x4 (unflat (i 0).val (i 0).isLt (i 1).val (i 1).isLt) := by
  unfold Cert.KernelIdeal.OutProjValue.affine
  rw [val_main_v34_apply, val_main_v31_apply, val_main_v33_apply, val_main_v32_apply]
  refine congrArg₂ (· + ·) (Finset.sum_congr rfl fun k _ => ?_) (congrArg x4 (funext fun a => Fin.ext ?_))
  · refine congrArg₂ (· * ·) (congrArg (val_main_v30 (F := Ideal) x0 x1 x2) (funext fun a => Fin.ext ?_)) (congrArg x3 (funext fun a => Fin.ext ?_))
    · match a with
      | ⟨0, _⟩ => rfl
      | ⟨1, _⟩ => rfl
      | ⟨2, _⟩ => rfl
    · match a with
      | ⟨0, _⟩ => rfl
      | ⟨1, _⟩ => rfl
  · match a with
    | ⟨0, _⟩ => rfl

end Cert.Bridge

end
-- ==== Proof.BridgeHeads.lean ====
/-
  The attention heads against the reference's stages.

  At batch b, head h, query position s the reference forms the scores  s_n = (Σ_d' q[b,h,s,d'] · k[b,h,n,d']) / sqrt 64,
  their top, the shifted exponentials, the weights and the weighted sum of v[b,h,·,d] — the same row-softmax the
  kernel applies (`Cert.Attn`), its scale joined to the kernel's by `Cert.Attn.scale_eq` —, where q, k, v at
  [b, h, p, d] are the packed projections at [b, p, 64h + d], [b, p, 1024 + 64h + d], [b, p, 2048 + 64h + d].  Merged back
  ([b, s, 64h + d]) and read flat, that is `attnOf` of the packed projections read flat.
-/
import proofs.«125612_j15891378995335_2_alg».proof.Proof.HeadsValue
import proofs.«125612_j15891378995335_2_alg».proof.Proof.BridgeProj

set_option maxRecDepth 16384

noncomputable section

namespace Cert.Bridge

open Idealize.ShloMosaic
open Idealize.ShloMosaic.ValueIdx (ix3 ix4)
open Cert.ReferenceIdeal Cert.ReferenceIdeal.Read
open Cert.ReferenceIdeal.Facts₀

variable (x0 : (⟨Cert.ReferenceIdeal.S2x2048x1024, .f32⟩ : BufTy).Contents (Elt Ideal))
  (x1 : (⟨Cert.ReferenceIdeal.S1024x3072, .f32⟩ : BufTy).Contents (Elt Ideal))
  (x2 : (⟨Cert.ReferenceIdeal.S3072, .f32⟩ : BufTy).Contents (Elt Ideal))

/-- The reference's scaled scores of query position s against all key positions, at batch b and head h. -/
abbrev scoreRow (b : Fin 2) (h : Fin 16) (s : Fin 2048) : Fin 2048 → EReal :=
  fun n => val_main_v16 (F := Ideal) x0 x1 x2 (ix4 b h s n)

/-- q, k and v are thirds of the packed projections, head h in columns 64h … 64h + 63 of its third. -/
theorem query_ref (b : Fin 2) (h : Fin 16) (s : Fin 2048) (d : Fin 64) :
    val_main_v8 (F := Ideal) x0 x1 x2 (ix4 b h s d)
      = val_main_v3 (F := Ideal) x0 x1 x2 (ix3 b s ⟨64 * h.val + d.val, by have := h.isLt; have := d.isLt; omega⟩) := by
  rw [val_main_v8_apply, val_main_v7_apply, val_main_v4_apply]
  refine congrArg (val_main_v3 (F := Ideal) x0 x1 x2) (funext fun a => Fin.ext ?_)
  have hb := b.isLt; have hh := h.isLt; have hs := s.isLt; have hd := d.isLt
  match a with
  | ⟨0, _⟩ => show ((((b.val * 2048 + s.val) * 16 + h.val) * 64 + d.val) / 2097152) = b.val; omega
  | ⟨1, _⟩ => show ((((b.val * 2048 + s.val) * 16 + h.val) * 64 + d.val) / 1024 % 2048) = s.val; omega
  | ⟨2, _⟩ => show ((((b.val * 2048 + s.val) * 16 + h.val) * 64 + d.val) % 1024) = 64 * h.val + d.val; omega
theorem key_ref (b : Fin 2) (h : Fin 16) (n : Fin 2048) (d : Fin 64) :
    val_main_v10 (F := Ideal) x0 x1 x2 (ix4 b h n d)
      = val_main_v3 (F := Ideal) x0 x1 x2 (ix3 b n ⟨1024 + 64 * h.val + d.val, by have := h.isLt; have := d.isLt; omega⟩) := by
  rw [val_main_v10_apply, val_main_v9_apply, val_main_v5_apply]
  refine congrArg (val_main_v3 (F := Ideal) x0 x1 x2) (funext fun a => Fin.ext ?_)
  have hb := b.isLt; have hh := h.isLt; have hn := n.isLt; have hd := d.isLt
  match a with
  | ⟨0, _⟩ => show ((((b.val * 2048 + n.val) * 16 + h.val) * 64 + d.val) / 2097152) = b.val; omega
  | ⟨1, _⟩ => show ((((b.val * 2048 + n.val) * 16 + h.val) * 64 + d.val) / 1024 % 2048) = n.val; omega
  | ⟨2, _⟩ => show 1024 + ((((b.val * 2048 + n.val) * 16 + h.val) * 64 + d.val) % 1024) = 1024 + 64 * h.val + d.val; omega
theorem value_ref (b : Fin 2) (h : Fin 16) (n : Fin 2048) (d : Fin 64) :
    val_main_v12 (F := Ideal) x0 x1 x2 (ix4 b h n d)
      = val_main_v3 (F := Ideal) x0 x1 x2 (ix3 b n ⟨2048 + 64 * h.val + d.val, by have := h.isLt; have := d.isLt; omega⟩) := by
  rw [val_main_v12_apply, val_main_v11_apply, val_main_v6_apply]
  refine congrArg (val_main_v3 (F := Ideal) x0 x1 x2) (funext fun a => Fin.ext ?_)
  have hb := b.isLt; have hh := h.isLt; have hn := n.isLt; have hd := d.isLt
  match a with
  | ⟨0, _⟩ => show ((((b.val * 2048 + n.val) * 16 + h.val) * 64 + d.val) / 2097152) = b.val; omega
  | ⟨1, _⟩ => show ((((b.val * 2048 + n.val) * 16 + h.val) * 64 + d.val) / 1024 % 2048) = n.val; omega
  | ⟨2, _⟩ => show 2048 + ((((b.val * 2048 + n.val) * 16 + h.val) * 64 + d.val) % 1024) = 2048 + 64 * h.val + d.val; omega

/-- A score of the reference, with the kernel's spelling of the scale. -/
theorem score_ref (b : Fin 2) (h : Fin 16) (s n : Fin 2048) :
    scoreRow x0 x1 x2 b h s n
      = (∑ d' : Fin 64, val_main_v3 (F := Ideal) x0 x1 x2 (ix3 b s ⟨64 * h.val + d'.val, by have := h.isLt; have := d'.isLt; omega⟩)
            * val_main_v3 (F := Ideal) x0 x1 x2 (ix3 b n ⟨1024 + 64 * h.val + d'.val, by have := h.isLt; have := d'.isLt; omega⟩))
          * Ideal.ofBits .f32 0x3E000000#32 := by
  show val_main_v16 (F := Ideal) x0 x1 x2 (ix4 b h s n) = _
  rw [val_main_v16_apply, val_main_v13_apply, val_main_v15_apply, val_main_v14_apply, val_main_cst_apply, Cert.Attn.scale_eq]
  refine congrArg (Ideal.div · (Ideal.sqrt (Ideal.ofBits .f32 0x42800000#32))) (Finset.sum_congr rfl fun d' _ => ?_)
  exact congrArg₂ (· * ·) (query_ref x0 x1 x2 b h s d') (key_ref x0 x1 x2 b h n d')

/-! ## The row-softmax of the reference -/

theorem top_ref (b : Fin 2) (h : Fin 16) (s n : Fin 2048) :
    val_main_v21 (F := Ideal) x0 x1 x2 (ix4 b h s n) = Cert.Attn.rowTop (scoreRow x0 x1 x2 b h s) := by
  rw [val_main_v21_apply, val_main_v20_apply, val_main_v19_apply, val_main_v18_apply, val_main_cst_1_apply]
  unfold Cert.Attn.rowTop
  refine congrArg (max (Ideal.ofBits .f32 0xFF800000#32)) ?_
  unfold val_main_v17
  refine (Host.reduce_eq_fold_single FloatOps.maximumf _ _ reducesTo_S2x16x2048x2048_S2x16x2048_d3 (by decide) h_S_ _).trans ?_
  exact congrArg (fun f : Fin 2048 → EReal => (Finset.univ : Finset (Fin 2048)).fold max (Ideal.ofBits .f32 0xFF800000#32) f)
    (funext fun n' => congrArg (val_main_v16 (F := Ideal) x0 x1 x2) (funext fun a => Fin.ext (by
      match a with
      | ⟨0, _⟩ => rfl
      | ⟨1, _⟩ => rfl
      | ⟨2, _⟩ => rfl
      | ⟨3, _⟩ => rfl)))

theorem exp_ref (b : Fin 2) (h : Fin 16) (s n : Fin 2048) :
    val_main_v23 (F := Ideal) x0 x1 x2 (ix4 b h s n) = Cert.Attn.rowExp (scoreRow x0 x1 x2 b h s) n := by
  rw [val_main_v23_apply, val_main_v22_apply, top_ref]
  rfl

theorem den_ref (b : Fin 2) (h : Fin 16) (s n : Fin 2048) :
    val_main_v26 (F := Ideal) x0 x1 x2 (ix4 b h s n) = ∑ n' : Fin 2048, Cert.Attn.rowExp (scoreRow x0 x1 x2 b h s) n' := by
  rw [val_main_v26_apply, val_main_v25_apply, val_main_v24_apply, val_main_cst_2_apply]
  refine (congrArg (· + _) Ideal.ofBits_zero_f32).trans ((zero_add _).trans (Finset.sum_congr rfl fun n' _ => ?_))
  refine (congrArg (val_main_v23 (F := Ideal) x0 x1 x2) (funext fun a => Fin.ext ?_)).trans (exp_ref x0 x1 x2 b h s n')
  match a with
  | ⟨0, _⟩ => rfl
  | ⟨1, _⟩ => rfl
  | ⟨2, _⟩ => rfl
  | ⟨3, _⟩ => rfl

theorem weight_ref (b : Fin 2) (h : Fin 16) (s n : Fin 2048) :
    val_main_v27 (F := Ideal) x0 x1 x2 (ix4 b h s n) = Cert.Attn.rowWeight (scoreRow x0 x1 x2 b h s) n := by
  rw [val_main_v27_apply, exp_ref, den_ref]
  rfl

/-- One head of the reference at query position s and feature d. -/
theorem head_ref (b : Fin 2) (h : Fin 16) (s : Fin 2048) (d : Fin 64) :
    val_main_v28 (F := Ideal) x0 x1 x2 (ix4 b h s d)
      = Cert.Attn.attendRow (scoreRow x0 x1 x2 b h s) (fun n => val_main_v12 (F := Ideal) x0 x1 x2 (ix4 b h n d)) := by
  rw [val_main_v28_apply]
  unfold Cert.Attn.attendRow
  refine Finset.sum_congr rfl fun n _ => ?_
  refine congrArg₂ (· * ·) ?_ ?_
  · refine (congrArg (val_main_v27 (F := Ideal) x0 x1 x2) (funext fun a => Fin.ext ?_)).trans (weight_ref x0 x1 x2 b h s n)
    match a with
    | ⟨0, _⟩ => rfl
    | ⟨1, _⟩ => rfl
    | ⟨2, _⟩ => rfl
    | ⟨3, _⟩ => rfl
  · refine congrArg (val_main_v12 (F := Ideal) x0 x1 x2) (funext fun a => Fin.ext ?_)
    match a with
    | ⟨0, _⟩ => rfl
    | ⟨1, _⟩ => rfl
    | ⟨2, _⟩ => rfl
    | ⟨3, _⟩ => rfl

/-- The merged layout: feature e of position s is feature e % 64 of head e / 64. -/
theorem merged_ref (b : Fin 2) (s : Fin 2048) (e : Fin 1024) :
    val_main_v30 (F := Ideal) x0 x1 x2 (ix3 b s e)
      = val_main_v28 (F := Ideal) x0 x1 x2 (ix4 b ⟨e.val / 64, by have := e.isLt; omega⟩ s ⟨e.val % 64, by omega⟩) := by
  rw [val_main_v30_apply, val_main_v29_apply]
  refine congrArg (val_main_v28 (F := Ideal) x0 x1 x2) (funext fun a => Fin.ext ?_)
  have hb := b.isLt; have hs := s.isLt; have he := e.isLt
  match a with
  | ⟨0, _⟩ => show (((b.val * 2048 + s.val) * 1024 + e.val) / 2097152) = b.val; omega
  | ⟨1, _⟩ => show (((b.val * 2048 + s.val) * 1024 + e.val) / 64 % 16) = e.val / 64; omega
  | ⟨2, _⟩ => show (((b.val * 2048 + s.val) * 1024 + e.val) / 1024 % 2048) = s.val; omega
  | ⟨3, _⟩ => show (((b.val * 2048 + s.val) * 1024 + e.val) % 64) = e.val % 64; omega

/-- THE ATTENTION REGION'S FUNCTION of the reference's packed projections (its `%3`), read flat, is the reference's
    merged attention output (its `%30`), read flat. -/
theorem attn_eq (i : Cert.KernelIdeal.S4096x1024.Idx) :
    Cert.KernelIdeal.HeadsValue.attnOf
        (fun j : Cert.KernelIdeal.S4096x3072.Idx => val_main_v3 (F := Ideal) x0 x1 x2 (unflat (j 0).val (j 0).isLt (j 1).val (j 1).isLt)) i
      = val_main_v30 (F := Ideal) x0 x1 x2 (unflat (i 0).val (i 0).isLt (i 1).val (i 1).isLt) := by
  have hi0 : (i 0).val < 4096 := (i 0).isLt
  have hi1 : (i 1).val < 1024 := (i 1).isLt
  refine Eq.trans ?_ ((merged_ref x0 x1 x2 ⟨(i 0).val / 2048, by omega⟩ ⟨(i 0).val % 2048, by omega⟩ ⟨(i 1).val, hi1⟩).trans
    (head_ref x0 x1 x2 ⟨(i 0).val / 2048, by omega⟩ ⟨(i 1).val / 64, by omega⟩ ⟨(i 0).val % 2048, by omega⟩ ⟨(i 1).val % 64, by omega⟩)).symm
  unfold Cert.KernelIdeal.HeadsValue.attnOf
  refine congrArg₂ Cert.Attn.attendRow (funext fun n => ?_) (funext fun n => ?_)
  · refine Eq.trans ?_ (score_ref x0 x1 x2 ⟨(i 0).val / 2048, by omega⟩ ⟨(i 1).val / 64, by omega⟩ ⟨(i 0).val % 2048, by omega⟩ n).symm
    refine congrArg (· * Ideal.ofBits .f32 0x3E000000#32) (Finset.sum_congr rfl fun d' _ => ?_)
    have hd := d'.isLt; have hn := n.isLt
    refine congrArg₂ (· * ·) (congrArg (val_main_v3 (F := Ideal) x0 x1 x2) (funext fun a => Fin.ext ?_))
      (congrArg (val_main_v3 (F := Ideal) x0 x1 x2) (funext fun a => Fin.ext ?_))
    · match a with
      | ⟨0, _⟩ => rfl
      | ⟨1, _⟩ => rfl
      | ⟨2, _⟩ => rfl
    · match a with
      | ⟨0, _⟩ => show (2048 * ((i 0).val / 2048) + n.val) / 2048 = (i 0).val / 2048; omega
      | ⟨1, _⟩ => show (2048 * ((i 0).val / 2048) + n.val) % 2048 = n.val; omega
      | ⟨2, _⟩ => rfl
  · refine Eq.trans ?_ (value_ref x0 x1 x2 ⟨(i 0).val / 2048, by omega⟩ ⟨(i 1).val / 64, by omega⟩ n ⟨(i 1).val % 64, by omega⟩).symm
    have hn := n.isLt
    refine congrArg (val_main_v3 (F := Ideal) x0 x1 x2) (funext fun a => Fin.ext ?_)
    match a with
    | ⟨0, _⟩ => show (2048 * ((i 0).val / 2048) + n.val) / 2048 = (i 0).val / 2048; omega
    | ⟨1, _⟩ => show (2048 * ((i 0).val / 2048) + n.val) % 2048 = n.val; omega
    | ⟨2, _⟩ => show 2048 + (i 1).val = 2048 + 64 * ((i 1).val / 64) + (i 1).val % 64; omega

end Cert.Bridge

end
-- ==== Proof.Algebraic.lean ====
/-
  The result of the idealized kernel as a function of its arguments, and the algebraic claim.

  The run (`Whole.run`) ends with every unscoped buffer at `memAt5`.  Reading that at the result buffer: the last
  reshape un-flattens the output projection's array; that array is `affine` of the attention region's array, the
  output weights and the output bias as a row; the attention region's array is `attnOf` of the input projection's
  array; and that one is `affine` of the flattened activations, the packed weights and the packed bias as a row.
  The three bridges identify these, read flat, with the reference's stages `%3`, `%30`, `%34`; un-flattening
  the flat reading gives the reference's result itself.
-/
import proofs.«125612_j15891378995335_2_alg».proof.Defs
import proofs.«125612_j15891378995335_2_alg».proof.Proof.Whole
import proofs.«125612_j15891378995335_2_alg».proof.Proof.InProjValue
import proofs.«125612_j15891378995335_2_alg».proof.Proof.HeadsValue
import proofs.«125612_j15891378995335_2_alg».proof.Proof.OutProjValue
import proofs.«125612_j15891378995335_2_alg».proof.Proof.BridgeProj
import proofs.«125612_j15891378995335_2_alg».proof.Proof.BridgeHeads
import proofs.«125612_j15891378995335_2_alg».proof.Proof.Gen.KernelIdeal
import proofs.«125612_j15891378995335_2_alg».proof.Proof.Gen.ReferenceIdeal
import proofs.«125612_j15891378995335_2_alg».proof.Proof.Gen.Pre_finite_inputs
import Idealize.ShloMosaic.Lib.StableHlo.Run

set_option maxRecDepth 16384

noncomputable section

namespace Cert.KernelIdeal.Result

open Cert.KernelIdeal Cert.KernelIdeal.Gen Cert.KernelIdeal.Whole
open Idealize.ShloMosaic Idealize.ShloMosaic.TcCoe Idealize.SL.Sem Idealize.ShloMosaic.StableHlo
open Cert.ReferenceIdeal.Read (val_main_v3 val_main_v30 val_main_v34)

variable (m : (ℓ : Loc nD τ sig) → Buf (Elt Ideal) ℓ)

/-! ## The host reshapes, read -/

/-- The flattened activations. -/
theorem rows_in (c : Dev nD) :
    (tcAt1 m c main_v0 : S4096x1024.Idx → EReal) = Cert.Bridge.flatRows (m ((c : Thread nD τ).loc main_arg0)) := by
  have e : (tcAt1 m c main_v0 : S4096x1024.Idx → EReal)
      = shapeCast S4096x1024 (m ((c : Thread nD τ).loc main_arg0)) shapeCasts_S2x2048x1024_S4096x1024 := by
    show StableHlo.after hostOps0 (memAt0 m c) (Proc.devRef .tc main_v0) = _
    after_results; rfl
  rw [e]
  funext j
  have h0 : (j 0).val < 4096 := (j 0).isLt
  exact shapeCast_apply _ shapeCasts_S2x2048x1024_S4096x1024 j _ (by
    rewrite [Shape.rowMajor_val_three, Shape.rowMajor_val_two]
    show ((j 0).val / 2048 * 2048 + (j 0).val % 2048) * 1024 + (j 1).val = (j 0).val * 1024 + (j 1).val; omega)

/-- The packed bias as a row. -/
theorem bias_in (c : Dev nD) :
    (tcAt1 m c main_v1 : S1x3072.Idx → EReal) = Cert.Bridge.biasRow3072 (m ((c : Thread nD τ).loc main_arg2)) := by
  have e : (tcAt1 m c main_v1 : S1x3072.Idx → EReal)
      = shapeCast S1x3072 (m ((c : Thread nD τ).loc main_arg2)) shapeCasts_S3072_S1x3072 := by
    show StableHlo.after hostOps0 (memAt0 m c) (Proc.devRef .tc main_v1) = _
    after_results; rfl
  rw [e]
  funext j
  have h0 : (j 0).val < 1 := (j 0).isLt
  exact shapeCast_apply _ shapeCasts_S3072_S1x3072 j _ (by
    rewrite [Shape.rowMajor_val_one, Shape.rowMajor_val_two]
    show (j 1).val = (j 0).val * 3072 + (j 1).val; omega)

/-- The output bias as a row, still there when the output projection is entered. -/
theorem bias_out (c : Dev nD) :
    (tcAt3 m c main_v2 : S1x1024.Idx → EReal) = Cert.Bridge.biasRow1024 (m ((c : Thread nD τ).loc main_arg4)) := by
  have e : (tcAt3 m c main_v2 : S1x1024.Idx → EReal)
      = shapeCast S1x1024 (m ((c : Thread nD τ).loc main_arg4)) shapeCasts_S1024_S1x1024 := by
    show memAt3 m c (Proc.devRef .tc main_v2) = _
    rw [memAt3_off m c main_v2 (by decide), memAt2_off m c main_v2 (by decide)]
    show StableHlo.after hostOps0 (memAt0 m c) (Proc.devRef .tc main_v2) = _
    after_results; rfl
  rw [e]
  funext j
  have h0 : (j 0).val < 1 := (j 0).isLt
  exact shapeCast_apply _ shapeCasts_S1024_S1x1024 j _ (by
    rewrite [Shape.rowMajor_val_one, Shape.rowMajor_val_two]
    show (j 1).val = (j 0).val * 1024 + (j 1).val; omega)

/-- The two weight matrices are as launched when their regions are entered. -/
theorem weights_in (c : Dev nD) : tcAt1 m c main_arg1 = m ((c : Thread nD τ).loc main_arg1) :=
  head_keeps m c main_arg1 (by decide) (by decide) (by decide)
theorem weights_out (c : Dev nD) : tcAt3 m c main_arg3 = m ((c : Thread nD τ).loc main_arg3) :=
  (memAt3_off m c main_arg3 (by decide)).trans ((memAt2_off m c main_arg3 (by decide)).trans
    (head_keeps m c main_arg3 (by decide) (by decide) (by decide)))

/-! ## The stages chained -/

/-- After the input projection the packed buffer holds the reference's packed projections, read flat. -/
theorem packed (c : Dev nD) :
    (tcAt2 m c main_v3 : S4096x3072.Idx → EReal)
      = fun j => val_main_v3 (F := Ideal) (m ((c : Thread nD τ).loc main_arg0)) (m ((c : Thread nD τ).loc main_arg1)) (m ((c : Thread nD τ).loc main_arg2))
          (Cert.Bridge.unflat (j 0).val (j 0).isLt (j 1).val (j 1).isLt) := by
  have e : (tcAt2 m c main_v3 : S4096x3072.Idx → EReal) = (InProj.dat (F := Ideal) (tcAt1 m) c).arrAt 3 cfg0.N := memAt2_arr m c 3
  rw [e, InProjValue.final (tcAt1 m) c, rows_in, bias_in, weights_in]
  exact funext fun j => Cert.Bridge.packed_eq _ _ _ j

/-- After the attention heads the merged buffer holds the reference's merged attention output, read flat. -/
theorem merged (c : Dev nD) :
    (tcAt3 m c main_v4 : S4096x1024.Idx → EReal)
      = Cert.Bridge.flatRows (val_main_v30 (F := Ideal) (m ((c : Thread nD τ).loc main_arg0)) (m ((c : Thread nD τ).loc main_arg1)) (m ((c : Thread nD τ).loc main_arg2))) := by
  have e : (tcAt3 m c main_v4 : S4096x1024.Idx → EReal) = (Heads.dat (F := Ideal) (tcAt2 m) c).arrAt 3 cfg1.N := memAt3_out m c
  rw [e, HeadsValue.final (tcAt2 m) c, packed]
  exact funext fun i => Cert.Bridge.attn_eq _ _ _ i

/-- After the output projection its buffer holds the reference's result, read flat. -/
theorem projected (c : Dev nD) :
    (tcAt4 m c main_v5 : S4096x1024.Idx → EReal)
      = fun i => val_main_v34 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (Cert.Bridge.unflat (i 0).val (i 0).isLt (i 1).val (i 1).isLt) := by
  have e : (tcAt4 m c main_v5 : S4096x1024.Idx → EReal) = (OutProj.dat (F := Ideal) (tcAt3 m) c).arrAt 3 cfg2.N := memAt4_arr m c 3
  rw [e, OutProjValue.final (tcAt3 m) c, merged, bias_out, weights_out]
  exact funext fun i => Cert.Bridge.result_eq _ _ _ _ _ i

/-- THE RESULT of the idealized kernel: the reference's result term of the same arguments. -/
theorem result (c : Dev nD) :
    (memAt5 m c (Proc.devRef .tc main_v6) : S2x2048x1024.Idx → EReal)
      = val_main_v34 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) := by
  have e : (memAt5 m c (Proc.devRef .tc main_v6) : S2x2048x1024.Idx → EReal)
      = shapeCast S2x2048x1024 (tcAt4 m c main_v5) shapeCasts_S4096x1024_S2x2048x1024 := by
    show StableHlo.after hostOps3 (memAt4 m c) (Proc.devRef .tc main_v6) = _
    after_results; rfl
  rw [e, projected]
  funext i
  have h0 : (i 0).val < 2 := (i 0).isLt
  have h1 : (i 1).val < 2048 := (i 1).isLt
  refine (shapeCast_apply _ shapeCasts_S4096x1024_S2x2048x1024 i
    (ValueIdx.ix2 (⟨(i 0).val * 2048 + (i 1).val, by omega⟩ : Fin 4096) (⟨(i 2).val, (i 2).isLt⟩ : Fin 1024)) (by
      rewrite [Shape.rowMajor_val_two, Shape.rowMajor_val_three]; rfl)).trans ?_
  refine congrArg (val_main_v34 (F := Ideal) _ _ _ _ _) (funext fun a => Fin.ext ?_)
  match a with
  | ⟨0, _⟩ => show ((i 0).val * 2048 + (i 1).val) / 2048 = (i 0).val; omega
  | ⟨1, _⟩ => show ((i 0).val * 2048 + (i 1).val) % 2048 = (i 1).val; omega
  | ⟨2, _⟩ => rfl

end Cert.KernelIdeal.Result

/-! ## The claim -/

namespace Cert.Proof

open Idealize.ShloMosaic Idealize.SL.Sem

/-- At the ideal instance the kernel's result buffer ends at the reference's result term of the kernel's arguments
    (`Result.result` over the whole run), and the reference's at the same term of its own arguments (its generated run),
    which agree. -/
theorem algebraic : Cert.algebraic_KernelIdeal_ReferenceIdeal := by
  intro m ρ m' ρ' _ hagree
  refine ⟨fun c => Cert.ReferenceIdeal.Read.val_main_v34 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun r h c =>
      ⟨(h c _ (Cert.KernelIdeal.Whole.mem_unscoped Cert.KernelIdeal.main_v6 (by decide))).trans (Cert.KernelIdeal.Result.result m c),
       (h c _ (Cert.KernelIdeal.Whole.mem_unscoped Cert.KernelIdeal.main_arg0 (by decide))).trans (Cert.KernelIdeal.Whole.kept_arg0 m c),
       (h c _ (Cert.KernelIdeal.Whole.mem_unscoped Cert.KernelIdeal.main_arg1 (by decide))).trans (Cert.KernelIdeal.Whole.kept_arg1 m c),
       (h c _ (Cert.KernelIdeal.Whole.mem_unscoped Cert.KernelIdeal.main_arg2 (by decide))).trans (Cert.KernelIdeal.Whole.kept_arg2 m c),
       (h c _ (Cert.KernelIdeal.Whole.mem_unscoped Cert.KernelIdeal.main_arg3 (by decide))).trans (Cert.KernelIdeal.Whole.kept_arg3 m c),
       (h c _ (Cert.KernelIdeal.Whole.mem_unscoped Cert.KernelIdeal.main_arg4 (by decide))).trans (Cert.KernelIdeal.Whole.kept_arg4 m c)⟩)
      (Cert.KernelIdeal.Whole.run m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v34_eq, (hagree c).1, (hagree c).2.1, (hagree c).2.2.1, (hagree c).2.2.2.1, (hagree c).2.2.2.2]

end Cert.Proof

end
-- ==== Proof.lean ====
/-
  The certificate of the multi-head attention kernel against its jnp reference.

  The kernel computes, in three pallas_calls over flat row-major buffers, the packed projections
  qkv = x · W_attn + b_attn (4096 × 3072), then per batch and head softmax(q · kᵀ · 0.125) · v written head by head into
  the merged 4096 × 1024 buffer, then the output projection · W_proj + b_proj.  The reference computes the same with
  einsums over [batch, head, position, feature] arrays, dividing the scores by sqrt(64).

  Frames: each program terminates on every weakly fair execution, faults nowhere and leaves its arguments unchanged —
  for the two kernel programs from the whole run (`Whole.run`: the idealized program; `Words/`: the word-level one),
  for the reference from its run.  The ideal pass rewrote nothing, so `preserves` has nothing to state.

  Algebraic: at the ideal instance every change of float format is the identity, each matrix product is the plain
  sum of products, and the row-softmax is the same function of a row of scores on both sides; the one law needed is
  x · 0.125 = x / sqrt(64) on the extended reals (`Cert.Attn.scale_eq`), which needs no finiteness.  The kernel's three
  buffers, read flat, are the reference's stages `%3`, `%30`, `%34` (`Result.packed`, `merged`, `projected`), and the
  last reshape gives the reference's result (`Result.result`).
-/
import proofs.«125612_j15891378995335_2_alg».proof.Defs
import proofs.«125612_j15891378995335_2_alg».proof.Proof.Gen.Kernel
import proofs.«125612_j15891378995335_2_alg».proof.Proof.Gen.KernelIdeal
import proofs.«125612_j15891378995335_2_alg».proof.Proof.Gen.ReferenceIdeal
import proofs.«125612_j15891378995335_2_alg».proof.Proof.Gen.ReferenceIdeal.Run
import proofs.«125612_j15891378995335_2_alg».proof.Proof.Gen.ReferenceIdeal.Read
import proofs.«125612_j15891378995335_2_alg».proof.Proof.Gen.Pre_finite_inputs
import proofs.«125612_j15891378995335_2_alg».proof.Proof.Whole
import proofs.«125612_j15891378995335_2_alg».proof.Proof.Words.Whole
import proofs.«125612_j15891378995335_2_alg».proof.Proof.Algebraic
import Idealize.ShloMosaic.Adequacy
import Idealize.ShloMosaic.Init

noncomputable section

namespace Cert.Proof

open Idealize.ShloMosaic Idealize.SL.Sem

theorem frame_kernel [Cert.Kernel.Facts] [Cert.Pre_finite_inputs.Facts] : Cert.frame_Kernel :=
  fun m ρ _ => Cert.Kernel.Whole.frame m ρ
theorem frame_kernelIdeal [Cert.KernelIdeal.Facts] [Cert.Pre_finite_inputs.Facts] : Cert.frame_KernelIdeal :=
  fun m ρ _ => Cert.KernelIdeal.Whole.frame m ρ
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
